-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v11_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4x1024 : Shape := ⟨3, ![2048, 4, 1024]⟩
abbrev S1024x1024 : Shape := ⟨2, ![1024, 1024]⟩
abbrev S1024 : Shape := ⟨1, ![1024]⟩
abbrev S_ : Shape := ⟨0, ![]⟩

class Facts : Prop where
  bcast_S_S2048x4x1024 : S_.BroadcastsInDim S2048x4x1024 (![] : Fin 0 → Fin S2048x4x1024.rank)
  reducesTo_S2048x4x1024_S_d0_1_2 : S2048x4x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S1024x1024 .f32) (main_arg5 : FVec F S1024x1024 .f32) (main_arg6 : FVec F S1024x1024 .f32) (main_arg7 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_v33

def fn {F : FTy → Type} [FloatOps F] (main_arg0 : FVec F S2048x4x1024 .f32) (main_arg1 : FVec F S2048x4x1024 .f32) (main_arg2 : FVec F S2048x4x1024 .f32) (main_arg3 : FVec F S1024x1024 .f32) (main_arg4 : FVec F S1024x1024 .f32) (main_arg5 : FVec F S1024x1024 .f32) (main_arg6 : FVec F S1024x1024 .f32) (main_arg7 : FVec F S1024 .f32) : IVec S_ 1 :=
  let main_v0 : FVec F S2048x4x1024 .f32 := Host.absf main_arg0
  let main_cst : FVec F S_ .f32 := constant S_ .f32 0x7F800000#32
  let main_v1 : FVec F S2048x4x1024 .f32 := broadcastInDim S2048x4x1024 ![] bcast_S_S2048x4x1024 main_cst
  let main_v2 : IVec S2048x4x1024 1 := cmpf .olt main_v0 main_v1
  let main_c : IVec S_ 1 := constantI S_ 1 1#1
  let main_v3 : IVec S_ 1 := (fun x v => Host.reduce IntOp.andi x v reducesTo_S2048x4x1024_S_d0_1_2 h_S_) main_v2 main_c
  let main_v4 : FVec F S2048x4x1024 .f32 := Host.absf main_arg1
  let main_cst_0 : FVec F S_ .f32 := constant S_ .f32 0x7F800000#32
  let main_v5 : FVec F S2048x4x1024 .f32 := broadcastInDim S2048x4x1024 ![] bcast_S_S2048x4x1024 main_cst_0
  let main_v6 : IVec S2048x4x1024 1 := cmpf .olt main_v4 main_v5
  let main_c_1 : IVec S_ 1 := constantI S_ 1 1#1
  let main_v7 : IVec S_ 1 := (fun x v => Host.reduce IntOp.andi x v reducesTo_S2048x4x1024_S_d0_1_2 h_S_) main_v6 main_c_1
  let main_v8 : IVec S_ 1 := andi main_v3 main_v7
  let main_v9 : FVec F S2048x4x1024 .f32 := Host.absf main_arg2
  let main_cst_2 : FVec F S_ .f32 := constant S_ .f32 0x7F800000#32
  let main_v10 : FVec F S2048x4x1024 .f32 := broadcastInDim S2048x4x1024 ![] bcast_S_S2048x4x1024 main_cst_2
  let main_v11 : IVec S2048x4x1024 1 := cmpf .olt main_v9 main_v10
  let main_c_3 : IVec S_ 1 := constantI S_ 1 1#1
  let main_v12 : IVec S_ 1 := (fun x v => Host.reduce IntOp.andi x v reducesTo_S2048x4x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_v13 main_v16
-- ==== Kernel.lean ====
abbrev S2048x4x1024 : Shape := ⟨3, ![2048, 4, 1024]⟩
abbrev S1024x1024 : Shape := ⟨2, ![1024, 1024]⟩
abbrev S1024 : Shape := ⟨1, ![1024]⟩
abbrev S1x1024 : Shape := ⟨2, ![1, 1024]⟩
abbrev S8192x1024 : Shape := ⟨2, ![8192, 1024]⟩
abbrev S4x2048x1024 : Shape := ⟨3, ![4, 2048, 1024]⟩
abbrev S4x256x1024 : Shape := ⟨3, ![4, 256, 1024]⟩
abbrev S256x4x1024 : Shape := ⟨3, ![256, 4, 1024]⟩
abbrev S4x2048x2048 : Shape := ⟨3, ![4, 2048, 2048]⟩
abbrev S1x256x1024 : Shape := ⟨3, ![1, 256, 1024]⟩
abbrev S1x2048x1024 : Shape := ⟨3, ![1, 2048, 1024]⟩
abbrev S4x256x2048 : Shape := ⟨3, ![4, 256, 2048]⟩
abbrev S256x1024 : Shape := ⟨2, ![256, 1024]⟩
abbrev S2048x1024 : Shape := ⟨2, ![2048, 1024]⟩
abbrev S256x64 : Shape := ⟨2, ![256, 64]⟩
abbrev S2048x64 : Shape := ⟨2, ![2048, 64]⟩
abbrev S256x2048 : Shape := ⟨2, ![256, 2048]⟩
abbrev S256 : Shape := ⟨1, ![256]⟩
abbrev S256x1 : Shape := ⟨2, ![256, 1]⟩
abbrev S1x256x2048 : Shape := ⟨3, ![1, 256, 2048]⟩

abbrev nBuf : Space → Nat
  | .hbm => 22
  | .vmem => 31
  | .smem => 0
  | _ => 0

abbrev bufTy : (tb : Table) → Fin (tcTables nBuf tb) → BufTy
  | .hbm, ⟨0, _⟩ => ⟨S2048x4x1024, .f32⟩
  | .hbm, ⟨1, _⟩ => ⟨S2048x4x1024, .f32⟩
  | .hbm, ⟨2, _⟩ => ⟨S2048x4x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S4x2048x1024, .bf16⟩
  | .hbm, ⟨17, _⟩ => ⟨S4x2048x1024, .bf16⟩
  | .hbm, ⟨18, _⟩ => ⟨S4x2048x1024, .bf16⟩
  | .hbm, ⟨19, _⟩ => ⟨S4x2048x1024, .bf16⟩
  | .hbm, ⟨20, _⟩ => ⟨S4x2048x2048, .f32⟩
  | .hbm, ⟨21, _⟩ => ⟨S2048x4x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S4x256x1024, .bf16⟩
  | .local _ .vmem, ⟨4, _⟩ => ⟨S4x256x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S4x256x1024, .bf16⟩
  | .local _ .vmem, ⟨9, _⟩ => ⟨S4x256x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S4x256x1024, .bf16⟩
  | .local _ .vmem, ⟨14, _⟩ => ⟨S4x256x1024, .bf16⟩
  | .local _ .vmem, ⟨15, _⟩ => ⟨S1x256x1024, .bf16⟩
  | .local _ .vmem, ⟨16, _⟩ => ⟨S1x256x1024, .bf16⟩
  | .local _ .vmem, ⟨17, _⟩ => ⟨S1x2048x1024, .bf16⟩
  | .local _ .vmem, ⟨18, _⟩ => ⟨S1x2048x1024, .bf16⟩
  | .local _ .vmem, ⟨19, _⟩ => ⟨S1x2048x1024, .bf16⟩
  | .local _ .vmem, ⟨20, _⟩ => ⟨S1x2048x1024, .bf16⟩
  | .local _ .vmem, ⟨21, _⟩ => ⟨S1x256x1024, .bf16⟩
  | .local _ .vmem, ⟨22, _⟩ => ⟨S1x256x1024, .bf16⟩
  | .local _ .vmem, ⟨23, _⟩ => ⟨S4x256x2048, .f32⟩
  | .local _ .vmem, ⟨24, _⟩ => ⟨S4x256x2048, .f32⟩
  | .local _ .vmem, ⟨25, _⟩ => ⟨S4x256x1024, .bf16⟩
  | .local _ .vmem, ⟨26, _⟩ => ⟨S4x256x1024, .bf16⟩
  | .local _ .vmem, ⟨27, _⟩ => ⟨S1024x1024, .f32⟩
  | .local _ .vmem, ⟨28, _⟩ => ⟨S1x1024, .f32⟩
  | .local _ .vmem, ⟨29, _⟩ => ⟨S256x4x1024, .f32⟩
  | .local _ .vmem, ⟨30, _⟩ => ⟨S256x4x1024, .f32⟩
  | _, _ => ⟨S2048x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_stg2_1 : Ref sig .tc := ⟨.vmem, 20, rfl⟩
abbrev cc3_stg3_0 : Ref sig .tc := ⟨.vmem, 21, rfl⟩
abbrev cc3_stg3_1 : Ref sig .tc := ⟨.vmem, 22, rfl⟩
abbrev cc3_stg4_0 : Ref sig .tc := ⟨.vmem, 23, rfl⟩
abbrev cc3_stg4_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg2_0 : Ref sig .tc := ⟨.vmem, 28, rfl⟩
abbrev cc4_stg3_0 : Ref sig .tc := ⟨.vmem, 29, rfl⟩
abbrev cc4_stg3_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc3_sem2_1 : DmaSem sig := 20
abbrev cc3_sem3_0 : DmaSem sig := 21
abbrev cc3_sem3_1 : DmaSem sig := 22
abbrev cc3_sem4_0 : DmaSem sig := 23
abbrev cc3_sem4_1 : DmaSem sig := 24
abbrev cc4_sem0_0 : DmaSem sig := 25
abbrev cc4_sem0_1 : DmaSem sig := 26
abbrev cc4_sem1_0 : DmaSem sig := 27
abbrev cc4_sem2_0 : DmaSem sig := 28
abbrev cc4_sem3_0 : DmaSem sig := 29
abbrev cc4_sem3_1 : DmaSem sig := 30

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4x256x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4x256x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![8, 4], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc3_transform_4 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage3_0 : Fin 2 → Memref sig .tc .vmem S1x256x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x2048x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1x2048x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S1x256x1024 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S4x256x2048 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

abbrev grid4 : Pipeline.Grid := ⟨1, ![8], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S4x256x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1024x1024 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S256x4x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  transposes_S1024x1024_S1024x1024_1_0 : S1024x1024.Transposes [1, 0] S1024x1024
  shapeCasts_S1024_S1x1024 : S1024.ShapeCasts S1x1024
  shapeCasts_S2048x4x1024_S8192x1024 : S2048x4x1024.ShapeCasts S8192x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  shapeCasts_S1024x1024_S256x4x1024 : S1024x1024.ShapeCasts S256x4x1024
  transposes_S256x4x1024_p1_0_2_S4x256x1024 : S256x4x1024.Transposes [1, 0, 2] S4x256x1024
  inb_S4x256x1024_S4x256x1024_0_0_0 : ∀ a, (![0, 0, 0] : Fin 3 → Nat) a + S4x256x1024.size a ≤ S4x256x1024.size a
  h_S4x256x1024 : 0 < S4x256x1024.numel
  packedbf16_S4x256x1024_S4x256x1024_0_0_0 : (Rect.unit (s := S4x256x1024) ![0, 0, 0] S4x256x1024.size inb_S4x256x1024_S4x256x1024_0_0_0).PackedRows (EltTy.packing .bf16)
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S4x256x2048_S4x256x2048_0_0_0 : ∀ a, (![0, 0, 0] : Fin 3 → Nat) a + S4x256x2048.size a ≤ S4x256x2048.size a
  h_S4x256x2048 : 0 < S4x256x2048.numel
  slices_S256x1024_o0_0_S256x64 : S256x1024.Slices ![0, 0] S256x64
  slices_S2048x1024_o0_0_S2048x64 : S2048x1024.Slices ![0, 0] S2048x64
  reduces_S256x2048_S256 : S256x2048.Reduces [1] S256
  shapeCasts_S256_S256x1 : S256.ShapeCasts S256x1
  broadcasts_S256x1_S256x2048 : S256x1.Broadcasts S256x2048
  inb_S4x256x2048_S1x256x2048_0_0_0 : ∀ a, (![0, 0, 0] : Fin 3 → Nat) a + S1x256x2048.size a ≤ S4x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  slices_S256x1024_o0_64_S256x64 : S256x1024.Slices ![0, 64] S256x64
  slices_S2048x1024_o0_64_S2048x64 : S2048x1024.Slices ![0, 64] S2048x64
  inb_S4x256x2048_S1x256x2048_1_0_0 : ∀ a, (![1, 0, 0] : Fin 3 → Nat) a + S1x256x2048.size a ≤ S4x256x2048.size a
  slices_S256x1024_o0_128_S256x64 : S256x1024.Slices ![0, 128] S256x64
  slices_S2048x1024_o0_128_S2048x64 : S2048x1024.Slices ![0, 128] S2048x64
  inb_S4x256x2048_S1x256x2048_2_0_0 : ∀ a, (![2, 0, 0] : Fin 3 → Nat) a + S1x256x2048.size a ≤ S4x256x2048.size a
  slices_S256x1024_o0_192_S256x64 : S256x1024.Slices ![0, 192] S256x64
  slices_S2048x1024_o0_192_S2048x64 : S2048x1024.Slices ![0, 192] S2048x64
  inb_S4x256x2048_S1x256x2048_3_0_0 : ∀ a, (![3, 0, 0] : Fin 3 → Nat) a + S1x256x2048.size a ≤ S4x256x2048.size a
  slices_S256x1024_o0_256_S256x64 : S256x1024.Slices ![0, 256] S256x64
  slices_S2048x1024_o0_256_S2048x64 : S2048x1024.Slices ![0, 256] S2048x64
  slices_S256x1024_o0_320_S256x64 : S256x1024.Slices ![0, 320] S256x64
  slices_S2048x1024_o0_320_S2048x64 : S2048x1024.Slices ![0, 320] S2048x64
  slices_S256x1024_o0_384_S256x64 : S256x1024.Slices ![0, 384] S256x64
  slices_S2048x1024_o0_384_S2048x64 : S2048x1024.Slices ![0, 384] S2048x64
  slices_S256x1024_o0_448_S256x64 : S256x1024.Slices ![0, 448] S256x64
  slices_S2048x1024_o0_448_S2048x64 : S2048x1024.Slices ![0, 448] S2048x64
  slices_S256x1024_o0_512_S256x64 : S256x1024.Slices ![0, 512] S256x64
  slices_S2048x1024_o0_512_S2048x64 : S2048x1024.Slices ![0, 512] S2048x64
  slices_S256x1024_o0_576_S256x64 : S256x1024.Slices ![0, 576] S256x64
  slices_S2048x1024_o0_576_S2048x64 : S2048x1024.Slices ![0, 576] S2048x64
  slices_S256x1024_o0_640_S256x64 : S256x1024.Slices ![0, 640] S256x64
  slices_S2048x1024_o0_640_S2048x64 : S2048x1024.Slices ![0, 640] S2048x64
  slices_S256x1024_o0_704_S256x64 : S256x1024.Slices ![0, 704] S256x64
  slices_S2048x1024_o0_704_S2048x64 : S2048x1024.Slices ![0, 704] S2048x64
  slices_S256x1024_o0_768_S256x64 : S256x1024.Slices ![0, 768] S256x64
  slices_S2048x1024_o0_768_S2048x64 : S2048x1024.Slices ![0, 768] S2048x64
  slices_S256x1024_o0_832_S256x64 : S256x1024.Slices ![0, 832] S256x64
  slices_S2048x1024_o0_832_S2048x64 : S2048x1024.Slices ![0, 832] S2048x64
  slices_S256x1024_o0_896_S256x64 : S256x1024.Slices ![0, 896] S256x64
  slices_S2048x1024_o0_896_S2048x64 : S2048x1024.Slices ![0, 896] S2048x64
  slices_S256x1024_o0_960_S256x64 : S256x1024.Slices ![0, 960] S256x64
  slices_S2048x1024_o0_960_S2048x64 : S2048x1024.Slices ![0, 960] S2048x64
  concatenates_S256x64_S256x64_S256x64_S256x64_S256x64_S256x64_S256x64_S256x64_S256x64_S256x64_S256x64_S256x64_S256x64_S256x64_S256x64_S256x64_S256x1024_d1 : Shape.Concatenates [S256x64, S256x64, S256x64, S256x64, S256x64, S256x64, S256x64, S256x64, S256x64, S256x64, S256x64, S256x64, S256x64, S256x64, S256x64, S256x64] S256x1024 1
  shapeCasts_S256x1024_S1x256x1024 : S256x1024.ShapeCasts S1x256x1024
  packedbf16_S1x256x1024_S1x256x1024_0_0_0 : (Rect.unit (s := S1x256x1024) ![0, 0, 0] S1x256x1024.size inb_S1x256x1024_S1x256x1024_0_0_0).PackedRows (EltTy.packing .bf16)
  shapeCasts_S4x256x1024_S4x256x1024 : S4x256x1024.ShapeCasts S4x256x1024
  transposes_S4x256x1024_p1_0_2_S256x4x1024 : S4x256x1024.Transposes [1, 0, 2] S256x4x1024
  shapeCasts_S256x4x1024_S1024x1024 : S256x4x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S256x4x1024_S256x4x1024_0_0_0 : ∀ a, (![0, 0, 0] : Fin 3 → Nat) a + S256x4x1024.size a ≤ S256x4x1024.size a
  h_S256x4x1024 : 0 < S256x4x1024.numel
  dot_S1024x1024_S1024x1024_S1024x1024_1_0_0_1_n_n_wf : DotDims.WF S1024x1024 S1024x1024 S1024x1024 [1] [0] [0] [1] [] []
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x256x1024.size a ≤ S4x2048x1024.size a
  hwx0_2 : ∀ i : grid0.Coords, EltTy.bits .bf16 = 32 ∨ (Rect.block (s := S4x2048x1024) S4x256x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x1024.size a
  hwx1_0 : ∀ i : grid1.Coords, EltTy.bits .f32 = 32 ∨ (Rect.block (s := S8192x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .f32 = 32 ∨ (Rect.block (s := S1024x1024) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4x256x1024.size a ≤ S4x2048x1024.size a
  hwx1_2 : ∀ i : grid1.Coords, EltTy.bits .bf16 = 32 ∨ (Rect.block (s := S4x2048x1024) S4x256x1024.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x1024.size a
  hwx2_0 : ∀ i : grid2.Coords, EltTy.bits .f32 = 32 ∨ (Rect.block (s := S8192x1024) S1024x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .f32 = 32 ∨ (Rect.block (s := S1024x1024) S1024x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4x256x1024.size a ≤ S4x2048x1024.size a
  hwx2_2 : ∀ i : grid2.Coords, EltTy.bits .bf16 = 32 ∨ (Rect.block (s := S4x2048x1024) S4x256x1024.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x256x1024.size a ≤ S4x2048x1024.size a
  hwx3_0 : ∀ i : grid3.Coords, EltTy.bits .bf16 = 32 ∨ (Rect.block (s := S4x2048x1024) S1x256x1024.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x2048x1024.size a ≤ S4x2048x1024.size a
  hwx3_1 : ∀ i : grid3.Coords, EltTy.bits .bf16 = 32 ∨ (Rect.block (s := S4x2048x1024) S1x2048x1024.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x2048x1024.size a ≤ S4x2048x1024.size a
  hwx3_2 : ∀ i : grid3.Coords, EltTy.bits .bf16 = 32 ∨ (Rect.block (s := S4x2048x1024) S1x2048x1024.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x256x1024.size a ≤ S4x2048x1024.size a
  hwx3_3 : ∀ i : grid3.Coords, EltTy.bits .bf16 = 32 ∨ (Rect.block (s := S4x2048x1024) S1x256x1024.size (cc3_transform_3 i) (hinb3_3 i)).WholeWords (EltTy.packing .bf16)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S4x256x2048.size a ≤ S4x2048x2048.size a
  hwx3_4 : ∀ i : grid3.Coords, EltTy.bits .f32 = 32 ∨ (Rect.block (s := S4x2048x2048) S4x256x2048.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4x256x1024.size a ≤ S4x2048x1024.size a
  hwx4_0 : ∀ i : grid4.Coords, EltTy.bits .bf16 = 32 ∨ (Rect.block (s := S4x2048x1024) S4x256x1024.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1024x1024.size a ≤ S1024x1024.size a
  hwx4_1 : ∀ i : grid4.Coords, EltTy.bits .f32 = 32 ∨ (Rect.block (s := S1024x1024) S1024x1024.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1024.size a ≤ S1x1024.size a
  hwx4_2 : ∀ i : grid4.Coords, EltTy.bits .f32 = 32 ∨ (Rect.block (s := S1x1024) S1x1024.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S256x4x1024.size a ≤ S2048x4x1024.size a
  hwx4_3 : ∀ i : grid4.Coords, EltTy.bits .f32 = 32 ∨ (Rect.block (s := S2048x4x1024) S256x4x1024.size (cc4_transform_3 i) (hinb4_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_v5) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S4x256x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v6) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v9) S4x256x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v7) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v10) S4x256x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v8) S1x256x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v9) S1x2048x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v10) S1x2048x1024.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v11_0) S1x256x1024.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v11_1) S4x256x2048.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v11_0) S4x256x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v3) S1024x1024.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v4) S1x1024.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v12) S256x4x1024.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S2048x4x1024 : Shape := ⟨3, ![2048, 4, 1024]⟩
abbrev S1024x1024 : Shape := ⟨2, ![1024, 1024]⟩
abbrev S1024 : Shape := ⟨1, ![1024]⟩
abbrev S_ : Shape := ⟨0, ![]⟩
abbrev S2048x64x64 : Shape := ⟨3, ![2048, 64, 64]⟩
abbrev S64x2048x64 : Shape := ⟨3, ![64, 2048, 64]⟩
abbrev S64x2048x2048 : Shape := ⟨3, ![64, 2048, 2048]⟩
abbrev S64x2048 : Shape := ⟨2, ![64, 2048]⟩
abbrev S64x2048x1 : Shape := ⟨3, ![64, 2048, 1]⟩
abbrev S1x1x1024 : Shape := ⟨3, ![1, 1, 1024]⟩
abbrev S16x4x2048x2048 : Shape := ⟨4, ![16, 4, 2048, 2048]⟩
abbrev S4x2048x2048 : Shape := ⟨3, ![4, 2048, 2048]⟩

abbrev nBuf : Space → Nat
  | .hbm => 48
  | .vmem => 0
  | .smem => 0
  | _ => 0

abbrev bufTy : (tb : Table) → Fin (tcTables nBuf tb) → BufTy
  | .hbm, ⟨0, _⟩ => ⟨S2048x4x1024, .f32⟩
  | .hbm, ⟨1, _⟩ => ⟨S2048x4x1024, .f32⟩
  | .hbm, ⟨2, _⟩ => ⟨S2048x4x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S2048x4x1024, .f32⟩
  | .hbm, ⟨9, _⟩ => ⟨S_, .f32⟩
  | .hbm, ⟨10, _⟩ => ⟨S2048x4x1024, .f32⟩
  | .hbm, ⟨11, _⟩ => ⟨S2048x4x1024, .f32⟩
  | .hbm, ⟨12, _⟩ => ⟨S2048x4x1024, .f32⟩
  | .hbm, ⟨13, _⟩ => ⟨S2048x4x1024, .f32⟩
  | .hbm, ⟨14, _⟩ => ⟨S2048x64x64, .f32⟩
  | .hbm, ⟨15, _⟩ => ⟨S64x2048x64, .f32⟩
  | .hbm, ⟨16, _⟩ => ⟨S2048x64x64, .f32⟩
  | .hbm, ⟨17, _⟩ => ⟨S64x2048x64, .f32⟩
  | .hbm, ⟨18, _⟩ => ⟨S2048x64x64, .f32⟩
  | .hbm, ⟨19, _⟩ => ⟨S64x2048x64, .f32⟩
  | .hbm, ⟨20, _⟩ => ⟨S64x2048x2048, .f32⟩
  | .hbm, ⟨21, _⟩ => ⟨S_, .f32⟩
  | .hbm, ⟨22, _⟩ => ⟨S64x2048, .f32⟩
  | .hbm, ⟨23, _⟩ => ⟨S_, .f32⟩
  | .hbm, ⟨24, _⟩ => ⟨S64x2048, .f32⟩
  | .hbm, ⟨25, _⟩ => ⟨S64x2048, .f32⟩
  | .hbm, ⟨26, _⟩ => ⟨S64x2048x1, .f32⟩
  | .hbm, ⟨27, _⟩ => ⟨S64x2048x2048, .f32⟩
  | .hbm, ⟨28, _⟩ => ⟨S64x2048x2048, .f32⟩
  | .hbm, ⟨29, _⟩ => ⟨S64x2048x2048, .f32⟩
  | .hbm, ⟨30, _⟩ => ⟨S_, .f32⟩
  | .hbm, ⟨31, _⟩ => ⟨S64x2048, .f32⟩
  | .hbm, ⟨32, _⟩ => ⟨S64x2048x1, .f32⟩
  | .hbm, ⟨33, _⟩ => ⟨S64x2048x2048, .f32⟩
  | .hbm, ⟨34, _⟩ => ⟨S64x2048x2048, .f32⟩
  | .hbm, ⟨35, _⟩ => ⟨S64x2048x64, .f32⟩
  | .hbm, ⟨36, _⟩ => ⟨S2048x64x64, .f32⟩
  | .hbm, ⟨37, _⟩ => ⟨S2048x4x1024, .f32⟩
  | .hbm, ⟨38, _⟩ => ⟨S2048x4x1024, .f32⟩
  | .hbm, ⟨39, _⟩ => ⟨S1x1x1024, .f32⟩
  | .hbm, ⟨40, _⟩ => ⟨S2048x4x1024, .f32⟩
  | .hbm, ⟨41, _⟩ => ⟨S2048x4x1024, .f32⟩
  | .hbm, ⟨42, _⟩ => ⟨S16x4x2048x2048, .f32⟩
  | .hbm, ⟨43, _⟩ => ⟨S_, .f32⟩
  | .hbm, ⟨44, _⟩ => ⟨S4x2048x2048, .f32⟩
  | .hbm, ⟨45, _⟩ => ⟨S_, .f32⟩
  | .hbm, ⟨46, _⟩ => ⟨S4x2048x2048, .f32⟩
  | .hbm, ⟨47, _⟩ => ⟨S4x2048x2048, .f32⟩
  | _, _ => ⟨S2048x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]

class Facts₀ : Prop where
  bcast_S_S2048x4x1024 : S_.BroadcastsInDim S2048x4x1024 (![] : Fin 0 → Fin S2048x4x1024.rank)
  shapeCasts_S2048x4x1024_S2048x64x64 : S2048x4x1024.ShapeCasts S2048x64x64
  transposes_S2048x64x64_S64x2048x64_1_0_2 : S2048x64x64.Transposes [1, 0, 2] S64x2048x64
  reducesTo_S64x2048x2048_S64x2048_d2 : S64x2048x2048.ReducesTo [2] S64x2048
  h_S_ : 0 < S_.numel
  bcast_S_S64x2048 : S_.BroadcastsInDim S64x2048 (![] : Fin 0 → Fin S64x2048.rank)
  bcast_S64x2048_S64x2048x1_0_1 : S64x2048.BroadcastsInDim S64x2048x1 (![0, 1] : Fin 2 → Fin S64x2048x1.rank)
  bcast_S64x2048x1_S64x2048x2048_0_1_2 : S64x2048x1.BroadcastsInDim S64x2048x2048 (![0, 1, 2] : Fin 3 → Fin S64x2048x2048.rank)
  transposes_S64x2048x64_S2048x64x64_1_0_2 : S64x2048x64.Transposes [1, 0, 2] S2048x64x64
  shapeCasts_S2048x64x64_S2048x4x1024 : S2048x64x64.ShapeCasts S2048x4x1024
  bcast_S1024_S1x1x1024_2 : S1024.BroadcastsInDim S1x1x1024 (![2] : Fin 1 → Fin S1x1x1024.rank)
  bcast_S1x1x1024_S2048x4x1024_0_1_2 : S1x1x1024.BroadcastsInDim S2048x4x1024 (![0, 1, 2] : Fin 3 → Fin S2048x4x1024.rank)
  shapeCasts_S64x2048x2048_S16x4x2048x2048 : S64x2048x2048.ShapeCasts S16x4x2048x2048
  reducesTo_S16x4x2048x2048_S4x2048x2048_d0 : S16x4x2048x2048.ReducesTo [0] S4x2048x2048
  bcast_S_S4x2048x2048 : S_.BroadcastsInDim S4x2048x2048 (![] : Fin 0 → Fin S4x2048x2048.rank)
  dot_S2048x4x1024_S1024x1024_S2048x4x1024_2_1_01_0_n_n_wf : DotDims.WF S2048x4x1024 S1024x1024 S2048x4x1024 [2] [1] [0, 1] [0] [] []
  dot_S64x2048x64_S64x2048x64_S64x2048x2048_2_2_1_1_0_0_wf : DotDims.WF S64x2048x64 S64x2048x64 S64x2048x2048 [2] [2] [1] [1] [0] [0]
  dot_S64x2048x2048_S64x2048x64_S64x2048x64_2_1_1_2_0_0_wf : DotDims.WF S64x2048x2048 S64x2048x64 S64x2048x64 [2] [1] [1] [2] [0] [0]

variable [Facts₀]

def dot_S2048x4x1024_S1024x1024_S2048x4x1024_2_1_01_0_n_n : DotDims S2048x4x1024 S1024x1024 S2048x4x1024 where
  lhsContracting := [2]
  rhsContracting := [1]
  lhsNonContracting := [0, 1]
  rhsNonContracting := [0]
  lhsBatch := []
  rhsBatch := []
  wf := dot_S2048x4x1024_S1024x1024_S2048x4x1024_2_1_01_0_n_n_wf
def dot_S64x2048x64_S64x2048x64_S64x2048x2048_2_2_1_1_0_0 : DotDims S64x2048x64 S64x2048x64 S64x2048x2048 where
  lhsContracting := [2]
  rhsContracting := [2]
  lhsNonContracting := [1]
  rhsNonContracting := [1]
  lhsBatch := [0]
  rhsBatch := [0]
  wf := dot_S64x2048x64_S64x2048x64_S64x2048x2048_2_2_1_1_0_0_wf
def dot_S64x2048x2048_S64x2048x64_S64x2048x64_2_1_1_2_0_0 : DotDims S64x2048x2048 S64x2048x64 S64x2048x64 where
  lhsContracting := [2]
  rhsContracting := [1]
  lhsNonContracting := [1]
  rhsNonContracting := [2]
  lhsBatch := [0]
  rhsBatch := [0]
  wf := dot_S64x2048x2048_S64x2048x64_S64x2048x64_2_1_1_2_0_0_wf

class Facts : Prop extends Facts₀ where

variable [Facts]
-- ==== Proof.KRun.lean ====
/-
  The kernel program's run with its two result arrays named.

  @main is a stretch of host operations followed by five kernel regions. The contents of the TensorCore's buffers at each
  boundary are a fold from the launch memory: after the host stretch, then after each region its arrays at what its
  write-backs leave and every other buffer unchanged. Every weakly fair execution terminates in a state whose unscoped
  buffers hold the last boundary's contents; so each result array ends at that fold read at its buffer, and each
  argument array ends as launched.
-/
import proofs.«179876_j77678778515968_2_alg».proof.Proof.Gen.KernelIdeal.Frame

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the two result arrays at the last
    boundary's contents and the argument arrays as launched. -/
theorem run : θ_run defs (onTc (τ := τ) (main (F := F))) ⟨m, fun _ => 0, ρ⟩ (fun r => ∀ c : Dev nD,
      r.2.mem ((c.tc : Thread nD τ).loc main_v12) = W6 m ρ c (Proc.devRef .tc main_v12)
      ∧ r.2.mem ((c.tc : Thread nD τ).loc main_v11_1) = W6 m ρ c (Proc.devRef .tc main_v11_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v12 (by decide)),
       h c _ (mem_uc main_v11_1 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)

end Cert.KernelIdeal.KRun

end
-- ==== Proof.Spec.lean ====
/-
  Multi-head attention on the extended reals, entry by entry.

  Activations are arrays indexed (position, batch, feature) with 2048 positions, 4 batch rows and 1024 features; a
  weight matrix is indexed (output feature, input feature). The 1024 features split into 16 heads of 64: feature
  e belongs to head e / 64. A linear layer is x ↦ x · Wᵀ. For one batch row b and one head h the score of query
  position t against key position s is the inner product of the head's 64 query features at t with its 64 key
  features at s; a row of scores is turned into weights by the stable softmax (subtract the row's maximum, the fold
  of max from −∞; exponentiate; divide by the row's sum); the context at (b, t) in a feature of head h is the
  weighted sum over s of the value features. The output is the context through a last linear layer plus a bias.
  The averaged weights group the 64 (batch, head) pairs n = 16·b + h by n mod 4 and average the 16 of each group.
-/
import Idealize.ShloMosaic.PureOps.Ideal
import Idealize.ShloMosaic.Lib.ValueIdx

noncomputable section

namespace Cert.Attn

open Idealize.ShloMosaic

/-- Activations: (position, batch, feature). -/
abbrev Act := Fin 2048 → Fin 4 → Fin 1024 → EReal
/-- A weight matrix: (output feature, input feature). -/
abbrev Wt := Fin 1024 → Fin 1024 → EReal

/-- 1/8 = 64^(-1/2), the query scale. -/
def cScale : EReal := Ideal.ofBits .f32 0x3E000000#32
/-- −∞, where a row's maximum starts. -/
def cNegInf : EReal := Ideal.ofBits .f32 0xFF800000#32
/-- 0, where a sum starts. -/
def cZero : EReal := Ideal.ofBits .f32 0x00000000#32
/-- 1/16, one over the number of heads. -/
def cInvH : EReal := Ideal.ofBits .f32 0x3D800000#32
/-- 16, the number of heads. -/
def cH : EReal := Ideal.ofBits .f32 0x41800000#32

/-- An array [2048, 4, 1024] read as activations. -/
def act (x : (⟨3, ![2048, 4, 1024]⟩ : Shape).Idx → EReal) : Act := fun t b k => x (ValueIdx.ix3 t b k)
/-- A batch-major array [4, 2048, 1024] read as activations. -/
def actBT (x : (⟨3, ![4, 2048, 1024]⟩ : Shape).Idx → EReal) : Act := fun t b k => x (ValueIdx.ix3 b t k)
/-- A row-flattened array [2048·4, 1024], row 4·t + b, read as activations. -/
def actFlat (x : (⟨2, ![8192, 1024]⟩ : Shape).Idx → EReal) : Act :=
  fun t b k => x (ValueIdx.ix2 (⟨t.val * 4 + b.val, by omega⟩ : Fin 8192) k)
/-- A batch-major array [4, 2048, 1024], as it is indexed. -/
def bte (x : (⟨3, ![4, 2048, 1024]⟩ : Shape).Idx → EReal) : Fin 4 → Fin 2048 → Fin 1024 → EReal :=
  fun b t e => x (ValueIdx.ix3 b t e)
/-- A one-row matrix [1, 1024] read as a vector. -/
def row (v : (⟨2, ![1, 1024]⟩ : Shape).Idx → EReal) : Fin 1024 → EReal := fun f => v (ValueIdx.ix2 (0 : Fin 1) f)
/-- A matrix [1024, 1024] read as (output feature, input feature). -/
def wt (w : (⟨2, ![1024, 1024]⟩ : Shape).Idx → EReal) : Wt := fun f k => w (ValueIdx.ix2 f k)
/-- A matrix [1024, 1024] stored (input feature, output feature), read as (output feature, input feature). -/
def wtT (w : (⟨2, ![1024, 1024]⟩ : Shape).Idx → EReal) : Wt := fun f k => w (ValueIdx.ix2 k f)
/-- A vector [1024]. -/
def vec (v : (⟨1, ![1024]⟩ : Shape).Idx → EReal) : Fin 1024 → EReal := fun f => v (ValueIdx.ix1 f)

/-- Feature d of head h. -/
def col (h : Fin 16) (d : Fin 64) : Fin 1024 := ⟨h.val * 64 + d.val, by omega⟩
/-- The head a feature belongs to. -/
def headOf (e : Fin 1024) : Fin 16 := ⟨e.val / 64, by omega⟩

/-- A linear layer, x · Wᵀ. -/
def lin (x : Act) (w : Wt) : Act := fun t b f => ∑ k : Fin 1024, x t b k * w f k

/-- The scaled query projection. -/
def qproj (x : Act) (w : Wt) : Act := fun t b f => lin x w t b f * cScale

/-- The score of query position t against key position s, batch row b, head h. -/
def score (q k : Act) (b : Fin 4) (h : Fin 16) (t s : Fin 2048) : EReal :=
  ∑ d : Fin 64, q t b (col h d) * k s b (col h d)

/-- The maximum of a row of scores, from −∞. -/
def rowMax (q k : Act) (b : Fin 4) (h : Fin 16) (t : Fin 2048) : EReal :=
  (Finset.univ : Finset (Fin 2048)).fold max cNegInf (fun s => score q k b h t s)

/-- The exponential of a score less its row's maximum. -/
def pexp (q k : Act) (b : Fin 4) (h : Fin 16) (t s : Fin 2048) : EReal :=
  Ideal.exp (score q k b h t s - rowMax q k b h t)

/-- The sum of a row of exponentials. -/
def rowSum (q k : Act) (b : Fin 4) (h : Fin 16) (t : Fin 2048) : EReal :=
  ∑ s : Fin 2048, pexp q k b h t s

/-- The attention weight. -/
def prob (q k : Act) (b : Fin 4) (h : Fin 16) (t s : Fin 2048) : EReal :=
  Ideal.div (pexp q k b h t s) (rowSum q k b h t)

/-- The context, (batch, position, feature). -/
def ctx (q k v : Act) (b : Fin 4) (t : Fin 2048) (e : Fin 1024) : EReal :=
  ∑ s : Fin 2048, prob q k b (headOf e) t s * v s b e

/-- The output: the context through the last linear layer, plus the bias. -/
def out (c : Fin 4 → Fin 2048 → Fin 1024 → EReal) (wo : Wt) (bo : Fin 1024 → EReal) (t : Fin 2048) (b : Fin 4) (f : Fin 1024) : EReal :=
  (∑ e : Fin 1024, c b t e * wo f e) + bo f

/-- The batch row of pair n = 4·g + j, g the position in group j. -/
def grpB (g : Fin 16) : Fin 4 := ⟨g.val / 4, by omega⟩
/-- The head of pair n = 4·g + j. -/
def grpH (g : Fin 16) (j : Fin 4) : Fin 16 := ⟨(g.val % 4) * 4 + j.val, by omega⟩

/-- The averaged weights as the reference states them: the group's sum from 0, divided by 16. -/
def avg (q k : Act) (j : Fin 4) (t s : Fin 2048) : EReal :=
  Ideal.div (cZero + ∑ g : Fin 16, prob q k (grpB g) (grpH g j) t s) cH

/-- The averaged weights as an accumulation: from 0, add each weight of the group times 1/16, in the group's order. -/
def avgAcc (q k : Act) (j : Fin 4) (t s : Fin 2048) : (n : ℕ) → EReal
  | 0 => cZero
  | n + 1 => avgAcc q k j t s n + (if h : n < 16 then prob q k (grpB ⟨n, h⟩) (grpH ⟨n, h⟩ j) t s else 0) * cInvH

/-! ## One block of the attention kernel: 256 query rows of one batch row against all 2048 key rows -/

/-- A query-row block [1, 256, 1024] as (row, feature). -/
def bq (x : (⟨3, ![1, 256, 1024]⟩ : Shape).Idx → EReal) : Fin 256 → Fin 1024 → EReal := fun r e => x (ValueIdx.ix3 (0 : Fin 1) r e)
/-- A key or value block [1, 2048, 1024] as (row, feature). -/
def bk (x : (⟨3, ![1, 2048, 1024]⟩ : Shape).Idx → EReal) : Fin 2048 → Fin 1024 → EReal := fun s e => x (ValueIdx.ix3 (0 : Fin 1) s e)

/-- The block's scores for head h. -/
def bscore (q : Fin 256 → Fin 1024 → EReal) (k : Fin 2048 → Fin 1024 → EReal) (h : Fin 16) (r : Fin 256) (s : Fin 2048) : EReal :=
  ∑ d : Fin 64, q r (col h d) * k s (col h d)
/-- A row's maximum, from −∞. -/
def bmax (q : Fin 256 → Fin 1024 → EReal) (k : Fin 2048 → Fin 1024 → EReal) (h : Fin 16) (r : Fin 256) : EReal :=
  (Finset.univ : Finset (Fin 2048)).fold max cNegInf (fun s => bscore q k h r s)
def bexp (q : Fin 256 → Fin 1024 → EReal) (k : Fin 2048 → Fin 1024 → EReal) (h : Fin 16) (r : Fin 256) (s : Fin 2048) : EReal :=
  Ideal.exp (bscore q k h r s - bmax q k h r)
def bsum (q : Fin 256 → Fin 1024 → EReal) (k : Fin 2048 → Fin 1024 → EReal) (h : Fin 16) (r : Fin 256) : EReal :=
  ∑ s : Fin 2048, bexp q k h r s
/-- The block's attention weights for head h. -/
def bprob (q : Fin 256 → Fin 1024 → EReal) (k : Fin 2048 → Fin 1024 → EReal) (h : Fin 16) (r : Fin 256) (s : Fin 2048) : EReal :=
  Ideal.div (bexp q k h r s) (bsum q k h r)
/-- The block's context: feature e belongs to head e / 64. -/
def bctx (q : Fin 256 → Fin 1024 → EReal) (k v : Fin 2048 → Fin 1024 → EReal) (r : Fin 256) (e : Fin 1024) : EReal :=
  ∑ s : Fin 2048, bprob q k (headOf e) r s * v s e
/-- Head 4·i + j, the i-th head of group j. -/
def grpHead (i j : Fin 4) : Fin 16 := ⟨i.val * 4 + j.val, by omega⟩
/-- One batch row's contribution to group j of the averaged weights, added onto a₀: the group's four heads j, j + 4,
    j + 8, j + 12 in this order, each weight times 1/16. -/
def bacc4 (a₀ : EReal) (q : Fin 256 → Fin 1024 → EReal) (k : Fin 2048 → Fin 1024 → EReal) (j : Fin 4) (r : Fin 256) (s : Fin 2048) : EReal :=
  (((a₀ + bprob q k (grpHead 0 j) r s * cInvH) + bprob q k (grpHead 1 j) r s * cInvH) + bprob q k (grpHead 2 j) r s * cInvH)
    + bprob q k (grpHead 3 j) r s * cInvH

end Cert.Attn

end
-- ==== Proof.LibFlattenBroadcast.lean ====
/-
  Layout operations read at an index written by coordinates, for the shapes a "join two sequences, then one matrix
  product" kernel meets and Lib/ValueLayout.lean does not have.

  A shape cast keeps the row-major position of every element. So
  • inserting a unit axis in the middle, [a, c] → [a, 1, c], reads (p, ·, d) at (p, d);
  • merging the two leading axes, [a, b, c] → [a·b, c], reads row p·b + q at (p, q, ·), and splitting them again,
    [a·b, c] → [a, b, c], reads (p, q, ·) at row p·b + q. The merged extent is a literal in a printed program
    (2048, not 16·128), so it is a variable `n` here and only the row's value is related to p·b + q.
  A broadcast along an axis of extent one reads the operand's one entry on that axis:
  • [a, 1, c] → [a, b, c] reads (p, q, d) at (p, 0, d);
  • [1, b, c] → [a, b, c] reads (p, q, d) at (0, q, d).
-/
import Idealize.ShloMosaic.Lib.ValueLayout

namespace Cert.LibFlattenBroadcast

open Idealize.ShloMosaic Idealize.ShloMosaic.ValueIdx

variable {α : Type}

/-- An `[a, c]` array cast to `[a, 1, c]` reads, at `(p, u, d)`, the operand at `(p, d)`, whatever the unit
    coordinate `u`: both sit at row-major position p·c + d. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (d : Fin c) :
    shapeCast ⟨3, ![a, 1, c]⟩ x h (ix3 p u d) = x (ix2 p d) :=
  shapeCast_apply x h _ _ (by
    have hu : u.val = 0 := by omega
    rw [Shape.rowMajor_val_two, Shape.rowMajor_val_three]
    show p.val * c + d.val = (p.val * 1 + u.val) * c + d.val
    rw [hu, Nat.mul_one, Nat.add_zero])

/-- An `[a, b, c]` array with its two leading axes merged, `[n, c]` with n = a·b, reads, at row `r = p·b + q` and
    column `d`, the operand at `(p, q, d)`: both sit at row-major position (p·b + q)·c + d. -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (d : Fin c) (r : Fin n)
    (hr : r.val = p.val * b + q.val) :
    shapeCast ⟨2, ![n, c]⟩ x h (ix2 r d) = x (ix3 p q d) :=
  shapeCast_apply x h _ _ (by
    rw [Shape.rowMajor_val_three, Shape.rowMajor_val_two]
    show (p.val * b + q.val) * c + d.val = r.val * c + d.val
    rw [hr])

/-- An `[n, c]` array, n = a·b, with its leading axis split, `[a, b, c]`, reads, at `(p, q, d)`, the operand at row
    `r = p·b + q` and column `d`. -/
theorem shapeCast_nc_abc_apply {a b c n : ℕ} (x : (⟨2, ![n, c]⟩ : Shape).Idx → α)
    (h : (⟨2, ![n, c]⟩ : Shape).ShapeCasts ⟨3, ![a, b, c]⟩) (p : Fin a) (q : Fin b) (d : Fin c) (r : Fin n)
    (hr : r.val = p.val * b + q.val) :
    shapeCast ⟨3, ![a, b, c]⟩ x h (ix3 p q d) = x (ix2 r d) :=
  shapeCast_apply x h _ _ (by
    rw [Shape.rowMajor_val_two, Shape.rowMajor_val_three]
    show r.val * c + d.val = (p.val * b + q.val) * c + d.val
    rw [hr])

/-- An `[a, 1, c]` array broadcast to `[a, b, c]` reads, at `(p, q, d)`, the operand at `(p, 0, d)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (d : Fin c) :
    broadcastTo ⟨3, ![a, b, c]⟩ v h (ix3 p q d) = v (ix3 p (0 : Fin 1) d) := by
  refine broadcastTo_apply v h (ix3 p q d) (ix3 p (0 : Fin 1) d) fun ax => ?_
  match ax with
  | ⟨0, _⟩ =>
    show p.val = if a = 1 then 0 else p.val
    split
    · have := p.isLt; omega
    · rfl
  | ⟨1, _⟩ => rfl
  | ⟨2, _⟩ =>
    show d.val = if c = 1 then 0 else d.val
    split
    · have := d.isLt; omega
    · rfl

/-- A `[1, b, c]` array broadcast to `[a, b, c]` reads, at `(p, q, d)`, the operand at `(0, q, d)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (d : Fin c) :
    broadcastTo ⟨3, ![a, b, c]⟩ v h (ix3 p q d) = v (ix3 (0 : Fin 1) q d) := by
  refine broadcastTo_apply v h (ix3 p q d) (ix3 (0 : Fin 1) q d) fun ax => ?_
  match ax with
  | ⟨0, _⟩ => rfl
  | ⟨1, _⟩ =>
    show q.val = if b = 1 then 0 else q.val
    split
    · have := q.isLt; omega
    · rfl
  | ⟨2, _⟩ =>
    show d.val = if c = 1 then 0 else d.val
    split
    · have := d.isLt; omega
    · rfl

end Cert.LibFlattenBroadcast
-- ==== Proof.KHost.lean ====
/-
  The arrays the kernel program's host stretch hands to its first region, read at the arguments.

  Before the first kernel call @main transposes the four weight matrices, keeps the bias vector as a one-row matrix and
  flattens the three activation arrays [2048, 4, 1024] to [8192, 1024] (row 4·t + b). So, read the way the kernels read
  them, the transposed weights are the weights, the one-row bias is the bias, and the flattened activations are the
  activations.
-/
import proofs.«179876_j77678778515968_2_alg».proof.Proof.Gen.KernelIdeal.Frame
import proofs.«179876_j77678778515968_2_alg».proof.Proof.Spec
import proofs.«179876_j77678778515968_2_alg».proof.Proof.LibFlattenBroadcast
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.KHost

open Cert.KernelIdeal Cert.KernelIdeal.Gen
open Idealize.ShloMosaic Idealize.ShloMosaic.TcCoe Idealize.SL.Sem Idealize.ShloMosaic.ValueIdx Idealize.ShloMosaic.StableHlo

variable (m : (ℓ : Loc nD τ sig) → Buf (Elt Ideal) ℓ) (ρ : Dev nD → PrngReg)

theorem v0_eq (c : Dev nD) : (V1 m ρ c main_v0 : S1024x1024.Idx → EReal)
    = transpose S1024x1024 [1, 0] (m ((c : Thread nD τ).loc main_arg3)) transposes_S1024x1024_S1024x1024_1_0 := by
  dsimp only [V1, W1, W0, hostOps0]; after_results
theorem v1_eq (c : Dev nD) : (V1 m ρ c main_v1 : S1024x1024.Idx → EReal)
    = transpose S1024x1024 [1, 0] (m ((c : Thread nD τ).loc main_arg4)) transposes_S1024x1024_S1024x1024_1_0 := by
  dsimp only [V1, W1, W0, hostOps0]; after_results
theorem v2_eq (c : Dev nD) : (V1 m ρ c main_v2 : S1024x1024.Idx → EReal)
    = transpose S1024x1024 [1, 0] (m ((c : Thread nD τ).loc main_arg5)) transposes_S1024x1024_S1024x1024_1_0 := by
  dsimp only [V1, W1, W0, hostOps0]; after_results
theorem v3_eq (c : Dev nD) : (V1 m ρ c main_v3 : S1024x1024.Idx → EReal)
    = transpose S1024x1024 [1, 0] (m ((c : Thread nD τ).loc main_arg6)) transposes_S1024x1024_S1024x1024_1_0 := by
  dsimp only [V1, W1, W0, hostOps0]; after_results
theorem v4_eq (c : Dev nD) : (V1 m ρ c main_v4 : S1x1024.Idx → EReal)
    = shapeCast S1x1024 (m ((c : Thread nD τ).loc main_arg7)) shapeCasts_S1024_S1x1024 := by
  dsimp only [V1, W1, W0, hostOps0]; after_results; rfl
theorem v5_eq (c : Dev nD) : (V1 m ρ c main_v5 : S8192x1024.Idx → EReal)
    = shapeCast S8192x1024 (m ((c : Thread nD τ).loc main_arg0)) shapeCasts_S2048x4x1024_S8192x1024 := by
  dsimp only [V1, W1, W0, hostOps0]; after_results; rfl
theorem v6_eq (c : Dev nD) : (V1 m ρ c main_v6 : S8192x1024.Idx → EReal)
    = shapeCast S8192x1024 (m ((c : Thread nD τ).loc main_arg1)) shapeCasts_S2048x4x1024_S8192x1024 := by
  dsimp only [V1, W1, W0, hostOps0]; after_results; rfl
theorem v7_eq (c : Dev nD) : (V1 m ρ c main_v7 : S8192x1024.Idx → EReal)
    = shapeCast S8192x1024 (m ((c : Thread nD τ).loc main_arg2)) shapeCasts_S2048x4x1024_S8192x1024 := by
  dsimp only [V1, W1, W0, hostOps0]; after_results; rfl

/-- A transposed weight read as (input, output) is the weight read as (output, input). -/
theorem wtT_transpose (w : S1024x1024.Idx → EReal) :
    Attn.wtT (transpose S1024x1024 [1, 0] w transposes_S1024x1024_S1024x1024_1_0) = Attn.wt w :=
  funext fun f => funext fun k => transpose_ix2_apply w transposes_S1024x1024_S1024x1024_1_0 k f

/-- A flattened activation array read at row 4·t + b is the array read at (t, b). -/
theorem actFlat_flatten (x : S2048x4x1024.Idx → EReal) :
    Attn.actFlat (shapeCast S8192x1024 x shapeCasts_S2048x4x1024_S8192x1024) = Attn.act x :=
  funext fun t => funext fun b => funext fun k =>
    Cert.LibFlattenBroadcast.shapeCast_abc_nc_apply x shapeCasts_S2048x4x1024_S8192x1024 t b k _ rfl

/-- A vector kept as a one-row matrix, read at its row, is the vector. -/
theorem row_keep (v : S1024.Idx → EReal) : Attn.row (shapeCast S1x1024 v shapeCasts_S1024_S1x1024) = Attn.vec v :=
  funext fun f => shapeCast_a_1a_apply v shapeCasts_S1024_S1x1024 0 f

theorem wq (c : Dev nD) : Attn.wtT (V1 m ρ c main_v0) = Attn.wt (m ((c : Thread nD τ).loc main_arg3)) := by
  rw [v0_eq]; exact wtT_transpose _
theorem wk (c : Dev nD) : Attn.wtT (V1 m ρ c main_v1) = Attn.wt (m ((c : Thread nD τ).loc main_arg4)) := by
  rw [v1_eq]; exact wtT_transpose _
theorem wv (c : Dev nD) : Attn.wtT (V1 m ρ c main_v2) = Attn.wt (m ((c : Thread nD τ).loc main_arg5)) := by
  rw [v2_eq]; exact wtT_transpose _
theorem wo (c : Dev nD) : Attn.wtT (V1 m ρ c main_v3) = Attn.wt (m ((c : Thread nD τ).loc main_arg6)) := by
  rw [v3_eq]; exact wtT_transpose _
theorem bo (c : Dev nD) : Attn.row (V1 m ρ c main_v4) = Attn.vec (m ((c : Thread nD τ).loc main_arg7)) := by
  rw [v4_eq]; exact row_keep _
theorem xq (c : Dev nD) : Attn.actFlat (V1 m ρ c main_v5) = Attn.act (m ((c : Thread nD τ).loc main_arg0)) := by
  rw [v5_eq]; exact actFlat_flatten _
theorem xk (c : Dev nD) : Attn.actFlat (V1 m ρ c main_v6) = Attn.act (m ((c : Thread nD τ).loc main_arg1)) := by
  rw [v6_eq]; exact actFlat_flatten _
theorem xv (c : Dev nD) : Attn.actFlat (V1 m ρ c main_v7) = Attn.act (m ((c : Thread nD τ).loc main_arg2)) := by
  rw [v7_eq]; exact actFlat_flatten _

end Cert.KernelIdeal.KHost

end
-- ==== Proof.LibPlainMatmul.lean ====
/-
  A plain matrix product read at an entry. For an M×K left operand and a K×N right operand contracted over the one
  shared axis (left axis 1 against right axis 0, no batch axis), the exact product into a zero accumulator has, at row r
  and column c, the value  Σ_k lhs(r, k) · rhs(k, c): the operand indices at output index (r, c) and contraction position
  k are (r, k) and (k, c).
-/
import Idealize.ShloMosaic.PureOps.Ideal.Laws
import Idealize.ShloMosaic.Lib.ValueIdx

noncomputable section

namespace PlainMatmul

open Idealize.ShloMosaic Idealize.ShloMosaic.ValueIdx

variable {M K N : ℕ}

/-- The left operand's row is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand's column is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The product into the zero accumulator, at (r, c), is Σ_k lhs(r, k) · rhs(k, c). -/
theorem apply_zero {φ₁ φ₂ : FTy} (lhs : FVec Ideal ⟨2, ![M, K]⟩ φ₁) (rhs : FVec Ideal ⟨2, ![K, N]⟩ φ₂)
    (r : Fin M) (c : Fin N) :
    FloatOps.matmul (DotDims.plain M K N) none lhs rhs (constant (F := Ideal) ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact rhs_col _ _)
  rw [el, er]

end PlainMatmul

end
-- ==== Proof.Proj0.lean ====
/-
  The query projection call, from its blocks to its whole result array.

  The call walks the 8192 rows of the flattened activations (row 4·t + b for position t and batch row b) in 8 blocks
  of 1024 rows. Each block is multiplied by the whole weight, stored (input feature, output feature), and scaled by 1/8; its
  1024 rows are split into 256 positions × 4 batch rows, the two axes are swapped, and the block is written to
  positions 256·i … 256·i + 255 of every batch row of the batch-major result [4, 2048, 1024]. A matrix product taken
  block of rows by block of rows is the whole product, and a change of float format is the identity on the extended
  reals, so entry (b, t, f) of the result is the linear layer's entry at position t and batch row b.
-/
import proofs.«179876_j77678778515968_2_alg».proof.Proof.Gen.KernelIdeal.Frame
import proofs.«179876_j77678778515968_2_alg».proof.Proof.Spec
import proofs.«179876_j77678778515968_2_alg».proof.Proof.LibPlainMatmul
import proofs.«179876_j77678778515968_2_alg».proof.Proof.LibFlattenBroadcast
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Proj0

open Cert.KernelIdeal Cert.KernelIdeal.Gen

variable (V : (c : Dev nD) → (b : Ref sig .tc) → Buf (Elt Ideal) ((c : Thread nD τ).loc b))

/-- The zero offsets of a whole-block access, rank 2 and rank 3. -/
theorem zeros2 : (![0, 0] : Fin 2 → Nat) = fun _ => 0 := funext fun a => by fin_cases a <;> rfl
theorem zeros3 : (![0, 0, 0] : Fin 3 → Nat) = fun _ => 0 := funext fun a => by fin_cases a <;> rfl

/-- The body's result block at (b, p, f), from its two loaded blocks: both operands keep their values through the format
    change; the plain product of the activation block with the weight block has Σ_k x0(r, k) · x1(k, f) at row r; every
    entry is multiplied by the scale; the
    split of the 1024 rows into 256 × 4 puts row p·4 + b at (p, b), and the exchange of the two leading axes puts it at (b, p). -/
theorem body_entry (x0 x1 : Vec Ideal S1024x1024 .f32) (b : Fin 4) (p : Fin 256) (f : Fin 1024) :
    k0_pay1 (F := Ideal) x0 x1 (ix3 b p f)
      = (∑ k : Fin 1024, x0 (ix2 (⟨p.val * 4 + b.val, by omega⟩ : Fin 1024) k) * x1 (ix2 k f)) * Attn.cScale := by
  unfold k0_pay1
  refine (truncf_apply (ψ := .bf16) _ bitsLt_bf16_f32 (ix3 b p f)).trans ?_
  refine (transpose_apply [1, 0, 2] _ _ (ix3 b p f) (ix3 p b f) ?_).trans ?_
  · intro a
    match a with
    | ⟨0, _⟩ => rfl
    | ⟨1, _⟩ => rfl
    | ⟨2, _⟩ => rfl
  refine (Cert.LibFlattenBroadcast.shapeCast_nc_abc_apply _ _ p b f (⟨p.val * 4 + b.val, by omega⟩ : Fin 1024) rfl).trans ?_
  refine (mulf_apply _ _ _).trans ?_
  refine congrArg (· * Attn.cScale) ?_
  refine (PlainMatmul.apply_zero (M := 1024) (K := 1024) (N := 1024) _ _ _ f).trans ?_
  refine Finset.sum_congr rfl fun k _ => ?_
  rw [truncf_apply, truncf_apply, shapeCast_self, shapeCast_self]

/-- The whole result array as one function of the flattened input and the transposed weight, batch-major: entry
    (b, t, f) is the scaled linear layer at position t, batch row b, feature f. -/
def projArr (a : S8192x1024.Idx → EReal) (w : S1024x1024.Idx → EReal) : S4x2048x1024.Idx → EReal :=
  fun i => Attn.qproj (Attn.actFlat a) (Attn.wtT w) (i 1) (i 0) (i 2)

/-- The block indices of the three windows, decided over the eight grid points: the input's block i is rows
    1024·i … 1024·i + 1023, the weight's block is the whole matrix, the result's block i is positions 256·i … 256·i + 255
    of every batch row. -/
theorem block_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 3) = 0 ∧ win0_2.index t (1 : Fin 3) = t.val ∧ win0_2.index t (2 : Fin 3) = 0 :=
  (by decide +kernel : ∀ t : Fin grid0.N, _)

/-- The input window's block at point t, at (r, k), is the flattened input at row 1024·t + r. -/
theorem in_blk (c : Dev nD) (t : Fin cfg0.N) (y : S1024x1024.Idx) (i : S8192x1024.Idx)
    (h0 : (i 0).val = t.val * 1024 + (y 0).val) (h1 : (i 1).val = (y 1).val) :
    (iblk0 V c 0 t : Vec Ideal S1024x1024 .f32) y = (V c main_v5 : S8192x1024.Idx → EReal) i := by
  obtain ⟨e0, e1, -⟩ := block_index t
  unfold iblk0
  rw [View.read_apply]
  show V c main_v5 _ = V c main_v5 _
  refine congrArg (V c main_v5) (funext fun a => Fin.ext ?_)
  match a with
  | ⟨0, _⟩ => show win0_0.index t (0 : Fin 2) * 1024 + 1 * (y 0).val = (i 0).val; rw [e0, h0]; omega
  | ⟨1, _⟩ => show win0_0.index t (1 : Fin 2) * 1024 + 1 * (y 1).val = (i 1).val; rw [e1, h1]; omega

/-- The weight window's block at any point is the whole weight matrix. -/
theorem wt_blk (c : Dev nD) (t : Fin cfg0.N) (y : S1024x1024.Idx) :
    (iblk0 V c 1 t : Vec Ideal S1024x1024 .f32) y = (V c main_v0 : S1024x1024.Idx → EReal) y := by
  obtain ⟨-, -, e2, e3, -⟩ := block_index t
  unfold iblk0
  rw [View.read_apply]
  show V c main_v0 _ = V c main_v0 _
  refine congrArg (V c main_v0) (funext fun a => Fin.ext ?_)
  match a with
  | ⟨0, _⟩ => show win0_1.index t (0 : Fin 2) * 1024 + 1 * (y 0).val = (y 0).val; rw [e2]; omega
  | ⟨1, _⟩ => show win0_1.index t (1 : Fin 2) * 1024 + 1 * (y 1).val = (y 1).val; rw [e3]; omega

/-- The body's result block at point t, at (b, p, f), is the whole-array function at (b, 256·t + p, f): row
    p·4 + b of input block t is row 1024·t + 4·p + b = 4·(256·t + p) + b of the flattened input. -/
theorem blk_entry (c : Dev nD) (t : Fin cfg0.N) (b : Fin 4) (p : Fin 256) (f : Fin 1024) (i : S4x2048x1024.Idx)
    (h0 : (i 0).val = b.val) (h1 : (i 1).val = t.val * 256 + p.val) (h2 : (i 2).val = f.val) :
    k0_pay1 (F := Ideal) (iblk0 V c 0 t) (iblk0 V c 1 t) (ix3 b p f) = projArr (V c main_v5) (V c main_v0) i := by
  refine (body_entry (iblk0 V c 0 t) (iblk0 V c 1 t) b p f).trans ?_
  unfold projArr Attn.qproj Attn.lin Attn.actFlat Attn.wtT
  refine congrArg (· * Attn.cScale) ?_
  refine Finset.sum_congr rfl fun k _ => ?_
  refine congrArg₂ (· * ·) (in_blk V c t _ _ ?_ ?_) ((wt_blk V c t _).trans (congrArg (V c main_v0) (funext fun a => Fin.ext ?_)))
  · show (i 1).val * 4 + (i 0).val = t.val * 1024 + (p.val * 4 + b.val)
    rw [h0, h1]; omega
  · rfl
  · match a with
    | ⟨0, _⟩ => rfl
    | ⟨1, _⟩ => exact h2.symm

/-- What point t writes back is block t of the whole-array function. -/
theorem writeback_eq (c : Dev nD) (t : Fin cfg0.N) :
    (dat0 (F := Ideal) V c).flushed 2 t = ((cfg0.win 2).blk t).view.read (Elt Ideal) (projArr (V c main_v5) (V c main_v0)) := by
  show (cfg0.win 2).cut (grid0.coords t) ((dat0 (F := Ideal) V c).after 2 t) = _
  rw [after0_2]
  unfold out0_2
  rw [View.canon_unit_zero zeros3]
  simp only [View.ld_unit_zero (S := S1024x1024) zeros2]
  obtain ⟨-, -, -, -, e4, e5, e6⟩ := block_index t
  funext j
  show k0_pay1 (F := Ideal) (iblk0 V c 0 t) (iblk0 V c 1 t) j = projArr (V c main_v5) (V c main_v0) (((cfg0.win 2).blk t).view.emb j)
  refine (congrArg (k0_pay1 (F := Ideal) (iblk0 V c 0 t) (iblk0 V c 1 t)) (eq_ix3 (n0 := 4) (n1 := 256) (n2 := 1024) j)).trans ?_
  refine blk_entry V c t (j 0) (j 1) (j 2) _ ?_ ?_ ?_
  · show win0_2.index t (0 : Fin 3) * 4 + 1 * (j 0).val = (j 0).val; rw [e4]; omega
  · show win0_2.index t (1 : Fin 3) * 256 + 1 * (j 1).val = t.val * 256 + (j 1).val; rw [e5]; omega
  · show win0_2.index t (2 : Fin 3) * 1024 + 1 * (j 2).val = (j 2).val; rw [e6]; omega

/-- An index of the result array is in point t's block iff each coordinate is in the block's range on its axis. -/
theorem mem_blk (t : Fin cfg0.N) (i : S4x2048x1024.Idx) :
    i ∈ ((cfg0.win 2).blk t).view.set ↔ ∀ a : Fin 3, win0_2.index t a * S4x256x1024.size a ≤ (i a).val ∧ (i a).val < win0_2.index t a * S4x256x1024.size a + S4x256x1024.size a := by
  show i ∈ ((View.whole main_v8).slice (win0_2.rect t)).set ↔ _
  rw [View.set_slice_whole, Rect.mem_set_unit]
  exact Iff.rfl

/-- Every index of the result array is in some point's block: position s of any batch row is in block s / 256. -/
theorem blocks_cover (i : S4x2048x1024.Idx) :
    ∃ t : Fin cfg0.N, (cfg0.win 2).flush t = true ∧ i ∈ ((cfg0.win 2).blk t).view.set := by
  have h0 : (i 0).val < 4 := (i 0).isLt
  have h1 : (i 1).val < 2048 := (i 1).isLt
  have h2 : (i 2).val < 1024 := (i 2).isLt
  have hN : cfg0.N = 8 := N_0
  obtain ⟨t, ht⟩ : ∃ t : Fin cfg0.N, t.val = (i 1).val / 256 := ⟨⟨(i 1).val / 256, by rw [hN]; omega⟩, rfl⟩
  obtain ⟨-, -, -, -, e4, e5, e6⟩ := block_index t
  refine ⟨t, flush0_2 t, ?_⟩
  rw [mem_blk]
  intro a
  match a with
  | ⟨0, _⟩ => show win0_2.index t (0 : Fin 3) * 4 ≤ (i 0).val ∧ (i 0).val < win0_2.index t (0 : Fin 3) * 4 + 4; rw [e4]; omega
  | ⟨1, _⟩ => show win0_2.index t (1 : Fin 3) * 256 ≤ (i 1).val ∧ (i 1).val < win0_2.index t (1 : Fin 3) * 256 + 256; rw [e5]; omega
  | ⟨2, _⟩ => show win0_2.index t (2 : Fin 3) * 1024 ≤ (i 2).val ∧ (i 2).val < win0_2.index t (2 : Fin 3) * 1024 + 1024; rw [e6]; omega

/-- The result array after the region is the whole-array function. -/
theorem arr_eq (c : Dev nD) : (dat0 (F := Ideal) V c).arrAt 2 cfg0.N = projArr (V c main_v5) (V c main_v0) :=
  (dat0 (F := Ideal) V c).arrAt_eq_of_cover 2 (projArr (V c main_v5) (V c main_v0)) (fun t _ => writeback_eq V c t) blocks_cover

/-- What the query projection leaves in its result array, batch-major: entry (b, t, f) is the scaled linear layer of the flattened input's row 4·t + b against the transposed weight. -/
theorem proj0_at (c : Dev nD) (b : Fin 4) (t : Fin 2048) (f : Fin 1024) :
    (dat0 (F := Ideal) V c).arrAt 2 cfg0.N (ix3 b t f)
      = Attn.qproj (Attn.actFlat (V c main_v5)) (Attn.wtT (V c main_v0)) t b f :=
  congrFun (arr_eq V c) (ix3 b t f)

end Cert.KernelIdeal.Proj0

end
-- ==== Proof.Proj1.lean ====
/-
  The key projection call, from its blocks to its whole result array.

  The call walks the 8192 rows of the flattened activations (row 4·t + b for position t and batch row b) in 8 blocks
  of 1024 rows. Each block is multiplied by the whole weight, stored (input feature, output feature); its
  1024 rows are split into 256 positions × 4 batch rows, the two axes are swapped, and the block is written to
  positions 256·i … 256·i + 255 of every batch row of the batch-major result [4, 2048, 1024]. A matrix product taken
  block of rows by block of rows is the whole product, and a change of float format is the identity on the extended
  reals, so entry (b, t, f) of the result is the linear layer's entry at position t and batch row b.
-/
import proofs.«179876_j77678778515968_2_alg».proof.Proof.Gen.KernelIdeal.Frame
import proofs.«179876_j77678778515968_2_alg».proof.Proof.Spec
import proofs.«179876_j77678778515968_2_alg».proof.Proof.LibPlainMatmul
import proofs.«179876_j77678778515968_2_alg».proof.Proof.LibFlattenBroadcast
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Proj1

open Cert.KernelIdeal Cert.KernelIdeal.Gen

variable (V : (c : Dev nD) → (b : Ref sig .tc) → Buf (Elt Ideal) ((c : Thread nD τ).loc b))

/-- The zero offsets of a whole-block access, rank 2 and rank 3. -/
theorem zeros2 : (![0, 0] : Fin 2 → Nat) = fun _ => 0 := funext fun a => by fin_cases a <;> rfl
theorem zeros3 : (![0, 0, 0] : Fin 3 → Nat) = fun _ => 0 := funext fun a => by fin_cases a <;> rfl

/-- The body's result block at (b, p, f), from its two loaded blocks: both operands keep their values through the format
    change; the plain product of the activation block with the weight block has Σ_k x0(r, k) · x1(k, f) at row r; the
    split of the 1024 rows into 256 × 4 puts row p·4 + b at (p, b), and the exchange of the two leading axes puts it at (b, p). -/
theorem body_entry (x0 x1 : Vec Ideal S1024x1024 .f32) (b : Fin 4) (p : Fin 256) (f : Fin 1024) :
    k1_pay1 (F := Ideal) x0 x1 (ix3 b p f)
      = ∑ k : Fin 1024, x0 (ix2 (⟨p.val * 4 + b.val, by omega⟩ : Fin 1024) k) * x1 (ix2 k f) := by
  unfold k1_pay1
  refine (truncf_apply (ψ := .bf16) _ bitsLt_bf16_f32 (ix3 b p f)).trans ?_
  refine (transpose_apply [1, 0, 2] _ _ (ix3 b p f) (ix3 p b f) ?_).trans ?_
  · intro a
    match a with
    | ⟨0, _⟩ => rfl
    | ⟨1, _⟩ => rfl
    | ⟨2, _⟩ => rfl
  refine (Cert.LibFlattenBroadcast.shapeCast_nc_abc_apply _ _ p b f (⟨p.val * 4 + b.val, by omega⟩ : Fin 1024) rfl).trans ?_
  refine (PlainMatmul.apply_zero (M := 1024) (K := 1024) (N := 1024) _ _ _ f).trans ?_
  refine Finset.sum_congr rfl fun k _ => ?_
  rw [truncf_apply, truncf_apply, shapeCast_self, shapeCast_self]

/-- The whole result array as one function of the flattened input and the transposed weight, batch-major: entry
    (b, t, f) is the linear layer at position t, batch row b, feature f. -/
def projArr (a : S8192x1024.Idx → EReal) (w : S1024x1024.Idx → EReal) : S4x2048x1024.Idx → EReal :=
  fun i => Attn.lin (Attn.actFlat a) (Attn.wtT w) (i 1) (i 0) (i 2)

/-- The block indices of the three windows, decided over the eight grid points: the input's block i is rows
    1024·i … 1024·i + 1023, the weight's block is the whole matrix, the result's block i is positions 256·i … 256·i + 255
    of every batch row. -/
theorem block_index : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 3) = 0 ∧ win1_2.index t (1 : Fin 3) = t.val ∧ win1_2.index t (2 : Fin 3) = 0 :=
  (by decide +kernel : ∀ t : Fin grid1.N, _)

/-- The input window's block at point t, at (r, k), is the flattened input at row 1024·t + r. -/
theorem in_blk (c : Dev nD) (t : Fin cfg1.N) (y : S1024x1024.Idx) (i : S8192x1024.Idx)
    (h0 : (i 0).val = t.val * 1024 + (y 0).val) (h1 : (i 1).val = (y 1).val) :
    (iblk1 V c 0 t : Vec Ideal S1024x1024 .f32) y = (V c main_v6 : S8192x1024.Idx → EReal) i := by
  obtain ⟨e0, e1, -⟩ := block_index t
  unfold iblk1
  rw [View.read_apply]
  show V c main_v6 _ = V c main_v6 _
  refine congrArg (V c main_v6) (funext fun a => Fin.ext ?_)
  match a with
  | ⟨0, _⟩ => show win1_0.index t (0 : Fin 2) * 1024 + 1 * (y 0).val = (i 0).val; rw [e0, h0]; omega
  | ⟨1, _⟩ => show win1_0.index t (1 : Fin 2) * 1024 + 1 * (y 1).val = (i 1).val; rw [e1, h1]; omega

/-- The weight window's block at any point is the whole weight matrix. -/
theorem wt_blk (c : Dev nD) (t : Fin cfg1.N) (y : S1024x1024.Idx) :
    (iblk1 V c 1 t : Vec Ideal S1024x1024 .f32) y = (V c main_v1 : S1024x1024.Idx → EReal) y := by
  obtain ⟨-, -, e2, e3, -⟩ := block_index t
  unfold iblk1
  rw [View.read_apply]
  show V c main_v1 _ = V c main_v1 _
  refine congrArg (V c main_v1) (funext fun a => Fin.ext ?_)
  match a with
  | ⟨0, _⟩ => show win1_1.index t (0 : Fin 2) * 1024 + 1 * (y 0).val = (y 0).val; rw [e2]; omega
  | ⟨1, _⟩ => show win1_1.index t (1 : Fin 2) * 1024 + 1 * (y 1).val = (y 1).val; rw [e3]; omega

/-- The body's result block at point t, at (b, p, f), is the whole-array function at (b, 256·t + p, f): row
    p·4 + b of input block t is row 1024·t + 4·p + b = 4·(256·t + p) + b of the flattened input. -/
theorem blk_entry (c : Dev nD) (t : Fin cfg1.N) (b : Fin 4) (p : Fin 256) (f : Fin 1024) (i : S4x2048x1024.Idx)
    (h0 : (i 0).val = b.val) (h1 : (i 1).val = t.val * 256 + p.val) (h2 : (i 2).val = f.val) :
    k1_pay1 (F := Ideal) (iblk1 V c 0 t) (iblk1 V c 1 t) (ix3 b p f) = projArr (V c main_v6) (V c main_v1) i := by
  refine (body_entry (iblk1 V c 0 t) (iblk1 V c 1 t) b p f).trans ?_
  unfold projArr Attn.lin Attn.actFlat Attn.wtT
  refine Finset.sum_congr rfl fun k _ => ?_
  refine congrArg₂ (· * ·) (in_blk V c t _ _ ?_ ?_) ((wt_blk V c t _).trans (congrArg (V c main_v1) (funext fun a => Fin.ext ?_)))
  · show (i 1).val * 4 + (i 0).val = t.val * 1024 + (p.val * 4 + b.val)
    rw [h0, h1]; omega
  · rfl
  · match a with
    | ⟨0, _⟩ => rfl
    | ⟨1, _⟩ => exact h2.symm

/-- What point t writes back is block t of the whole-array function. -/
theorem writeback_eq (c : Dev nD) (t : Fin cfg1.N) :
    (dat1 (F := Ideal) V c).flushed 2 t = ((cfg1.win 2).blk t).view.read (Elt Ideal) (projArr (V c main_v6) (V c main_v1)) := by
  show (cfg1.win 2).cut (grid1.coords t) ((dat1 (F := Ideal) V c).after 2 t) = _
  rw [after1_2]
  unfold out1_2
  rw [View.canon_unit_zero zeros3]
  simp only [View.ld_unit_zero (S := S1024x1024) zeros2]
  obtain ⟨-, -, -, -, e4, e5, e6⟩ := block_index t
  funext j
  show k1_pay1 (F := Ideal) (iblk1 V c 0 t) (iblk1 V c 1 t) j = projArr (V c main_v6) (V c main_v1) (((cfg1.win 2).blk t).view.emb j)
  refine (congrArg (k1_pay1 (F := Ideal) (iblk1 V c 0 t) (iblk1 V c 1 t)) (eq_ix3 (n0 := 4) (n1 := 256) (n2 := 1024) j)).trans ?_
  refine blk_entry V c t (j 0) (j 1) (j 2) _ ?_ ?_ ?_
  · show win1_2.index t (0 : Fin 3) * 4 + 1 * (j 0).val = (j 0).val; rw [e4]; omega
  · show win1_2.index t (1 : Fin 3) * 256 + 1 * (j 1).val = t.val * 256 + (j 1).val; rw [e5]; omega
  · show win1_2.index t (2 : Fin 3) * 1024 + 1 * (j 2).val = (j 2).val; rw [e6]; omega

/-- An index of the result array is in point t's block iff each coordinate is in the block's range on its axis. -/
theorem mem_blk (t : Fin cfg1.N) (i : S4x2048x1024.Idx) :
    i ∈ ((cfg1.win 2).blk t).view.set ↔ ∀ a : Fin 3, win1_2.index t a * S4x256x1024.size a ≤ (i a).val ∧ (i a).val < win1_2.index t a * S4x256x1024.size a + S4x256x1024.size a := by
  show i ∈ ((View.whole main_v9).slice (win1_2.rect t)).set ↔ _
  rw [View.set_slice_whole, Rect.mem_set_unit]
  exact Iff.rfl

/-- Every index of the result array is in some point's block: position s of any batch row is in block s / 256. -/
theorem blocks_cover (i : S4x2048x1024.Idx) :
    ∃ t : Fin cfg1.N, (cfg1.win 2).flush t = true ∧ i ∈ ((cfg1.win 2).blk t).view.set := by
  have h0 : (i 0).val < 4 := (i 0).isLt
  have h1 : (i 1).val < 2048 := (i 1).isLt
  have h2 : (i 2).val < 1024 := (i 2).isLt
  have hN : cfg1.N = 8 := N_1
  obtain ⟨t, ht⟩ : ∃ t : Fin cfg1.N, t.val = (i 1).val / 256 := ⟨⟨(i 1).val / 256, by rw [hN]; omega⟩, rfl⟩
  obtain ⟨-, -, -, -, e4, e5, e6⟩ := block_index t
  refine ⟨t, flush1_2 t, ?_⟩
  rw [mem_blk]
  intro a
  match a with
  | ⟨0, _⟩ => show win1_2.index t (0 : Fin 3) * 4 ≤ (i 0).val ∧ (i 0).val < win1_2.index t (0 : Fin 3) * 4 + 4; rw [e4]; omega
  | ⟨1, _⟩ => show win1_2.index t (1 : Fin 3) * 256 ≤ (i 1).val ∧ (i 1).val < win1_2.index t (1 : Fin 3) * 256 + 256; rw [e5]; omega
  | ⟨2, _⟩ => show win1_2.index t (2 : Fin 3) * 1024 ≤ (i 2).val ∧ (i 2).val < win1_2.index t (2 : Fin 3) * 1024 + 1024; rw [e6]; omega

/-- The result array after the region is the whole-array function. -/
theorem arr_eq (c : Dev nD) : (dat1 (F := Ideal) V c).arrAt 2 cfg1.N = projArr (V c main_v6) (V c main_v1) :=
  (dat1 (F := Ideal) V c).arrAt_eq_of_cover 2 (projArr (V c main_v6) (V c main_v1)) (fun t _ => writeback_eq V c t) blocks_cover

/-- What the key projection leaves in its result array, batch-major: entry (b, t, f) is the linear layer of the flattened input's row 4·t + b against the transposed weight. -/
theorem proj1_at (c : Dev nD) (b : Fin 4) (t : Fin 2048) (f : Fin 1024) :
    (dat1 (F := Ideal) V c).arrAt 2 cfg1.N (ix3 b t f)
      = Attn.lin (Attn.actFlat (V c main_v6)) (Attn.wtT (V c main_v1)) t b f :=
  congrFun (arr_eq V c) (ix3 b t f)

end Cert.KernelIdeal.Proj1

end
-- ==== Proof.Proj2.lean ====
/-
  The value projection call, from its blocks to its whole result array.

  The call walks the 8192 rows of the flattened activations (row 4·t + b for position t and batch row b) in 8 blocks
  of 1024 rows. Each block is multiplied by the whole weight, stored (input feature, output feature); its
  1024 rows are split into 256 positions × 4 batch rows, the two axes are swapped, and the block is written to
  positions 256·i … 256·i + 255 of every batch row of the batch-major result [4, 2048, 1024]. A matrix product taken
  block of rows by block of rows is the whole product, and a change of float format is the identity on the extended
  reals, so entry (b, t, f) of the result is the linear layer's entry at position t and batch row b.
-/
import proofs.«179876_j77678778515968_2_alg».proof.Proof.Gen.KernelIdeal.Frame
import proofs.«179876_j77678778515968_2_alg».proof.Proof.Spec
import proofs.«179876_j77678778515968_2_alg».proof.Proof.LibPlainMatmul
import proofs.«179876_j77678778515968_2_alg».proof.Proof.LibFlattenBroadcast
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Proj2

open Cert.KernelIdeal Cert.KernelIdeal.Gen

variable (V : (c : Dev nD) → (b : Ref sig .tc) → Buf (Elt Ideal) ((c : Thread nD τ).loc b))

/-- The zero offsets of a whole-block access, rank 2 and rank 3. -/
theorem zeros2 : (![0, 0] : Fin 2 → Nat) = fun _ => 0 := funext fun a => by fin_cases a <;> rfl
theorem zeros3 : (![0, 0, 0] : Fin 3 → Nat) = fun _ => 0 := funext fun a => by fin_cases a <;> rfl

/-- The body's result block at (b, p, f), from its two loaded blocks: both operands keep their values through the format
    change; the plain product of the activation block with the weight block has Σ_k x0(r, k) · x1(k, f) at row r; the
    split of the 1024 rows into 256 × 4 puts row p·4 + b at (p, b), and the exchange of the two leading axes puts it at (b, p). -/
theorem body_entry (x0 x1 : Vec Ideal S1024x1024 .f32) (b : Fin 4) (p : Fin 256) (f : Fin 1024) :
    k2_pay1 (F := Ideal) x0 x1 (ix3 b p f)
      = ∑ k : Fin 1024, x0 (ix2 (⟨p.val * 4 + b.val, by omega⟩ : Fin 1024) k) * x1 (ix2 k f) := by
  unfold k2_pay1
  refine (truncf_apply (ψ := .bf16) _ bitsLt_bf16_f32 (ix3 b p f)).trans ?_
  refine (transpose_apply [1, 0, 2] _ _ (ix3 b p f) (ix3 p b f) ?_).trans ?_
  · intro a
    match a with
    | ⟨0, _⟩ => rfl
    | ⟨1, _⟩ => rfl
    | ⟨2, _⟩ => rfl
  refine (Cert.LibFlattenBroadcast.shapeCast_nc_abc_apply _ _ p b f (⟨p.val * 4 + b.val, by omega⟩ : Fin 1024) rfl).trans ?_
  refine (PlainMatmul.apply_zero (M := 1024) (K := 1024) (N := 1024) _ _ _ f).trans ?_
  refine Finset.sum_congr rfl fun k _ => ?_
  rw [truncf_apply, truncf_apply, shapeCast_self, shapeCast_self]

/-- The whole result array as one function of the flattened input and the transposed weight, batch-major: entry
    (b, t, f) is the linear layer at position t, batch row b, feature f. -/
def projArr (a : S8192x1024.Idx → EReal) (w : S1024x1024.Idx → EReal) : S4x2048x1024.Idx → EReal :=
  fun i => Attn.lin (Attn.actFlat a) (Attn.wtT w) (i 1) (i 0) (i 2)

/-- The block indices of the three windows, decided over the eight grid points: the input's block i is rows
    1024·i … 1024·i + 1023, the weight's block is the whole matrix, the result's block i is positions 256·i … 256·i + 255
    of every batch row. -/
theorem block_index : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 3) = 0 ∧ win2_2.index t (1 : Fin 3) = t.val ∧ win2_2.index t (2 : Fin 3) = 0 :=
  (by decide +kernel : ∀ t : Fin grid2.N, _)

/-- The input window's block at point t, at (r, k), is the flattened input at row 1024·t + r. -/
theorem in_blk (c : Dev nD) (t : Fin cfg2.N) (y : S1024x1024.Idx) (i : S8192x1024.Idx)
    (h0 : (i 0).val = t.val * 1024 + (y 0).val) (h1 : (i 1).val = (y 1).val) :
    (iblk2 V c 0 t : Vec Ideal S1024x1024 .f32) y = (V c main_v7 : S8192x1024.Idx → EReal) i := by
  obtain ⟨e0, e1, -⟩ := block_index t
  unfold iblk2
  rw [View.read_apply]
  show V c main_v7 _ = V c main_v7 _
  refine congrArg (V c main_v7) (funext fun a => Fin.ext ?_)
  match a with
  | ⟨0, _⟩ => show win2_0.index t (0 : Fin 2) * 1024 + 1 * (y 0).val = (i 0).val; rw [e0, h0]; omega
  | ⟨1, _⟩ => show win2_0.index t (1 : Fin 2) * 1024 + 1 * (y 1).val = (i 1).val; rw [e1, h1]; omega

/-- The weight window's block at any point is the whole weight matrix. -/
theorem wt_blk (c : Dev nD) (t : Fin cfg2.N) (y : S1024x1024.Idx) :
    (iblk2 V c 1 t : Vec Ideal S1024x1024 .f32) y = (V c main_v2 : S1024x1024.Idx → EReal) y := by
  obtain ⟨-, -, e2, e3, -⟩ := block_index t
  unfold iblk2
  rw [View.read_apply]
  show V c main_v2 _ = V c main_v2 _
  refine congrArg (V c main_v2) (funext fun a => Fin.ext ?_)
  match a with
  | ⟨0, _⟩ => show win2_1.index t (0 : Fin 2) * 1024 + 1 * (y 0).val = (y 0).val; rw [e2]; omega
  | ⟨1, _⟩ => show win2_1.index t (1 : Fin 2) * 1024 + 1 * (y 1).val = (y 1).val; rw [e3]; omega

/-- The body's result block at point t, at (b, p, f), is the whole-array function at (b, 256·t + p, f): row
    p·4 + b of input block t is row 1024·t + 4·p + b = 4·(256·t + p) + b of the flattened input. -/
theorem blk_entry (c : Dev nD) (t : Fin cfg2.N) (b : Fin 4) (p : Fin 256) (f : Fin 1024) (i : S4x2048x1024.Idx)
    (h0 : (i 0).val = b.val) (h1 : (i 1).val = t.val * 256 + p.val) (h2 : (i 2).val = f.val) :
    k2_pay1 (F := Ideal) (iblk2 V c 0 t) (iblk2 V c 1 t) (ix3 b p f) = projArr (V c main_v7) (V c main_v2) i := by
  refine (body_entry (iblk2 V c 0 t) (iblk2 V c 1 t) b p f).trans ?_
  unfold projArr Attn.lin Attn.actFlat Attn.wtT
  refine Finset.sum_congr rfl fun k _ => ?_
  refine congrArg₂ (· * ·) (in_blk V c t _ _ ?_ ?_) ((wt_blk V c t _).trans (congrArg (V c main_v2) (funext fun a => Fin.ext ?_)))
  · show (i 1).val * 4 + (i 0).val = t.val * 1024 + (p.val * 4 + b.val)
    rw [h0, h1]; omega
  · rfl
  · match a with
    | ⟨0, _⟩ => rfl
    | ⟨1, _⟩ => exact h2.symm

/-- What point t writes back is block t of the whole-array function. -/
theorem writeback_eq (c : Dev nD) (t : Fin cfg2.N) :
    (dat2 (F := Ideal) V c).flushed 2 t = ((cfg2.win 2).blk t).view.read (Elt Ideal) (projArr (V c main_v7) (V c main_v2)) := by
  show (cfg2.win 2).cut (grid2.coords t) ((dat2 (F := Ideal) V c).after 2 t) = _
  rw [after2_2]
  unfold out2_2
  rw [View.canon_unit_zero zeros3]
  simp only [View.ld_unit_zero (S := S1024x1024) zeros2]
  obtain ⟨-, -, -, -, e4, e5, e6⟩ := block_index t
  funext j
  show k2_pay1 (F := Ideal) (iblk2 V c 0 t) (iblk2 V c 1 t) j = projArr (V c main_v7) (V c main_v2) (((cfg2.win 2).blk t).view.emb j)
  refine (congrArg (k2_pay1 (F := Ideal) (iblk2 V c 0 t) (iblk2 V c 1 t)) (eq_ix3 (n0 := 4) (n1 := 256) (n2 := 1024) j)).trans ?_
  refine blk_entry V c t (j 0) (j 1) (j 2) _ ?_ ?_ ?_
  · show win2_2.index t (0 : Fin 3) * 4 + 1 * (j 0).val = (j 0).val; rw [e4]; omega
  · show win2_2.index t (1 : Fin 3) * 256 + 1 * (j 1).val = t.val * 256 + (j 1).val; rw [e5]; omega
  · show win2_2.index t (2 : Fin 3) * 1024 + 1 * (j 2).val = (j 2).val; rw [e6]; omega

/-- An index of the result array is in point t's block iff each coordinate is in the block's range on its axis. -/
theorem mem_blk (t : Fin cfg2.N) (i : S4x2048x1024.Idx) :
    i ∈ ((cfg2.win 2).blk t).view.set ↔ ∀ a : Fin 3, win2_2.index t a * S4x256x1024.size a ≤ (i a).val ∧ (i a).val < win2_2.index t a * S4x256x1024.size a + S4x256x1024.size a := by
  show i ∈ ((View.whole main_v10).slice (win2_2.rect t)).set ↔ _
  rw [View.set_slice_whole, Rect.mem_set_unit]
  exact Iff.rfl

/-- Every index of the result array is in some point's block: position s of any batch row is in block s / 256. -/
theorem blocks_cover (i : S4x2048x1024.Idx) :
    ∃ t : Fin cfg2.N, (cfg2.win 2).flush t = true ∧ i ∈ ((cfg2.win 2).blk t).view.set := by
  have h0 : (i 0).val < 4 := (i 0).isLt
  have h1 : (i 1).val < 2048 := (i 1).isLt
  have h2 : (i 2).val < 1024 := (i 2).isLt
  have hN : cfg2.N = 8 := N_2
  obtain ⟨t, ht⟩ : ∃ t : Fin cfg2.N, t.val = (i 1).val / 256 := ⟨⟨(i 1).val / 256, by rw [hN]; omega⟩, rfl⟩
  obtain ⟨-, -, -, -, e4, e5, e6⟩ := block_index t
  refine ⟨t, flush2_2 t, ?_⟩
  rw [mem_blk]
  intro a
  match a with
  | ⟨0, _⟩ => show win2_2.index t (0 : Fin 3) * 4 ≤ (i 0).val ∧ (i 0).val < win2_2.index t (0 : Fin 3) * 4 + 4; rw [e4]; omega
  | ⟨1, _⟩ => show win2_2.index t (1 : Fin 3) * 256 ≤ (i 1).val ∧ (i 1).val < win2_2.index t (1 : Fin 3) * 256 + 256; rw [e5]; omega
  | ⟨2, _⟩ => show win2_2.index t (2 : Fin 3) * 1024 ≤ (i 2).val ∧ (i 2).val < win2_2.index t (2 : Fin 3) * 1024 + 1024; rw [e6]; omega

/-- The result array after the region is the whole-array function. -/
theorem arr_eq (c : Dev nD) : (dat2 (F := Ideal) V c).arrAt 2 cfg2.N = projArr (V c main_v7) (V c main_v2) :=
  (dat2 (F := Ideal) V c).arrAt_eq_of_cover 2 (projArr (V c main_v7) (V c main_v2)) (fun t _ => writeback_eq V c t) blocks_cover

/-- What the value projection leaves in its result array, batch-major: entry (b, t, f) is the linear layer of the flattened input's row 4·t + b against the transposed weight. -/
theorem proj2_at (c : Dev nD) (b : Fin 4) (t : Fin 2048) (f : Fin 1024) :
    (dat2 (F := Ideal) V c).arrAt 2 cfg2.N (ix3 b t f)
      = Attn.lin (Attn.actFlat (V c main_v7)) (Attn.wtT (V c main_v2)) t b f :=
  congrFun (arr_eq V c) (ix3 b t f)

end Cert.KernelIdeal.Proj2

end
-- ==== Proof.LibTransposedMatmul.lean ====
/-
  A matrix product with the right operand contracted on its LAST axis, read at an entry. For an M×K left operand and an
  N×K right operand (left axis 1 against right axis 1, no batch axis) the exact product into a zero accumulator has, at
  row r and column c, the value  Σ_k lhs(r, k) · rhs(c, k): the operand indices at output index (r, c) and contraction
  position k are (r, k) and (c, k). This is the product  A · Bᵀ.
-/
import Idealize.ShloMosaic.PureOps.Ideal.Laws
import Idealize.ShloMosaic.Lib.ValueIdx

noncomputable section

namespace TransposedMatmul

open Idealize.ShloMosaic Idealize.ShloMosaic.ValueIdx

variable {M K N : ℕ}

/-- The left operand's row is the output's row. -/
theorem lhs_row (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

/-- The right operand's row is the output's column. -/
theorem rhs_row (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

/-- The product into the zero accumulator, at (r, c), is Σ_k lhs(r, k) · rhs(c, k). -/
theorem apply_zero {φ₁ φ₂ : FTy} (lhs : FVec Ideal ⟨2, ![M, K]⟩ φ₁) (rhs : FVec Ideal ⟨2, ![N, K]⟩ φ₂)
    (r : Fin M) (c : Fin N) :
    FloatOps.matmul (DotDims.transposedRhs M K N) none lhs rhs (constant (F := Ideal) ⟨2, ![M, N]⟩ .f32 0x00000000#32) (ix2 r c)
      = ∑ k : Fin K, lhs (ix2 r k) * rhs (ix2 c k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 r c) ((contrEquiv1 (DotDims.transposedRhs M K N) K rfl rfl).symm k) = ix2 r k :=
    funext fun a => Fin.ext (by
      match a with
      | ⟨0, _⟩ => exact lhs_row _ _
      | ⟨1, _⟩ => exact ((DotDims.transposedRhs M K N).lhsIdx_val_of_single rfl _ _).trans hk)
  have er : (DotDims.transposedRhs M K N).rhsIdx (ix2 r c) ((contrEquiv1 (DotDims.transposedRhs M K N) K rfl rfl).symm k) = ix2 c k :=
    funext fun a => Fin.ext (by
      match a with
      | ⟨0, _⟩ => exact rhs_row _ _
      | ⟨1, _⟩ => exact ((DotDims.transposedRhs M K N).rhsIdx_val_of_single rfl _ _).trans hk)
  rw [el, er]

end TransposedMatmul

end
-- ==== Proof.LibRowReduce.lean ====
/-
  Reductions along the rows of a matrix, read at a row. At the exact values a lane reduction of an a×b matrix over its
  second axis is, at row r, the sum (for an add reduction) or the fold of max from the accumulator's value (for a
  maximum reduction) of the b entries (r, k) of that row; the host's reduce over the same axis is the same fold from its
  initial value, and its sum the initial value plus the same sum. A fold of max that starts at a value is at least that
  value, so taking the maximum with the start once more changes nothing.
-/
import Idealize.ShloMosaic.PureOps.Ideal.Laws
import Idealize.ShloMosaic.Lib.ValueIdx

noncomputable section

namespace RowReduce

open Idealize.ShloMosaic Idealize.ShloMosaic.ValueIdx

variable {a b : ℕ}

/-- The index a reduction over axis 1 reads at row `r` and position `k` is `(r, k)`. -/
theorem lift_eq (h : (⟨2, ![a, b]⟩ : Shape).Reduces [1] ⟨1, ![a]⟩) (r : Fin a) (k : Fin b) :
    h.lift (ix1 r) k = ix2 r k :=
  funext fun ax => Fin.ext (by match ax with | ⟨0, _⟩ => rfl | ⟨1, _⟩ => rfl)

/-- A lane sum over the second axis, at row `r`: the sum of that row's entries. -/
theorem laneSum_at (src : FVec Ideal ⟨2, ![a, b]⟩ .f32) (acc : BitVec 32) (h : (⟨2, ![a, b]⟩ : Shape).Reduces [1] ⟨1, ![a]⟩)
    (hφ : FKind.Formats .f32) (hacc : acc = FKind.add.neutral .f32 hφ) (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (lift_eq h r k))

/-- A lane maximum over the second axis, at row `r`: the fold of max over that row's entries from the accumulator's value. -/
theorem laneMax_at (src : FVec Ideal ⟨2, ![a, b]⟩ .f32) (acc : BitVec 32) (h : (⟨2, ![a, b]⟩ : Shape).Reduces [1] ⟨1, ![a]⟩)
    (hφ : FKind.Formats .f32) (hacc : acc = FKind.maximumf.neutral .f32 hφ) (r : Fin a) :
    multiReduction .maximumf [1] ⟨1, ![a]⟩ src acc h hφ hacc (ix1 r)
      = (Finset.univ : Finset (Fin b)).fold max (Ideal.ofBits .f32 acc) (fun k => src (ix2 r k)) :=
  (Ideal.multiReduction_maximumf_single src acc h hφ hacc (ix1 r)).trans
    (congrArg (Finset.fold max (Ideal.ofBits .f32 acc) · (Finset.univ : Finset (Fin b)))
      (funext fun k => congrArg src (lift_eq h r k)))

/-- The host's sum over the second axis, at row `r`: the initial value plus the sum of that row's entries. -/
theorem hostSum_at {u : Shape} (x : FVec Ideal ⟨2, ![a, b]⟩ .f32) (init : FVec Ideal u .f32)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduceAdd (F := Ideal) x init h' hu (ix1 r) = init (Shape.Idx.first hu) + ∑ k : Fin b, x (ix2 r k) := by
  simp only [Host.reduceAdd, Ideal.hostReduceAdd_def]
  rw [Ideal.hostReduceAdd_single h' h]
  exact congrArg (_ + ·) (Finset.sum_congr rfl fun k _ => congrArg x (lift_eq h r k))

/-- The host's maximum over the second axis, at row `r`: the fold of max over that row's entries from the initial value. -/
theorem hostMax_at {u : Shape} (x : FVec Ideal ⟨2, ![a, b]⟩ .f32) (init : FVec Ideal u .f32)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.maximumf (F := Ideal) (φ := .f32)) x init h' hu (ix1 r)
      = (Finset.univ : Finset (Fin b)).fold max (init (Shape.Idx.first hu)) (fun k => x (ix2 r k)) :=
  (Host.reduce_eq_fold_single (FloatOps.maximumf (F := Ideal) (φ := .f32)) x init h' h hu (ix1 r)).trans
    (congrArg (Finset.fold max (init (Shape.Idx.first hu)) · (Finset.univ : Finset (Fin b)))
      (funext fun k => congrArg x (lift_eq h r k)))

/-- A fold of max from `m₀` is at least `m₀`: the maximum with `m₀` once more is the fold itself. -/
theorem max_fold_self {ι : Type} (s : Finset ι) (m₀ : EReal) (f : ι → EReal) :
    max m₀ (s.fold max m₀ f) = s.fold max m₀ f :=
  max_eq_right ((Finset.le_fold_max (s := s) (b := m₀) (f := f) (c := m₀)).2 (Or.inl le_rfl))

end RowReduce

end
-- ==== Proof.LibKeepdimsColumn.lean ====
/-
  A column kept beside a matrix. A vector of a entries reshaped to an a×1 column reads its entry i at (i, 0); an a×1
  column broadcast along its unit axis to an a×b matrix reads, at (p, c), the column's entry p. Together they are how a
  per-row quantity (a row's maximum, a row's sum) is put back beside every entry of its row.
-/
import Idealize.ShloMosaic.Lib.ValueLayout

namespace KeepdimsColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end KeepdimsColumn
-- ==== Proof.AttnHeads.lean ====
/-
  One attention head of one block at the exact values.

  From the head's 64 query features of 256 rows and its 64 key features of 2048 rows: the scores are the inner products;
  each row's maximum (from −∞) is subtracted and the differences exponentiated; each row is divided by its sum: these are
  the head's weights. The head's context is the weights against its 64 value features. Read entry by entry these are
  the block functions of the specification, the head's features being columns 64·h … 64·h + 63 of the blocks.
-/
import proofs.«179876_j77678778515968_2_alg».proof.Proof.Gen.KernelIdeal.Frame
import proofs.«179876_j77678778515968_2_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«179876_j77678778515968_2_alg».proof.Proof.LibTransposedMatmul
import proofs.«179876_j77678778515968_2_alg».proof.Proof.LibPlainMatmul
import proofs.«179876_j77678778515968_2_alg».proof.Proof.LibRowReduce
import proofs.«179876_j77678778515968_2_alg».proof.Proof.LibKeepdimsColumn

noncomputable section

open Idealize.ShloMosaic Idealize.ShloMosaic.TcCoe Idealize.SL.Sem Idealize.ShloMosaic.ValueIdx
open Idealize.ShloMosaic.Pipeline (Dat)

namespace Cert.KernelIdeal.AttnHeads

open Cert.KernelIdeal Cert.KernelIdeal.Gen

/-- One head's exponentials: the 256 × 2048 scores of its 64 query features against its 64 key features, less each
    row's maximum, exponentiated. -/
def headExp (qh : FVec Ideal S256x64 .bf16) (kh : FVec Ideal S2048x64 .bf16) : FVec Ideal S256x2048 .f32 :=
  exp (subf (matmul dot_S256x64_S2048x64_S256x2048_1_1_0_0_n_n none qh kh (constant S256x2048 .f32 0x00000000#32))
    (broadcastTo S256x2048 (shapeCast S256x1 (multiReduction .maximumf [1] S256
      (matmul dot_S256x64_S2048x64_S256x2048_1_1_0_0_n_n none qh kh (constant S256x2048 .f32 0x00000000#32)) 0xFF800000#32 reduces_S256x2048_S256 (.inl rfl) rfl)
      shapeCasts_S256_S256x1) broadcasts_S256x1_S256x2048))

/-- The row sums of one head's exponentials. -/
def headSum (qh : FVec Ideal S256x64 .bf16) (kh : FVec Ideal S2048x64 .bf16) : FVec Ideal S256 .f32 :=
  multiReduction .add [1] S256 (headExp qh kh) 0x00000000#32 reduces_S256x2048_S256 (.inl rfl) rfl

/-- A matrix of exponentials divided, row by row, by a vector of row sums. -/
def rowDiv (e : FVec Ideal S256x2048 .f32) (l : FVec Ideal S256 .f32) : FVec Ideal S256x2048 .f32 :=
  divf e (broadcastTo S256x2048 (shapeCast S256x1 l shapeCasts_S256_S256x1) broadcasts_S256x1_S256x2048)

/-- One head's attention weights. -/
def headProbs (qh : FVec Ideal S256x64 .bf16) (kh : FVec Ideal S2048x64 .bf16) : FVec Ideal S256x2048 .f32 :=
  rowDiv (headExp qh kh) (headSum qh kh)

/-- One head's context: its weights against its 64 value features. -/
def headCtx (p : FVec Ideal S256x2048 .f32) (vh : FVec Ideal S2048x64 .bf16) : FVec Ideal S256x64 .bf16 :=
  truncf .bf16 (matmul dot_S256x2048_S2048x64_S256x64_1_0_0_1_n_n none (truncf .bf16 p bitsLt_bf16_f32) vh (constant S256x64 .f32 0x00000000#32)) bitsLt_bf16_f32

/-- The printed record of the score product is the product against a transposed right operand. -/
theorem dotScores_eq : dot_S256x64_S2048x64_S256x2048_1_1_0_0_n_n = DotDims.transposedRhs 256 64 2048 := rfl

/-- The printed record of the context product is the plain product. -/
theorem dotCtx_eq : dot_S256x2048_S2048x64_S256x64_1_0_0_1_n_n = DotDims.plain 256 2048 64 := rfl

/-- One head's scores: its 64 query features against its 64 key features. -/
def headScores (qh : FVec Ideal S256x64 .bf16) (kh : FVec Ideal S2048x64 .bf16) : FVec Ideal S256x2048 .f32 :=
  matmul dot_S256x64_S2048x64_S256x2048_1_1_0_0_n_n none qh kh (constant S256x2048 .f32 0x00000000#32)

/-- The score at (r, s) is the inner product of query row r with key row s. -/
theorem headScores_at (qh : FVec Ideal S256x64 .bf16) (kh : FVec Ideal S2048x64 .bf16) (r : Fin 256) (s : Fin 2048) :
    headScores qh kh (ix2 r s) = ∑ d : Fin 64, qh (ix2 r d) * kh (ix2 s d) :=
  TransposedMatmul.apply_zero (M := 256) (K := 64) (N := 2048) qh kh r s

/-- One head's row maxima: the lane maximum of the scores from −∞. -/
def headMax (qh : FVec Ideal S256x64 .bf16) (kh : FVec Ideal S2048x64 .bf16) : FVec Ideal S256 .f32 :=
  multiReduction .maximumf [1] S256 (headScores qh kh) 0xFF800000#32 reduces_S256x2048_S256 (.inl rfl) rfl

/-- The maximum of row r is the fold of max over the row's scores from −∞. -/
theorem headMax_at (qh : FVec Ideal S256x64 .bf16) (kh : FVec Ideal S2048x64 .bf16) (r : Fin 256) :
    headMax qh kh (ix1 r)
      = (Finset.univ : Finset (Fin 2048)).fold max Attn.cNegInf (fun s => headScores qh kh (ix2 r s)) :=
  RowReduce.laneMax_at (a := 256) (b := 2048) (headScores qh kh) 0xFF800000#32 reduces_S256x2048_S256 (.inl rfl) rfl r

/-- A per-row vector put back beside every entry of its row reads, at (r, s), the vector's entry r. -/
theorem keepdims_at (l : FVec Ideal S256 .f32) (r : Fin 256) (s : Fin 2048) :
    broadcastTo S256x2048 (shapeCast S256x1 l shapeCasts_S256_S256x1) broadcasts_S256x1_S256x2048 (ix2 r s) = l (ix1 r) :=
  (KeepdimsColumn.broadcastTo_a1_ab_apply (a := 256) (b := 2048) _ broadcasts_S256x1_S256x2048 r s).trans
    (KeepdimsColumn.shapeCast_a_a1_apply (a := 256) l shapeCasts_S256_S256x1 r 0)

/-- The exponential at (r, s): the score less its row's maximum, exponentiated. -/
theorem headExp_at (qh : FVec Ideal S256x64 .bf16) (kh : FVec Ideal S2048x64 .bf16) (r : Fin 256) (s : Fin 2048) :
    headExp qh kh (ix2 r s) = Ideal.exp (headScores qh kh (ix2 r s) - headMax qh kh (ix1 r)) := by
  show Ideal.exp (headScores qh kh (ix2 r s)
    - broadcastTo S256x2048 (shapeCast S256x1 (headMax qh kh) shapeCasts_S256_S256x1) broadcasts_S256x1_S256x2048 (ix2 r s)) = _
  rw [keepdims_at]

/-- The sum of row r of the exponentials. -/
theorem headSum_at (qh : FVec Ideal S256x64 .bf16) (kh : FVec Ideal S2048x64 .bf16) (r : Fin 256) :
    headSum qh kh (ix1 r) = ∑ s : Fin 2048, headExp qh kh (ix2 r s) :=
  RowReduce.laneSum_at (a := 256) (b := 2048) (headExp qh kh) 0x00000000#32 reduces_S256x2048_S256 (.inl rfl) rfl r

/-- The row-wise quotient at (r, s). -/
theorem rowDiv_at (e : FVec Ideal S256x2048 .f32) (l : FVec Ideal S256 .f32) (r : Fin 256) (s : Fin 2048) :
    rowDiv e l (ix2 r s) = Ideal.div (e (ix2 r s)) (l (ix1 r)) := by
  show Ideal.div (e (ix2 r s))
    (broadcastTo S256x2048 (shapeCast S256x1 l shapeCasts_S256_S256x1) broadcasts_S256x1_S256x2048 (ix2 r s)) = _
  rw [keepdims_at]

/-- One head's weights at (r, s). -/
theorem headProbs_at (qh : FVec Ideal S256x64 .bf16) (kh : FVec Ideal S2048x64 .bf16) (r : Fin 256) (s : Fin 2048) :
    headProbs qh kh (ix2 r s) = Ideal.div (headExp qh kh (ix2 r s)) (headSum qh kh (ix1 r)) :=
  rowDiv_at _ _ r s

/-- One head's context at (r, d): the weights of row r against value feature d. -/
theorem headCtx_at (p : FVec Ideal S256x2048 .f32) (vh : FVec Ideal S2048x64 .bf16) (r : Fin 256) (d : Fin 64) :
    headCtx p vh (ix2 r d) = ∑ s : Fin 2048, p (ix2 r s) * vh (ix2 s d) :=
  PlainMatmul.apply_zero (M := 256) (K := 2048) (N := 64) (truncf .bf16 p bitsLt_bf16_f32) vh r d

/-- Column d of the slice that starts at column 64·h is feature d of head h. -/
theorem slice_col_at {n : ℕ} (x : FVec Ideal ⟨2, ![n, 1024]⟩ .bf16) (h : Fin 16) (o : Nat) (ho : o = h.val * 64)
    (hx : (⟨2, ![n, 1024]⟩ : Shape).Slices ![0, o] ⟨2, ![n, 64]⟩) (a : Fin n) (d : Fin 64) :
    extractStridedSlice ⟨2, ![n, 64]⟩ ![0, o] x hx (ix2 a d) = x (ix2 a (Attn.col h d)) :=
  slice2_axis1_apply o x hx a d (Attn.col h d) (by show h.val * 64 + d.val = o + d.val; rw [ho])

/-- Head h's weights, from the columns o = 64·h … 64·h + 63 of a query block and a key block, at (r, s). -/
theorem headProbs_slice_at (q : FVec Ideal S256x1024 .bf16) (k : FVec Ideal S2048x1024 .bf16) (h : Fin 16) (o : Nat) (ho : o = h.val * 64)
    (hq : S256x1024.Slices ![0, o] S256x64) (hk : S2048x1024.Slices ![0, o] S2048x64) (r : Fin 256) (s : Fin 2048) :
    headProbs (extractStridedSlice S256x64 ![0, o] q hq) (extractStridedSlice S2048x64 ![0, o] k hk) (ix2 r s)
      = Attn.bprob (fun r e => q (ix2 r e)) (fun s e => k (ix2 s e)) h r s := by
  have hsc : ∀ (r : Fin 256) (s : Fin 2048),
      headScores (extractStridedSlice S256x64 ![0, o] q hq) (extractStridedSlice S2048x64 ![0, o] k hk) (ix2 r s)
        = Attn.bscore (fun r e => q (ix2 r e)) (fun s e => k (ix2 s e)) h r s := fun r s => by
    rw [headScores_at]
    exact Finset.sum_congr rfl fun d _ => by
      rw [slice_col_at q h o ho hq r d, slice_col_at k h o ho hk s d]
  have hmx : ∀ r : Fin 256,
      headMax (extractStridedSlice S256x64 ![0, o] q hq) (extractStridedSlice S2048x64 ![0, o] k hk) (ix1 r)
        = Attn.bmax (fun r e => q (ix2 r e)) (fun s e => k (ix2 s e)) h r := fun r => by
    rw [headMax_at]
    exact congrArg (Finset.fold max Attn.cNegInf · (Finset.univ : Finset (Fin 2048))) (funext fun s => hsc r s)
  have hex : ∀ (r : Fin 256) (s : Fin 2048),
      headExp (extractStridedSlice S256x64 ![0, o] q hq) (extractStridedSlice S2048x64 ![0, o] k hk) (ix2 r s)
        = Attn.bexp (fun r e => q (ix2 r e)) (fun s e => k (ix2 s e)) h r s := fun r s => by
    rw [headExp_at, hsc, hmx]; rfl
  have hsm : ∀ r : Fin 256,
      headSum (extractStridedSlice S256x64 ![0, o] q hq) (extractStridedSlice S2048x64 ![0, o] k hk) (ix1 r)
        = Attn.bsum (fun r e => q (ix2 r e)) (fun s e => k (ix2 s e)) h r := fun r => by
    rw [headSum_at]
    exact Finset.sum_congr rfl fun s _ => hex r s
  rw [headProbs_at, hex, hsm]; rfl

/-- Head h's context from a matrix of weights and the columns o = 64·h … of a value block, at (r, d). -/
theorem headCtx_slice_at (p : FVec Ideal S256x2048 .f32) (v : FVec Ideal S2048x1024 .bf16) (h : Fin 16) (o : Nat) (ho : o = h.val * 64)
    (hv : S2048x1024.Slices ![0, o] S2048x64) (r : Fin 256) (d : Fin 64) :
    headCtx p (extractStridedSlice S2048x64 ![0, o] v hv) (ix2 r d) = ∑ s : Fin 2048, p (ix2 r s) * v (ix2 s (Attn.col h d)) := by
  rw [headCtx_at]
  exact Finset.sum_congr rfl fun s _ => by rw [slice_col_at v h o ho hv s d]

end Cert.KernelIdeal.AttnHeads

end
-- ==== Proof.AttnCtxPointHeads.lean ====
/-
  The sixteen heads of one block of the attention kernel, one at a time: each head's 256 × 64 context, as the
  kernel body computes it from the three blocks, is the weighted sum over the 2048 key rows of the head's value
  features, the weights being the block's attention weights for that head.
-/
import proofs.«179876_j77678778515968_2_alg».proof.Proof.Gen.KernelIdeal.Frame
import proofs.«179876_j77678778515968_2_alg».proof.Proof.Spec
import proofs.«179876_j77678778515968_2_alg».proof.Proof.AttnHeads
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.AttnCtxPoint

open Cert.KernelIdeal Cert.KernelIdeal.Gen Cert.KernelIdeal.AttnHeads

/-- One head's context from the head's columns of a query, a key and a value matrix, at (r, d): the weighted sum of
    the head's value feature d over the key rows. -/
theorem headSlice_at (q : FVec Ideal S256x1024 .bf16) (k v : FVec Ideal S2048x1024 .bf16) (h : Fin 16) (o : Nat) (ho : o = h.val * 64)
    (hq : S256x1024.Slices ![0, o] S256x64) (hk : S2048x1024.Slices ![0, o] S2048x64) (hv : S2048x1024.Slices ![0, o] S2048x64)
    (r : Fin 256) (d : Fin 64) :
    headCtx (headProbs (extractStridedSlice S256x64 ![0, o] q hq) (extractStridedSlice S2048x64 ![0, o] k hk))
        (extractStridedSlice S2048x64 ![0, o] v hv) (ix2 r d)
      = ∑ s : Fin 2048, Attn.bprob (fun r e => q (ix2 r e)) (fun s e => k (ix2 s e)) h r s * v (ix2 s (Attn.col h d)) :=
  (headCtx_slice_at _ v h o ho hv r d).trans
    (Finset.sum_congr rfl fun s _ => congrArg (· * v (ix2 s (Attn.col h d))) (headProbs_slice_at q k h o ho hq hk r s))

/-- A query block with its unit axis dropped, read by (row, feature). -/
theorem dropUnit_q (x0 : Vec Ideal S1x256x1024 .bf16) :
    (fun (r : Fin 256) (e : Fin 1024) => k3_pay2 (F := Ideal) x0 (ix2 r e)) = Attn.bq x0 := by
  funext r e
  exact shapeCast_1ab_ab_apply x0 shapeCasts_S1x256x1024_S256x1024 r e

/-- A key block with its unit axis dropped, read by (row, feature). -/
theorem dropUnit_k (x1 : Vec Ideal S1x2048x1024 .bf16) :
    (fun (s : Fin 2048) (e : Fin 1024) => k3_pay3 (F := Ideal) x1 (ix2 s e)) = Attn.bk x1 := by
  funext s e
  exact shapeCast_1ab_ab_apply x1 shapeCasts_S1x2048x1024_S2048x1024 s e

/-- A value block with its unit axis dropped, at (row, feature). -/
theorem dropUnit_v (x2 : Vec Ideal S1x2048x1024 .bf16) (s : Fin 2048) (e : Fin 1024) :
    k3_pay4 (F := Ideal) x2 (ix2 s e) = Attn.bk x2 s e :=
  shapeCast_1ab_ab_apply x2 shapeCasts_S1x2048x1024_S2048x1024 s e

/-- One head's context from the head's columns of the three blocks (their unit axes dropped), at (r, d). -/
theorem headBlock_at (x0 : Vec Ideal S1x256x1024 .bf16) (x1 x2 : Vec Ideal S1x2048x1024 .bf16) (h : Fin 16) (o : Nat) (ho : o = h.val * 64)
    (hq : S256x1024.Slices ![0, o] S256x64) (hk : S2048x1024.Slices ![0, o] S2048x64) (hv : S2048x1024.Slices ![0, o] S2048x64)
    (r : Fin 256) (d : Fin 64) :
    headCtx (headProbs (extractStridedSlice S256x64 ![0, o] (k3_pay2 x0) hq) (extractStridedSlice S2048x64 ![0, o] (k3_pay3 x1) hk))
        (extractStridedSlice S2048x64 ![0, o] (k3_pay4 x2) hv) (ix2 r d)
      = ∑ s : Fin 2048, Attn.bprob (Attn.bq x0) (Attn.bk x1) h r s * Attn.bk x2 s (Attn.col h d) := by
  refine (headSlice_at (k3_pay2 x0) (k3_pay3 x1) (k3_pay4 x2) h o ho hq hk hv r d).trans ?_
  rw [dropUnit_q, dropUnit_k]
  exact Finset.sum_congr rfl fun s _ => congrArg (Attn.bprob (Attn.bq x0) (Attn.bk x1) h r s * ·) (dropUnit_v x2 s (Attn.col h d))

/-- Head 0's context as the body computes it, at (r, d). -/
theorem head0_at (x0 : Vec Ideal S1x256x1024 .bf16) (x1 x2 : Vec Ideal S1x2048x1024 .bf16) (r : Fin 256) (d : Fin 64) :
    (k3_pay8 x0 x1 x2 : FVec Ideal S256x64 .bf16) (ix2 r d)
      = ∑ s : Fin 2048, Attn.bprob (Attn.bq x0) (Attn.bk x1) 0 r s * Attn.bk x2 s (Attn.col 0 d) :=
  headBlock_at x0 x1 x2 0 0 rfl slices_S256x1024_o0_0_S256x64 slices_S2048x1024_o0_0_S2048x64 slices_S2048x1024_o0_0_S2048x64 r d

/-- Head 1's context as the body computes it, at (r, d). -/
theorem head1_at (x0 : Vec Ideal S1x256x1024 .bf16) (x1 x2 : Vec Ideal S1x2048x1024 .bf16) (r : Fin 256) (d : Fin 64) :
    (k3_pay12 (k3_pay3 x1) (k3_pay4 x2) (k3_pay9 x0) : FVec Ideal S256x64 .bf16) (ix2 r d)
      = ∑ s : Fin 2048, Attn.bprob (Attn.bq x0) (Attn.bk x1) 1 r s * Attn.bk x2 s (Attn.col 1 d) :=
  headBlock_at x0 x1 x2 1 64 rfl slices_S256x1024_o0_64_S256x64 slices_S2048x1024_o0_64_S2048x64 slices_S2048x1024_o0_64_S2048x64 r d

/-- Head 2's context as the body computes it, at (r, d). -/
theorem head2_at (x0 : Vec Ideal S1x256x1024 .bf16) (x1 x2 : Vec Ideal S1x2048x1024 .bf16) (r : Fin 256) (d : Fin 64) :
    (k3_pay17 (k3_pay13 (k3_pay4 x2)) (k3_pay14 (k3_pay2 x0) (k3_pay3 x1)) : FVec Ideal S256x64 .bf16) (ix2 r d)
      = ∑ s : Fin 2048, Attn.bprob (Attn.bq x0) (Attn.bk x1) 2 r s * Attn.bk x2 s (Attn.col 2 d) :=
  headBlock_at x0 x1 x2 2 128 rfl slices_S256x1024_o0_128_S256x64 slices_S2048x1024_o0_128_S2048x64 slices_S2048x1024_o0_128_S2048x64 r d

/-- Head 3's context as the body computes it, at (r, d). -/
theorem head3_at (x0 : Vec Ideal S1x256x1024 .bf16) (x1 x2 : Vec Ideal S1x2048x1024 .bf16) (r : Fin 256) (d : Fin 64) :
    (k3_pay20 (k3_pay2 x0) (k3_pay3 x1) (k3_pay4 x2) : FVec Ideal S256x64 .bf16) (ix2 r d)
      = ∑ s : Fin 2048, Attn.bprob (Attn.bq x0) (Attn.bk x1) 3 r s * Attn.bk x2 s (Attn.col 3 d) :=
  headBlock_at x0 x1 x2 3 192 rfl slices_S256x1024_o0_192_S256x64 slices_S2048x1024_o0_192_S2048x64 slices_S2048x1024_o0_192_S2048x64 r d

/-- Head 4's context as the body computes it, at (r, d). -/
theorem head4_at (x0 : Vec Ideal S1x256x1024 .bf16) (x1 x2 : Vec Ideal S1x2048x1024 .bf16) (r : Fin 256) (d : Fin 64) :
    (k3_pay26 (k3_pay21 (k3_pay4 x2)) (k3_pay22 (k3_pay2 x0) (k3_pay3 x1)) (k3_pay23 (k3_pay2 x0) (k3_pay3 x1)) : FVec Ideal S256x64 .bf16) (ix2 r d)
      = ∑ s : Fin 2048, Attn.bprob (Attn.bq x0) (Attn.bk x1) 4 r s * Attn.bk x2 s (Attn.col 4 d) :=
  headBlock_at x0 x1 x2 4 256 rfl slices_S256x1024_o0_256_S256x64 slices_S2048x1024_o0_256_S2048x64 slices_S2048x1024_o0_256_S2048x64 r d

/-- Head 5's context as the body computes it, at (r, d). -/
theorem head5_at (x0 : Vec Ideal S1x256x1024 .bf16) (x1 x2 : Vec Ideal S1x2048x1024 .bf16) (r : Fin 256) (d : Fin 64) :
    (k3_pay29 (k3_pay2 x0) (k3_pay3 x1) (k3_pay4 x2) : FVec Ideal S256x64 .bf16) (ix2 r d)
      = ∑ s : Fin 2048, Attn.bprob (Attn.bq x0) (Attn.bk x1) 5 r s * Attn.bk x2 s (Attn.col 5 d) :=
  headBlock_at x0 x1 x2 5 320 rfl slices_S256x1024_o0_320_S256x64 slices_S2048x1024_o0_320_S2048x64 slices_S2048x1024_o0_320_S2048x64 r d

/-- Head 6's context as the body computes it, at (r, d). -/
theorem head6_at (x0 : Vec Ideal S1x256x1024 .bf16) (x1 x2 : Vec Ideal S1x2048x1024 .bf16) (r : Fin 256) (d : Fin 64) :
    (k3_pay33 (k3_pay3 x1) (k3_pay4 x2) (k3_pay30 (k3_pay2 x0)) : FVec Ideal S256x64 .bf16) (ix2 r d)
      = ∑ s : Fin 2048, Attn.bprob (Attn.bq x0) (Attn.bk x1) 6 r s * Attn.bk x2 s (Attn.col 6 d) :=
  headBlock_at x0 x1 x2 6 384 rfl slices_S256x1024_o0_384_S256x64 slices_S2048x1024_o0_384_S2048x64 slices_S2048x1024_o0_384_S2048x64 r d

/-- Head 7's context as the body computes it, at (r, d). -/
theorem head7_at (x0 : Vec Ideal S1x256x1024 .bf16) (x1 x2 : Vec Ideal S1x2048x1024 .bf16) (r : Fin 256) (d : Fin 64) :
    (k3_pay38 (k3_pay34 (k3_pay4 x2)) (k3_pay35 (k3_pay2 x0) (k3_pay3 x1)) : FVec Ideal S256x64 .bf16) (ix2 r d)
      = ∑ s : Fin 2048, Attn.bprob (Attn.bq x0) (Attn.bk x1) 7 r s * Attn.bk x2 s (Attn.col 7 d) :=
  headBlock_at x0 x1 x2 7 448 rfl slices_S256x1024_o0_448_S256x64 slices_S2048x1024_o0_448_S2048x64 slices_S2048x1024_o0_448_S2048x64 r d

/-- Head 8's context as the body computes it, at (r, d). -/
theorem head8_at (x0 : Vec Ideal S1x256x1024 .bf16) (x1 x2 : Vec Ideal S1x2048x1024 .bf16) (r : Fin 256) (d : Fin 64) :
    (k3_pay41 (k3_pay2 x0) (k3_pay3 x1) (k3_pay4 x2) : FVec Ideal S256x64 .bf16) (ix2 r d)
      = ∑ s : Fin 2048, Attn.bprob (Attn.bq x0) (Attn.bk x1) 8 r s * Attn.bk x2 s (Attn.col 8 d) :=
  headBlock_at x0 x1 x2 8 512 rfl slices_S256x1024_o0_512_S256x64 slices_S2048x1024_o0_512_S2048x64 slices_S2048x1024_o0_512_S2048x64 r d

/-- Head 9's context as the body computes it, at (r, d). -/
theorem head9_at (x0 : Vec Ideal S1x256x1024 .bf16) (x1 x2 : Vec Ideal S1x2048x1024 .bf16) (r : Fin 256) (d : Fin 64) :
    (k3_pay47 (k3_pay42 (k3_pay4 x2)) (k3_pay43 (k3_pay2 x0) (k3_pay3 x1)) (k3_pay44 (k3_pay2 x0) (k3_pay3 x1)) : FVec Ideal S256x64 .bf16) (ix2 r d)
      = ∑ s : Fin 2048, Attn.bprob (Attn.bq x0) (Attn.bk x1) 9 r s * Attn.bk x2 s (Attn.col 9 d) :=
  headBlock_at x0 x1 x2 9 576 rfl slices_S256x1024_o0_576_S256x64 slices_S2048x1024_o0_576_S2048x64 slices_S2048x1024_o0_576_S2048x64 r d

/-- Head 10's context as the body computes it, at (r, d). -/
theorem head10_at (x0 : Vec Ideal S1x256x1024 .bf16) (x1 x2 : Vec Ideal S1x2048x1024 .bf16) (r : Fin 256) (d : Fin 64) :
    (k3_pay50 (k3_pay2 x0) (k3_pay3 x1) (k3_pay4 x2) : FVec Ideal S256x64 .bf16) (ix2 r d)
      = ∑ s : Fin 2048, Attn.bprob (Attn.bq x0) (Attn.bk x1) 10 r s * Attn.bk x2 s (Attn.col 10 d) :=
  headBlock_at x0 x1 x2 10 640 rfl slices_S256x1024_o0_640_S256x64 slices_S2048x1024_o0_640_S2048x64 slices_S2048x1024_o0_640_S2048x64 r d

/-- Head 11's context as the body computes it, at (r, d). -/
theorem head11_at (x0 : Vec Ideal S1x256x1024 .bf16) (x1 x2 : Vec Ideal S1x2048x1024 .bf16) (r : Fin 256) (d : Fin 64) :
    (k3_pay54 (k3_pay3 x1) (k3_pay4 x2) (k3_pay51 (k3_pay2 x0)) : FVec Ideal S256x64 .bf16) (ix2 r d)
      = ∑ s : Fin 2048, Attn.bprob (Attn.bq x0) (Attn.bk x1) 11 r s * Attn.bk x2 s (Attn.col 11 d) :=
  headBlock_at x0 x1 x2 11 704 rfl slices_S256x1024_o0_704_S256x64 slices_S2048x1024_o0_704_S2048x64 slices_S2048x1024_o0_704_S2048x64 r d

/-- Head 12's context as the body computes it, at (r, d). -/
theorem head12_at (x0 : Vec Ideal S1x256x1024 .bf16) (x1 x2 : Vec Ideal S1x2048x1024 .bf16) (r : Fin 256) (d : Fin 64) :
    (k3_pay59 (k3_pay55 (k3_pay4 x2)) (k3_pay56 (k3_pay2 x0) (k3_pay3 x1)) : FVec Ideal S256x64 .bf16) (ix2 r d)
      = ∑ s : Fin 2048, Attn.bprob (Attn.bq x0) (Attn.bk x1) 12 r s * Attn.bk x2 s (Attn.col 12 d) :=
  headBlock_at x0 x1 x2 12 768 rfl slices_S256x1024_o0_768_S256x64 slices_S2048x1024_o0_768_S2048x64 slices_S2048x1024_o0_768_S2048x64 r d

/-- Head 13's context as the body computes it, at (r, d). -/
theorem head13_at (x0 : Vec Ideal S1x256x1024 .bf16) (x1 x2 : Vec Ideal S1x2048x1024 .bf16) (r : Fin 256) (d : Fin 64) :
    (k3_pay62 (k3_pay2 x0) (k3_pay3 x1) (k3_pay4 x2) : FVec Ideal S256x64 .bf16) (ix2 r d)
      = ∑ s : Fin 2048, Attn.bprob (Attn.bq x0) (Attn.bk x1) 13 r s * Attn.bk x2 s (Attn.col 13 d) :=
  headBlock_at x0 x1 x2 13 832 rfl slices_S256x1024_o0_832_S256x64 slices_S2048x1024_o0_832_S2048x64 slices_S2048x1024_o0_832_S2048x64 r d

end Cert.KernelIdeal.AttnCtxPoint

end
-- ==== Proof.AttnCtxPointConcat.lean ====
/-
  The context block as the concatenation of the sixteen heads' contexts along the feature axis: feature e is feature
  e mod 64 of head e / 64.
-/
import proofs.«179876_j77678778515968_2_alg».proof.Proof.Gen.KernelIdeal.Frame
import proofs.«179876_j77678778515968_2_alg».proof.Proof.Spec
import proofs.«179876_j77678778515968_2_alg».proof.Proof.AttnHeads
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.AttnCtxPoint

open Cert.KernelIdeal Cert.KernelIdeal.Gen Cert.KernelIdeal.AttnHeads

/-- Feature e mod 64, a feature of one head. -/
def featOf (e : Fin 1024) : Fin 64 := ⟨e.val % 64, Nat.mod_lt _ (by decide)⟩

/-- A feature is feature e mod 64 of head e / 64. -/
theorem col_headOf (e : Fin 1024) : Attn.col (Attn.headOf e) (featOf e) = e :=
  Fin.ext (show e.val / 64 * 64 + e.val % 64 = e.val from Nat.div_add_mod' e.val 64)

set_option maxHeartbeats 400000 in
/-- Sixteen 256 × 64 pieces laid side by side along the feature axis, read at (r, e): piece e / 64 at (r, e mod 64). -/
theorem concat16_at (t : Fin 16 → FVec Ideal S256x64 .bf16)
    (h : Shape.Concatenates (([⟨S256x64, t 0⟩, ⟨S256x64, t 1⟩, ⟨S256x64, t 2⟩, ⟨S256x64, t 3⟩, ⟨S256x64, t 4⟩, ⟨S256x64, t 5⟩, ⟨S256x64, t 6⟩, ⟨S256x64, t 7⟩, ⟨S256x64, t 8⟩, ⟨S256x64, t 9⟩, ⟨S256x64, t 10⟩, ⟨S256x64, t 11⟩, ⟨S256x64, t 12⟩, ⟨S256x64, t 13⟩, ⟨S256x64, t 14⟩, ⟨S256x64, t 15⟩] : List ((s : Shape) × (s.Idx → Ideal .bf16))).map (·.1)) S256x1024 1)
    (r : Fin 256) (e : Fin 1024) :
    concatenate S256x1024 1 [⟨S256x64, t 0⟩, ⟨S256x64, t 1⟩, ⟨S256x64, t 2⟩, ⟨S256x64, t 3⟩, ⟨S256x64, t 4⟩, ⟨S256x64, t 5⟩, ⟨S256x64, t 6⟩, ⟨S256x64, t 7⟩, ⟨S256x64, t 8⟩, ⟨S256x64, t 9⟩, ⟨S256x64, t 10⟩, ⟨S256x64, t 11⟩, ⟨S256x64, t 12⟩, ⟨S256x64, t 13⟩, ⟨S256x64, t 14⟩, ⟨S256x64, t 15⟩] h (ix2 r e) = t (Attn.headOf e) (ix2 r (featOf e)) :=
  concatenate_ofFn_apply (t := S256x1024) (s₁ := S256x64) (1 : Fin 2) t h rfl 64 rfl (ix2 r e) (Attn.headOf e) rfl (ix2 r (featOf e)) rfl
    (fun b hb => match b, hb with
      | ⟨0, _⟩, _ => rfl
      | ⟨1, _⟩, hb => absurd rfl hb)

set_option maxHeartbeats 400000 in
/-- The body's last payload is the concatenation of the fourteen earlier heads' contexts and the last two heads',
    computed from the last head's columns of the three matrices. -/
theorem pay70_eq (q : FVec Ideal S256x1024 .bf16) (k v : FVec Ideal S2048x1024 .bf16) (t0 t1 t2 t3 t4 t5 t6 t7 t8 t9 t10 t11 t12 t13 : FVec Ideal S256x64 .bf16) :
    k3_pay70 q k v t0 t1 t2 t3 t4 t5 t6 t7 t8 t9 t10 t11 t12 t13 (k3_pay63 v) (k3_pay64 q k) (k3_pay65 q k)
      = concatenate S256x1024 1 [⟨S256x64, t0⟩, ⟨S256x64, t1⟩, ⟨S256x64, t2⟩, ⟨S256x64, t3⟩, ⟨S256x64, t4⟩, ⟨S256x64, t5⟩, ⟨S256x64, t6⟩, ⟨S256x64, t7⟩, ⟨S256x64, t8⟩, ⟨S256x64, t9⟩, ⟨S256x64, t10⟩, ⟨S256x64, t11⟩, ⟨S256x64, t12⟩, ⟨S256x64, t13⟩, ⟨S256x64, (headCtx (headProbs (extractStridedSlice S256x64 ![0, 896] q slices_S256x1024_o0_896_S256x64) (extractStridedSlice S2048x64 ![0, 896] k slices_S2048x1024_o0_896_S2048x64)) (extractStridedSlice S2048x64 ![0, 896] v slices_S2048x1024_o0_896_S2048x64))⟩, ⟨S256x64, (headCtx (headProbs (extractStridedSlice S256x64 ![0, 960] q slices_S256x1024_o0_960_S256x64) (extractStridedSlice S2048x64 ![0, 960] k slices_S2048x1024_o0_960_S2048x64)) (extractStridedSlice S2048x64 ![0, 960] v slices_S2048x1024_o0_960_S2048x64))⟩] concatenates_S256x64_S256x64_S256x64_S256x64_S256x64_S256x64_S256x64_S256x64_S256x64_S256x64_S256x64_S256x64_S256x64_S256x64_S256x64_S256x64_S256x1024_d1 := rfl

set_option maxHeartbeats 400000 in
/-- Sixteen pieces side by side, read at (r, e), given what each piece is at every (r, d). -/
theorem concat16_vars (t0 t1 t2 t3 t4 t5 t6 t7 t8 t9 t10 t11 t12 t13 t14 t15 : FVec Ideal S256x64 .bf16) (B : Fin 16 → Fin 256 → Fin 64 → EReal)
    (h0 : ∀ r d, t0 (ix2 r d) = B 0 r d)
    (h1 : ∀ r d, t1 (ix2 r d) = B 1 r d)
    (h2 : ∀ r d, t2 (ix2 r d) = B 2 r d)
    (h3 : ∀ r d, t3 (ix2 r d) = B 3 r d)
    (h4 : ∀ r d, t4 (ix2 r d) = B 4 r d)
    (h5 : ∀ r d, t5 (ix2 r d) = B 5 r d)
    (h6 : ∀ r d, t6 (ix2 r d) = B 6 r d)
    (h7 : ∀ r d, t7 (ix2 r d) = B 7 r d)
    (h8 : ∀ r d, t8 (ix2 r d) = B 8 r d)
    (h9 : ∀ r d, t9 (ix2 r d) = B 9 r d)
    (h10 : ∀ r d, t10 (ix2 r d) = B 10 r d)
    (h11 : ∀ r d, t11 (ix2 r d) = B 11 r d)
    (h12 : ∀ r d, t12 (ix2 r d) = B 12 r d)
    (h13 : ∀ r d, t13 (ix2 r d) = B 13 r d)
    (h14 : ∀ r d, t14 (ix2 r d) = B 14 r d)
    (h15 : ∀ r d, t15 (ix2 r d) = B 15 r d)
    (h : Shape.Concatenates (([⟨S256x64, t0⟩, ⟨S256x64, t1⟩, ⟨S256x64, t2⟩, ⟨S256x64, t3⟩, ⟨S256x64, t4⟩, ⟨S256x64, t5⟩, ⟨S256x64, t6⟩, ⟨S256x64, t7⟩, ⟨S256x64, t8⟩, ⟨S256x64, t9⟩, ⟨S256x64, t10⟩, ⟨S256x64, t11⟩, ⟨S256x64, t12⟩, ⟨S256x64, t13⟩, ⟨S256x64, t14⟩, ⟨S256x64, t15⟩] : List ((s : Shape) × (s.Idx → Ideal .bf16))).map (·.1)) S256x1024 1)
    (r : Fin 256) (e : Fin 1024) :
    concatenate S256x1024 1 [⟨S256x64, t0⟩, ⟨S256x64, t1⟩, ⟨S256x64, t2⟩, ⟨S256x64, t3⟩, ⟨S256x64, t4⟩, ⟨S256x64, t5⟩, ⟨S256x64, t6⟩, ⟨S256x64, t7⟩, ⟨S256x64, t8⟩, ⟨S256x64, t9⟩, ⟨S256x64, t10⟩, ⟨S256x64, t11⟩, ⟨S256x64, t12⟩, ⟨S256x64, t13⟩, ⟨S256x64, t14⟩, ⟨S256x64, t15⟩] h (ix2 r e) = B (Attn.headOf e) r (featOf e) := by
  refine (concat16_at ![t0, t1, t2, t3, t4, t5, t6, t7, t8, t9, t10, t11, t12, t13, t14, t15] h r e).trans ?_
  have hall : ∀ (n : Fin 16) (r : Fin 256) (d : Fin 64), (![t0, t1, t2, t3, t4, t5, t6, t7, t8, t9, t10, t11, t12, t13, t14, t15] : Fin 16 → FVec Ideal S256x64 .bf16) n (ix2 r d) = B n r d := by
    intro n
    fin_cases n
    · exact h0
    · exact h1
    · exact h2
    · exact h3
    · exact h4
    · exact h5
    · exact h6
    · exact h7
    · exact h8
    · exact h9
    · exact h10
    · exact h11
    · exact h12
    · exact h13
    · exact h14
    · exact h15
  exact hall (Attn.headOf e) r (featOf e)

set_option maxHeartbeats 400000 in
/-- The body's last payload at (r, e), given what each head's context is at every (r, d). -/
theorem concatHeads_at (q : FVec Ideal S256x1024 .bf16) (k v : FVec Ideal S2048x1024 .bf16) (t0 t1 t2 t3 t4 t5 t6 t7 t8 t9 t10 t11 t12 t13 : FVec Ideal S256x64 .bf16)
    (B : Fin 16 → Fin 256 → Fin 64 → EReal)
    (h0 : ∀ r d, t0 (ix2 r d) = B 0 r d)
    (h1 : ∀ r d, t1 (ix2 r d) = B 1 r d)
    (h2 : ∀ r d, t2 (ix2 r d) = B 2 r d)
    (h3 : ∀ r d, t3 (ix2 r d) = B 3 r d)
    (h4 : ∀ r d, t4 (ix2 r d) = B 4 r d)
    (h5 : ∀ r d, t5 (ix2 r d) = B 5 r d)
    (h6 : ∀ r d, t6 (ix2 r d) = B 6 r d)
    (h7 : ∀ r d, t7 (ix2 r d) = B 7 r d)
    (h8 : ∀ r d, t8 (ix2 r d) = B 8 r d)
    (h9 : ∀ r d, t9 (ix2 r d) = B 9 r d)
    (h10 : ∀ r d, t10 (ix2 r d) = B 10 r d)
    (h11 : ∀ r d, t11 (ix2 r d) = B 11 r d)
    (h12 : ∀ r d, t12 (ix2 r d) = B 12 r d)
    (h13 : ∀ r d, t13 (ix2 r d) = B 13 r d)
    (h14 : ∀ r d, (headCtx (headProbs (extractStridedSlice S256x64 ![0, 896] q slices_S256x1024_o0_896_S256x64) (extractStridedSlice S2048x64 ![0, 896] k slices_S2048x1024_o0_896_S2048x64)) (extractStridedSlice S2048x64 ![0, 896] v slices_S2048x1024_o0_896_S2048x64)) (ix2 r d) = B 14 r d)
    (h15 : ∀ r d, (headCtx (headProbs (extractStridedSlice S256x64 ![0, 960] q slices_S256x1024_o0_960_S256x64) (extractStridedSlice S2048x64 ![0, 960] k slices_S2048x1024_o0_960_S2048x64)) (extractStridedSlice S2048x64 ![0, 960] v slices_S2048x1024_o0_960_S2048x64)) (ix2 r d) = B 15 r d)
    (r : Fin 256) (e : Fin 1024) :
    k3_pay70 q k v t0 t1 t2 t3 t4 t5 t6 t7 t8 t9 t10 t11 t12 t13 (k3_pay63 v) (k3_pay64 q k) (k3_pay65 q k) (ix2 r e) = B (Attn.headOf e) r (featOf e) := by
  rw [pay70_eq]
  exact concat16_vars t0 t1 t2 t3 t4 t5 t6 t7 t8 t9 t10 t11 t12 t13 _ _ B h0 h1 h2 h3 h4 h5 h6 h7 h8 h9 h10 h11 h12 h13 h14 h15 _ r e

end Cert.KernelIdeal.AttnCtxPoint

end
-- ==== Proof.AttnCtxPoint.lean ====
/-
  What one grid point of the attention call leaves in the context staging buffer: row r, feature e of the block is the
  weighted sum over the 2048 key rows of the value feature e, the weights being those of head e / 64 for row r. The body
  computes the sixteen heads one after the other and stores their concatenation along the feature axis, whether or not
  the point starts a row of the grid.
-/
import proofs.«179876_j77678778515968_2_alg».proof.Proof.Gen.KernelIdeal.Frame
import proofs.«179876_j77678778515968_2_alg».proof.Proof.Spec
import proofs.«179876_j77678778515968_2_alg».proof.Proof.AttnCtxPointHeads
import proofs.«179876_j77678778515968_2_alg».proof.Proof.AttnCtxPointConcat
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.AttnCtxPoint

open Cert.KernelIdeal Cert.KernelIdeal.Gen

/-- The weighted sum that is head n's context at (r, d): the block's attention weights of head n against the head's
    value feature d. -/
def headSum (x0 : Vec Ideal S1x256x1024 .bf16) (x1 x2 : Vec Ideal S1x2048x1024 .bf16) (n : Fin 16) (r : Fin 256) (d : Fin 64) : EReal :=
  ∑ s : Fin 2048, Attn.bprob (Attn.bq x0) (Attn.bk x1) n r s * Attn.bk x2 s (Attn.col n d)

/-- The concatenation of the sixteen heads' contexts, as the body computes it from the three blocks, is the block's
    context: at (r, e), head e / 64's weighted sum of value feature e. -/
theorem ctxPayload_at (x0 : Vec Ideal S1x256x1024 .bf16) (x1 x2 : Vec Ideal S1x2048x1024 .bf16) (r : Fin 256) (e : Fin 1024) :
    (k3_pay70 (k3_pay2 x0) (k3_pay3 x1) (k3_pay4 x2)
        (k3_pay8 x0 x1 x2)
        (k3_pay12 (k3_pay3 x1) (k3_pay4 x2) (k3_pay9 x0))
        (k3_pay17 (k3_pay13 (k3_pay4 x2)) (k3_pay14 (k3_pay2 x0) (k3_pay3 x1)))
        (k3_pay20 (k3_pay2 x0) (k3_pay3 x1) (k3_pay4 x2))
        (k3_pay26 (k3_pay21 (k3_pay4 x2)) (k3_pay22 (k3_pay2 x0) (k3_pay3 x1)) (k3_pay23 (k3_pay2 x0) (k3_pay3 x1)))
        (k3_pay29 (k3_pay2 x0) (k3_pay3 x1) (k3_pay4 x2))
        (k3_pay33 (k3_pay3 x1) (k3_pay4 x2) (k3_pay30 (k3_pay2 x0)))
        (k3_pay38 (k3_pay34 (k3_pay4 x2)) (k3_pay35 (k3_pay2 x0) (k3_pay3 x1)))
        (k3_pay41 (k3_pay2 x0) (k3_pay3 x1) (k3_pay4 x2))
        (k3_pay47 (k3_pay42 (k3_pay4 x2)) (k3_pay43 (k3_pay2 x0) (k3_pay3 x1)) (k3_pay44 (k3_pay2 x0) (k3_pay3 x1)))
        (k3_pay50 (k3_pay2 x0) (k3_pay3 x1) (k3_pay4 x2))
        (k3_pay54 (k3_pay3 x1) (k3_pay4 x2) (k3_pay51 (k3_pay2 x0)))
        (k3_pay59 (k3_pay55 (k3_pay4 x2)) (k3_pay56 (k3_pay2 x0) (k3_pay3 x1)))
        (k3_pay62 (k3_pay2 x0) (k3_pay3 x1) (k3_pay4 x2))
        (k3_pay63 (k3_pay4 x2)) (k3_pay64 (k3_pay2 x0) (k3_pay3 x1)) (k3_pay65 (k3_pay2 x0) (k3_pay3 x1)) : FVec Ideal S256x1024 .bf16) (ix2 r e)
      = Attn.bctx (Attn.bq x0) (Attn.bk x1) (Attn.bk x2) r e := by
  refine (concatHeads_at (k3_pay2 x0) (k3_pay3 x1) (k3_pay4 x2) _ _ _ _ _ _ _ _ _ _ _ _ _ _ (headSum x0 x1 x2)
    (head0_at x0 x1 x2) (head1_at x0 x1 x2) (head2_at x0 x1 x2) (head3_at x0 x1 x2) (head4_at x0 x1 x2) (head5_at x0 x1 x2) (head6_at x0 x1 x2) (head7_at x0 x1 x2) (head8_at x0 x1 x2) (head9_at x0 x1 x2) (head10_at x0 x1 x2) (head11_at x0 x1 x2) (head12_at x0 x1 x2) (head13_at x0 x1 x2)
    (headBlock_at x0 x1 x2 14 896 rfl _ _ _) (headBlock_at x0 x1 x2 15 960 rfl _ _ _) r e).trans ?_
  show (∑ s : Fin 2048, Attn.bprob (Attn.bq x0) (Attn.bk x1) (Attn.headOf e) r s * Attn.bk x2 s (Attn.col (Attn.headOf e) (featOf e))) = _
  rw [col_headOf]
  rfl

/-- The context block cast to its staging buffer's shape, at (0, r, e). -/
theorem ctxStore_at (x0 : Vec Ideal S1x256x1024 .bf16) (x1 x2 : Vec Ideal S1x2048x1024 .bf16) (r : Fin 256) (e : Fin 1024) :
    k3_pay1 (k3_pay70 (k3_pay2 x0) (k3_pay3 x1) (k3_pay4 x2)
        (k3_pay8 x0 x1 x2)
        (k3_pay12 (k3_pay3 x1) (k3_pay4 x2) (k3_pay9 x0))
        (k3_pay17 (k3_pay13 (k3_pay4 x2)) (k3_pay14 (k3_pay2 x0) (k3_pay3 x1)))
        (k3_pay20 (k3_pay2 x0) (k3_pay3 x1) (k3_pay4 x2))
        (k3_pay26 (k3_pay21 (k3_pay4 x2)) (k3_pay22 (k3_pay2 x0) (k3_pay3 x1)) (k3_pay23 (k3_pay2 x0) (k3_pay3 x1)))
        (k3_pay29 (k3_pay2 x0) (k3_pay3 x1) (k3_pay4 x2))
        (k3_pay33 (k3_pay3 x1) (k3_pay4 x2) (k3_pay30 (k3_pay2 x0)))
        (k3_pay38 (k3_pay34 (k3_pay4 x2)) (k3_pay35 (k3_pay2 x0) (k3_pay3 x1)))
        (k3_pay41 (k3_pay2 x0) (k3_pay3 x1) (k3_pay4 x2))
        (k3_pay47 (k3_pay42 (k3_pay4 x2)) (k3_pay43 (k3_pay2 x0) (k3_pay3 x1)) (k3_pay44 (k3_pay2 x0) (k3_pay3 x1)))
        (k3_pay50 (k3_pay2 x0) (k3_pay3 x1) (k3_pay4 x2))
        (k3_pay54 (k3_pay3 x1) (k3_pay4 x2) (k3_pay51 (k3_pay2 x0)))
        (k3_pay59 (k3_pay55 (k3_pay4 x2)) (k3_pay56 (k3_pay2 x0) (k3_pay3 x1)))
        (k3_pay62 (k3_pay2 x0) (k3_pay3 x1) (k3_pay4 x2))
        (k3_pay63 (k3_pay4 x2)) (k3_pay64 (k3_pay2 x0) (k3_pay3 x1)) (k3_pay65 (k3_pay2 x0) (k3_pay3 x1)) : FVec Ideal S256x1024 .bf16) (ix3 (0 : Fin 1) r e)
      = Attn.bctx (Attn.bq x0) (Attn.bk x1) (Attn.bk x2) r e :=
  (shapeCast_ab_1ab_apply _ shapeCasts_S256x1024_S1x256x1024 (0 : Fin 1) r e).trans (ctxPayload_at x0 x1 x2 r e)

/-- The staging buffer's origin, as a function of the axis. -/
theorem origin3 : (![0, 0, 0] : Fin 3 → Nat) = fun _ => 0 := by
  funext a; fin_cases a <;> rfl

set_option maxHeartbeats 400000 in
/-- At a point that starts a row of the grid, the context block the body leaves: row r, feature e. -/
theorem out3_A_3_at (c : Dev nD) (i : grid3.Coords) (arg2 : Memref sig .tc .vmem S1x256x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1x256x1024 .bf16) (harg5 : arg5.IsWhole) (arg6 : Memref sig .tc .vmem S4x256x2048 .f32) (harg6 : arg6.IsWhole) (hc0 : cond3_0 i)
    (x0 : Vec Ideal S1x256x1024 .bf16) (x1 : Vec Ideal S1x2048x1024 .bf16) (x2 : Vec Ideal S1x2048x1024 .bf16) (r : Fin 256) (e : Fin 1024) :
    out3_A_3 (F := Ideal) c i arg2 harg2 arg3 harg3 arg4 harg4 arg5 harg5 arg6 harg6 hc0 x0 x1 x2 (ix3 (0 : Fin 1) r e) = Attn.bctx (Attn.bq x0) (Attn.bk x1) (Attn.bk x2) r e := by
  unfold out3_A_3
  rw [View.read_writes_eq_canon _ _ _ (cover3_A_3 c i arg2 harg2 arg3 harg3 arg4 harg4 arg5 harg5 arg6 harg6 hc0 x0 x1 x2)]
  unfold kernelRun3_A
  dsimp only
  sl_unfold_words
  rw [View.canon_unit_zero origin3]
  simp only [View.readAt_eq_ld, harg2.read_unread, harg3.read_unread, harg4.read_unread,
    View.ld_unit_zero (S := S1x256x1024) origin3, View.ld_unit_zero (S := S1x2048x1024) origin3]
  exact ctxStore_at x0 x1 x2 r e

set_option maxHeartbeats 400000 in
/-- At any other point, the same. -/
theorem out3_B_3_at (c : Dev nD) (i : grid3.Coords) (arg2 : Memref sig .tc .vmem S1x256x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1x256x1024 .bf16) (harg5 : arg5.IsWhole) (arg6 : Memref sig .tc .vmem S4x256x2048 .f32) (harg6 : arg6.IsWhole) (hc0 : ¬cond3_0 i)
    (x0 : Vec Ideal S1x256x1024 .bf16) (x1 : Vec Ideal S1x2048x1024 .bf16) (x2 : Vec Ideal S1x2048x1024 .bf16) (xo4 : Vec Ideal S4x256x2048 .f32) (r : Fin 256) (e : Fin 1024) :
    out3_B_3 (F := Ideal) c i arg2 harg2 arg3 harg3 arg4 harg4 arg5 harg5 arg6 harg6 hc0 x0 x1 x2 xo4 (ix3 (0 : Fin 1) r e) = Attn.bctx (Attn.bq x0) (Attn.bk x1) (Attn.bk x2) r e := by
  unfold out3_B_3
  rw [View.read_writes_eq_canon _ _ _ (cover3_B_3 c i arg2 harg2 arg3 harg3 arg4 harg4 arg5 harg5 arg6 harg6 hc0 x0 x1 x2 xo4)]
  unfold kernelRun3_B
  dsimp only
  sl_unfold_words
  rw [View.canon_unit_zero origin3]
  simp only [View.readAt_eq_ld, harg2.read_unread, harg3.read_unread, harg4.read_unread,
    View.ld_unit_zero (S := S1x256x1024) origin3, View.ld_unit_zero (S := S1x2048x1024) origin3]
  exact ctxStore_at x0 x1 x2 r e

end Cert.KernelIdeal.AttnCtxPoint

end
-- ==== Proof.AttnAvgPointSlabs.lean ====
/-
  The averaged-weights staging buffer [4, 256, 2048] seen as four slabs [1, 256, 2048], one per group: what a store
  into one slab does to the buffer's entries, what a load of one slab reads, and what four stores, one per slab, leave.
-/
import proofs.«179876_j77678778515968_2_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.AttnAvgPoint

open Cert.KernelIdeal Cert.KernelIdeal.Gen

/-! ## The averaged-weights buffer as four slabs

The buffer is indexed (group, row, key position); slab j is the rectangle of its entries (j, ·, ·), a [1, 256, 2048]
array whose entry (0, r, s) is the buffer's entry (j, r, s). A store into slab j changes exactly the entries of
group j. -/

section Slabs
variable {Val : EltTy → Type} [∀ e, Nonempty (Val e)]

/-- Entry (0, r, s) of slab j sits at entry (j, r, s) of the buffer. -/
theorem slab_idx (j : Fin 4) (off : Fin 3 → Nat) (hoff : off = ![j.val, 0, 0])
    (inb : ∀ a, off a + S1x256x2048.size a ≤ S4x256x2048.size a) (r : Fin 256) (s : Fin 2048) :
    (Rect.unit (s := S4x256x2048) off S1x256x2048.size inb).idx (ix3 (0 : Fin 1) r s) = ix3 j r s := by
  subst hoff
  funext a
  apply Fin.ext
  match a with
  | ⟨0, _⟩ => show j.val + 1 * 0 = j.val; omega
  | ⟨1, _⟩ => show 0 + 1 * r.val = r.val; omega
  | ⟨2, _⟩ => show 0 + 1 * s.val = s.val; omega

/-- After a store into slab j, entry (j, r, s) holds the stored array's entry (0, r, s). -/
theorem canon_slab_hit (j : Fin 4) (off : Fin 3 → Nat) (hoff : off = ![j.val, 0, 0])
    (inb : ∀ a, off a + S1x256x2048.size a ≤ S4x256x2048.size a) (w : S1x256x2048.Idx → Val .f32)
    (L : List (View.Piece Val S4x256x2048 .f32)) (r : Fin 256) (s : Fin 2048) :
    View.canon (⟨Rect.unit (s := S4x256x2048) off S1x256x2048.size inb, w⟩ :: L) (ix3 j r s) = w (ix3 (0 : Fin 1) r s) := by
  rw [← slab_idx j off hoff inb r s]
  exact View.canon_cons_emb (Rect.unit (s := S4x256x2048) off S1x256x2048.size inb) w L (ix3 (0 : Fin 1) r s)

/-- A store into slab j leaves the entries of every other group as they were. -/
theorem canon_slab_miss (j j' : Fin 4) (hne : j'.val ≠ j.val) (off : Fin 3 → Nat) (hoff : off = ![j.val, 0, 0])
    (inb : ∀ a, off a + S1x256x2048.size a ≤ S4x256x2048.size a) (w : S1x256x2048.Idx → Val .f32)
    (L : List (View.Piece Val S4x256x2048 .f32)) (r : Fin 256) (s : Fin 2048) :
    View.canon (⟨Rect.unit (s := S4x256x2048) off S1x256x2048.size inb, w⟩ :: L) (ix3 j' r s) = View.canon L (ix3 j' r s) := by
  refine View.canon_cons_of_not_mem _ L ?_
  subst hoff
  rw [Rect.mem_set_unit]
  intro h
  have h0 := h (0 : Fin 3)
  have e1 : ((![j.val, 0, 0] : Fin 3 → Nat) 0) = j.val := rfl
  have e2 : (S1x256x2048.size (0 : Fin 3)) = 1 := rfl
  have e3 : ((ix3 j' r s : S4x256x2048.Idx) (0 : Fin 3) : Nat) = j'.val := rfl
  rw [e1, e2, e3] at h0
  omega

/-- What a load of slab j reads after the stores L: the buffer's entries (j, ·, ·) as those stores leave them. -/
theorem readCov_slab {sig' : RefSig} {κ : Kind} {sp : Space} (v : View sig' κ sp S4x256x2048 .f32) (j : Fin 4) (off : Fin 3 → Nat) (hoff : off = ![j.val, 0, 0])
    (inb : ∀ a, off a + S1x256x2048.size a ≤ S4x256x2048.size a)
    (L : List (View.Piece Val S4x256x2048 .f32)) (r : Fin 256) (s : Fin 2048) :
    v.readCov L (Rect.unit (s := S4x256x2048) off S1x256x2048.size inb).toLoadRect (ix3 (0 : Fin 1) r s) = View.canon L (ix3 j r s) := by
  rw [View.readCov_eq_canon']
  exact congrArg (View.canon L) (slab_idx j off hoff inb r s)

/-- Four stores, one into each slab, over anything: every entry holds what its slab's store put there. -/
theorem canon_four_slabs (o0 o1 o2 o3 : Fin 3 → Nat) (h0 : o0 = ![0, 0, 0]) (h1 : o1 = ![1, 0, 0]) (h2 : o2 = ![2, 0, 0]) (h3 : o3 = ![3, 0, 0])
    (i0 : ∀ a, o0 a + S1x256x2048.size a ≤ S4x256x2048.size a) (i1 : ∀ a, o1 a + S1x256x2048.size a ≤ S4x256x2048.size a)
    (i2 : ∀ a, o2 a + S1x256x2048.size a ≤ S4x256x2048.size a) (i3 : ∀ a, o3 a + S1x256x2048.size a ≤ S4x256x2048.size a)
    (w0 w1 w2 w3 : S1x256x2048.Idx → Val .f32) (L : List (View.Piece Val S4x256x2048 .f32))
    (B : Fin 4 → Fin 256 → Fin 2048 → Val .f32)
    (e0 : ∀ r s, w0 (ix3 (0 : Fin 1) r s) = B 0 r s) (e1 : ∀ r s, w1 (ix3 (0 : Fin 1) r s) = B 1 r s)
    (e2 : ∀ r s, w2 (ix3 (0 : Fin 1) r s) = B 2 r s) (e3 : ∀ r s, w3 (ix3 (0 : Fin 1) r s) = B 3 r s)
    (j : Fin 4) (r : Fin 256) (s : Fin 2048) :
    View.canon (⟨Rect.unit (s := S4x256x2048) o3 S1x256x2048.size i3, w3⟩ :: ⟨Rect.unit (s := S4x256x2048) o2 S1x256x2048.size i2, w2⟩
      :: ⟨Rect.unit (s := S4x256x2048) o1 S1x256x2048.size i1, w1⟩ :: ⟨Rect.unit (s := S4x256x2048) o0 S1x256x2048.size i0, w0⟩ :: L) (ix3 j r s) = B j r s := by
  have key : ∀ j : Fin 4, j = 0 ∨ j = 1 ∨ j = 2 ∨ j = 3 := by decide
  rcases key j with rfl | rfl | rfl | rfl
  · rw [canon_slab_miss 3 0 (by decide) o3 h3, canon_slab_miss 2 0 (by decide) o2 h2, canon_slab_miss 1 0 (by decide) o1 h1,
      canon_slab_hit 0 o0 h0]; exact e0 r s
  · rw [canon_slab_miss 3 1 (by decide) o3 h3, canon_slab_miss 2 1 (by decide) o2 h2, canon_slab_hit 1 o1 h1]; exact e1 r s
  · rw [canon_slab_miss 3 2 (by decide) o3 h3, canon_slab_hit 2 o2 h2]; exact e2 r s
  · rw [canon_slab_hit 3 o3 h3]; exact e3 r s

end Slabs

/-! ## Loads from a buffer of known contents -/

theorem hz3 : (![0, 0, 0] : Fin 3 → Nat) = fun _ => 0 := funext fun a => by fin_cases a <;> rfl

/-- A load of slab j from a buffer holding X reads X's entries (j, ·, ·). -/
theorem readAt_slab (arg6 : Memref sig .tc .vmem S4x256x2048 .f32) (harg6 : arg6.IsWhole) (X : Vec Ideal S4x256x2048 .f32)
    (j : Fin 4) (off : Fin 3 → Nat) (hoff : off = ![j.val, 0, 0]) (inb : ∀ a, off a + S1x256x2048.size a ≤ S4x256x2048.size a)
    (r : Fin 256) (s : Fin 2048) :
    View.readAt (Elt Ideal) arg6.view (Rect.unit (s := S4x256x2048) off S1x256x2048.size inb).toLoadRect (harg6.unread X) (ix3 (0 : Fin 1) r s)
      = X (ix3 j r s) := by
  rw [View.readAt_apply, harg6.read_unread]
  exact congrArg X (slab_idx j off hoff inb r s)

end Cert.KernelIdeal.AttnAvgPoint

end
-- ==== Proof.AttnAvgPointStores.lean ====
/-
  One head's store into the averaged-weights buffer, entry by entry: the slab as it was loaded plus the head's
  attention weights times 1/16. The sixteen stores of the attention body are sixteen spellings of this one step.
-/
import proofs.«179876_j77678778515968_2_alg».proof.Proof.Gen.KernelIdeal.Frame
import proofs.«179876_j77678778515968_2_alg».proof.Proof.Spec
import proofs.«179876_j77678778515968_2_alg».proof.Proof.AttnHeads
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.AttnAvgPoint

open Cert.KernelIdeal Cert.KernelIdeal.Gen

/-! ## One head's store

Every one of the sixteen stores into the averaged-weights buffer puts into a slab what a load of that slab read just
before, plus one head's attention weights times 1/16. The weights of head h come from the columns 64·h … 64·h + 63 of
the query block and the key block, each with its unit axis dropped. -/

/-- The query block with its unit axis dropped, read by (row, feature). -/
theorem dropUnit_q (v0 : Vec Ideal S1x256x1024 .bf16) : (fun r e => k3_pay2 v0 (ix2 r e)) = Attn.bq v0 :=
  funext fun r => funext fun e => shapeCast_1ab_ab_apply v0 shapeCasts_S1x256x1024_S256x1024 r e

/-- The key block with its unit axis dropped, read by (row, feature). -/
theorem dropUnit_k (v2 : Vec Ideal S1x2048x1024 .bf16) : (fun s e => k3_pay3 v2 (ix2 s e)) = Attn.bk v2 :=
  funext fun s => funext fun e => shapeCast_1ab_ab_apply v2 shapeCasts_S1x2048x1024_S2048x1024 s e

/-- A slab as loaded, plus a matrix of weights times 1/16, as a slab again. -/
def slabStore (p : FVec Ideal S256x2048 .f32) (ld : Vec Ideal S1x256x2048 .f32) : FVec Ideal S1x256x2048 .f32 :=
  shapeCast S1x256x2048 (addf (shapeCast S256x2048 ld shapeCasts_S1x256x2048_S256x2048)
    (mulf p (broadcast S256x2048 (Scalar.ofBits .f32 0x3D800000#32)))) shapeCasts_S256x2048_S1x256x2048

/-- Entry (0, r, s) of such a slab. -/
theorem slabStore_at (p : FVec Ideal S256x2048 .f32) (ld : Vec Ideal S1x256x2048 .f32) (r : Fin 256) (s : Fin 2048) :
    slabStore p ld (ix3 (0 : Fin 1) r s) = ld (ix3 (0 : Fin 1) r s) + p (ix2 r s) * Attn.cInvH :=
  (shapeCast_ab_1ab_apply _ shapeCasts_S256x2048_S1x256x2048 (0 : Fin 1) r s).trans
    (congrArg (· + p (ix2 r s) * Attn.cInvH) (shapeCast_1ab_ab_apply ld shapeCasts_S1x256x2048_S256x2048 r s))

/-- Head h's store: the slab as loaded plus head h's weights times 1/16, at (0, r, s). -/
theorem headStore_at (v0 : Vec Ideal S1x256x1024 .bf16) (v2 : Vec Ideal S1x2048x1024 .bf16) (h : Fin 16) (o : Nat) (ho : o = h.val * 64)
    (hq : S256x1024.Slices ![0, o] S256x64) (hk : S2048x1024.Slices ![0, o] S2048x64) (ld : Vec Ideal S1x256x2048 .f32)
    (r : Fin 256) (s : Fin 2048) :
    slabStore (AttnHeads.headProbs (extractStridedSlice S256x64 ![0, o] (k3_pay2 v0) hq) (extractStridedSlice S2048x64 ![0, o] (k3_pay3 v2) hk)) ld
        (ix3 (0 : Fin 1) r s)
      = ld (ix3 (0 : Fin 1) r s) + Attn.bprob (Attn.bq v0) (Attn.bk v2) h r s * Attn.cInvH :=
  (slabStore_at _ ld r s).trans (congrArg (fun x => ld (ix3 (0 : Fin 1) r s) + x * Attn.cInvH)
    ((AttnHeads.headProbs_slice_at (k3_pay2 v0) (k3_pay3 v2) h o ho hq hk r s).trans
      (congrArg₂ (fun a b => Attn.bprob a b h r s) (dropUnit_q v0) (dropUnit_k v2))))

/-! The sixteen stores as the kernel spells them (the first reads the blocks themselves, some take an already cut
query slice, some split a head into its exponentials, their row sums and the quotient): each is the same chain of
operations, by unfolding. -/

set_option maxHeartbeats 400000 in
/-- Store 1 (head 0, the first head of group 0) at (0, r, s). -/
theorem store1_at (v0 : Vec Ideal S1x256x1024 .bf16) (v2 : Vec Ideal S1x2048x1024 .bf16) (ld : Vec Ideal S1x256x2048 .f32) (r : Fin 256) (s : Fin 2048) :
    k3_pay7 v0 v2 ld (ix3 (0 : Fin 1) r s)
      = ld (ix3 (0 : Fin 1) r s) + Attn.bprob (Attn.bq v0) (Attn.bk v2) (Attn.grpHead 0 0) r s * Attn.cInvH :=
  headStore_at v0 v2 (Attn.grpHead 0 0) 0 rfl slices_S256x1024_o0_0_S256x64 slices_S2048x1024_o0_0_S2048x64 ld r s

set_option maxHeartbeats 400000 in
/-- Store 2 (head 1, the first head of group 1) at (0, r, s). -/
theorem store2_at (v0 : Vec Ideal S1x256x1024 .bf16) (v2 : Vec Ideal S1x2048x1024 .bf16) (ld : Vec Ideal S1x256x2048 .f32) (r : Fin 256) (s : Fin 2048) :
    k3_pay11 (k3_pay3 v2) (k3_pay9 v0) ld (ix3 (0 : Fin 1) r s)
      = ld (ix3 (0 : Fin 1) r s) + Attn.bprob (Attn.bq v0) (Attn.bk v2) (Attn.grpHead 0 1) r s * Attn.cInvH :=
  headStore_at v0 v2 (Attn.grpHead 0 1) 64 rfl slices_S256x1024_o0_64_S256x64 slices_S2048x1024_o0_64_S2048x64 ld r s

set_option maxHeartbeats 400000 in
/-- Store 3 (head 2, the first head of group 2) at (0, r, s). -/
theorem store3_at (v0 : Vec Ideal S1x256x1024 .bf16) (v2 : Vec Ideal S1x2048x1024 .bf16) (ld : Vec Ideal S1x256x2048 .f32) (r : Fin 256) (s : Fin 2048) :
    k3_pay16 (k3_pay15 (k3_pay2 v0) (k3_pay3 v2) ld) (ix3 (0 : Fin 1) r s)
      = ld (ix3 (0 : Fin 1) r s) + Attn.bprob (Attn.bq v0) (Attn.bk v2) (Attn.grpHead 0 2) r s * Attn.cInvH :=
  headStore_at v0 v2 (Attn.grpHead 0 2) 128 rfl slices_S256x1024_o0_128_S256x64 slices_S2048x1024_o0_128_S2048x64 ld r s

set_option maxHeartbeats 400000 in
/-- Store 4 (head 3, the first head of group 3) at (0, r, s). -/
theorem store4_at (v0 : Vec Ideal S1x256x1024 .bf16) (v2 : Vec Ideal S1x2048x1024 .bf16) (ld : Vec Ideal S1x256x2048 .f32) (r : Fin 256) (s : Fin 2048) :
    k3_pay19 (k3_pay2 v0) (k3_pay3 v2) ld (ix3 (0 : Fin 1) r s)
      = ld (ix3 (0 : Fin 1) r s) + Attn.bprob (Attn.bq v0) (Attn.bk v2) (Attn.grpHead 0 3) r s * Attn.cInvH :=
  headStore_at v0 v2 (Attn.grpHead 0 3) 192 rfl slices_S256x1024_o0_192_S256x64 slices_S2048x1024_o0_192_S2048x64 ld r s

set_option maxHeartbeats 400000 in
/-- Store 5 (head 4, the second head of group 0) at (0, r, s). -/
theorem store5_at (v0 : Vec Ideal S1x256x1024 .bf16) (v2 : Vec Ideal S1x2048x1024 .bf16) (ld : Vec Ideal S1x256x2048 .f32) (r : Fin 256) (s : Fin 2048) :
    k3_pay25 (k3_pay22 (k3_pay2 v0) (k3_pay3 v2)) (k3_pay23 (k3_pay2 v0) (k3_pay3 v2)) ld (ix3 (0 : Fin 1) r s)
      = ld (ix3 (0 : Fin 1) r s) + Attn.bprob (Attn.bq v0) (Attn.bk v2) (Attn.grpHead 1 0) r s * Attn.cInvH :=
  headStore_at v0 v2 (Attn.grpHead 1 0) 256 rfl slices_S256x1024_o0_256_S256x64 slices_S2048x1024_o0_256_S2048x64 ld r s

set_option maxHeartbeats 400000 in
/-- Store 6 (head 5, the second head of group 1) at (0, r, s). -/
theorem store6_at (v0 : Vec Ideal S1x256x1024 .bf16) (v2 : Vec Ideal S1x2048x1024 .bf16) (ld : Vec Ideal S1x256x2048 .f32) (r : Fin 256) (s : Fin 2048) :
    k3_pay28 (k3_pay2 v0) (k3_pay3 v2) ld (ix3 (0 : Fin 1) r s)
      = ld (ix3 (0 : Fin 1) r s) + Attn.bprob (Attn.bq v0) (Attn.bk v2) (Attn.grpHead 1 1) r s * Attn.cInvH :=
  headStore_at v0 v2 (Attn.grpHead 1 1) 320 rfl slices_S256x1024_o0_320_S256x64 slices_S2048x1024_o0_320_S2048x64 ld r s

set_option maxHeartbeats 400000 in
/-- Store 7 (head 6, the second head of group 2) at (0, r, s). -/
theorem store7_at (v0 : Vec Ideal S1x256x1024 .bf16) (v2 : Vec Ideal S1x2048x1024 .bf16) (ld : Vec Ideal S1x256x2048 .f32) (r : Fin 256) (s : Fin 2048) :
    k3_pay32 (k3_pay3 v2) (k3_pay30 (k3_pay2 v0)) ld (ix3 (0 : Fin 1) r s)
      = ld (ix3 (0 : Fin 1) r s) + Attn.bprob (Attn.bq v0) (Attn.bk v2) (Attn.grpHead 1 2) r s * Attn.cInvH :=
  headStore_at v0 v2 (Attn.grpHead 1 2) 384 rfl slices_S256x1024_o0_384_S256x64 slices_S2048x1024_o0_384_S2048x64 ld r s

set_option maxHeartbeats 400000 in
/-- Store 8 (head 7, the second head of group 3) at (0, r, s). -/
theorem store8_at (v0 : Vec Ideal S1x256x1024 .bf16) (v2 : Vec Ideal S1x2048x1024 .bf16) (ld : Vec Ideal S1x256x2048 .f32) (r : Fin 256) (s : Fin 2048) :
    k3_pay37 (k3_pay36 (k3_pay2 v0) (k3_pay3 v2) ld) (ix3 (0 : Fin 1) r s)
      = ld (ix3 (0 : Fin 1) r s) + Attn.bprob (Attn.bq v0) (Attn.bk v2) (Attn.grpHead 1 3) r s * Attn.cInvH :=
  headStore_at v0 v2 (Attn.grpHead 1 3) 448 rfl slices_S256x1024_o0_448_S256x64 slices_S2048x1024_o0_448_S2048x64 ld r s

set_option maxHeartbeats 400000 in
/-- Store 9 (head 8, the third head of group 0) at (0, r, s). -/
theorem store9_at (v0 : Vec Ideal S1x256x1024 .bf16) (v2 : Vec Ideal S1x2048x1024 .bf16) (ld : Vec Ideal S1x256x2048 .f32) (r : Fin 256) (s : Fin 2048) :
    k3_pay40 (k3_pay2 v0) (k3_pay3 v2) ld (ix3 (0 : Fin 1) r s)
      = ld (ix3 (0 : Fin 1) r s) + Attn.bprob (Attn.bq v0) (Attn.bk v2) (Attn.grpHead 2 0) r s * Attn.cInvH :=
  headStore_at v0 v2 (Attn.grpHead 2 0) 512 rfl slices_S256x1024_o0_512_S256x64 slices_S2048x1024_o0_512_S2048x64 ld r s

set_option maxHeartbeats 400000 in
/-- Store 10 (head 9, the third head of group 1) at (0, r, s). -/
theorem store10_at (v0 : Vec Ideal S1x256x1024 .bf16) (v2 : Vec Ideal S1x2048x1024 .bf16) (ld : Vec Ideal S1x256x2048 .f32) (r : Fin 256) (s : Fin 2048) :
    k3_pay46 (k3_pay43 (k3_pay2 v0) (k3_pay3 v2)) (k3_pay44 (k3_pay2 v0) (k3_pay3 v2)) ld (ix3 (0 : Fin 1) r s)
      = ld (ix3 (0 : Fin 1) r s) + Attn.bprob (Attn.bq v0) (Attn.bk v2) (Attn.grpHead 2 1) r s * Attn.cInvH :=
  headStore_at v0 v2 (Attn.grpHead 2 1) 576 rfl slices_S256x1024_o0_576_S256x64 slices_S2048x1024_o0_576_S2048x64 ld r s

set_option maxHeartbeats 400000 in
/-- Store 11 (head 10, the third head of group 2) at (0, r, s). -/
theorem store11_at (v0 : Vec Ideal S1x256x1024 .bf16) (v2 : Vec Ideal S1x2048x1024 .bf16) (ld : Vec Ideal S1x256x2048 .f32) (r : Fin 256) (s : Fin 2048) :
    k3_pay49 (k3_pay2 v0) (k3_pay3 v2) ld (ix3 (0 : Fin 1) r s)
      = ld (ix3 (0 : Fin 1) r s) + Attn.bprob (Attn.bq v0) (Attn.bk v2) (Attn.grpHead 2 2) r s * Attn.cInvH :=
  headStore_at v0 v2 (Attn.grpHead 2 2) 640 rfl slices_S256x1024_o0_640_S256x64 slices_S2048x1024_o0_640_S2048x64 ld r s

set_option maxHeartbeats 400000 in
/-- Store 12 (head 11, the third head of group 3) at (0, r, s). -/
theorem store12_at (v0 : Vec Ideal S1x256x1024 .bf16) (v2 : Vec Ideal S1x2048x1024 .bf16) (ld : Vec Ideal S1x256x2048 .f32) (r : Fin 256) (s : Fin 2048) :
    k3_pay53 (k3_pay3 v2) (k3_pay51 (k3_pay2 v0)) ld (ix3 (0 : Fin 1) r s)
      = ld (ix3 (0 : Fin 1) r s) + Attn.bprob (Attn.bq v0) (Attn.bk v2) (Attn.grpHead 2 3) r s * Attn.cInvH :=
  headStore_at v0 v2 (Attn.grpHead 2 3) 704 rfl slices_S256x1024_o0_704_S256x64 slices_S2048x1024_o0_704_S2048x64 ld r s

set_option maxHeartbeats 400000 in
/-- Store 13 (head 12, the fourth head of group 0) at (0, r, s). -/
theorem store13_at (v0 : Vec Ideal S1x256x1024 .bf16) (v2 : Vec Ideal S1x2048x1024 .bf16) (ld : Vec Ideal S1x256x2048 .f32) (r : Fin 256) (s : Fin 2048) :
    k3_pay58 (k3_pay57 (k3_pay2 v0) (k3_pay3 v2) ld) (ix3 (0 : Fin 1) r s)
      = ld (ix3 (0 : Fin 1) r s) + Attn.bprob (Attn.bq v0) (Attn.bk v2) (Attn.grpHead 3 0) r s * Attn.cInvH :=
  headStore_at v0 v2 (Attn.grpHead 3 0) 768 rfl slices_S256x1024_o0_768_S256x64 slices_S2048x1024_o0_768_S2048x64 ld r s

set_option maxHeartbeats 400000 in
/-- Store 14 (head 13, the fourth head of group 1) at (0, r, s). -/
theorem store14_at (v0 : Vec Ideal S1x256x1024 .bf16) (v2 : Vec Ideal S1x2048x1024 .bf16) (ld : Vec Ideal S1x256x2048 .f32) (r : Fin 256) (s : Fin 2048) :
    k3_pay61 (k3_pay2 v0) (k3_pay3 v2) ld (ix3 (0 : Fin 1) r s)
      = ld (ix3 (0 : Fin 1) r s) + Attn.bprob (Attn.bq v0) (Attn.bk v2) (Attn.grpHead 3 1) r s * Attn.cInvH :=
  headStore_at v0 v2 (Attn.grpHead 3 1) 832 rfl slices_S256x1024_o0_832_S256x64 slices_S2048x1024_o0_832_S2048x64 ld r s

set_option maxHeartbeats 400000 in
/-- Store 15 (head 14, the fourth head of group 2) at (0, r, s). -/
theorem store15_at (v0 : Vec Ideal S1x256x1024 .bf16) (v2 : Vec Ideal S1x2048x1024 .bf16) (ld : Vec Ideal S1x256x2048 .f32) (r : Fin 256) (s : Fin 2048) :
    k3_pay67 (k3_pay64 (k3_pay2 v0) (k3_pay3 v2)) (k3_pay65 (k3_pay2 v0) (k3_pay3 v2)) ld (ix3 (0 : Fin 1) r s)
      = ld (ix3 (0 : Fin 1) r s) + Attn.bprob (Attn.bq v0) (Attn.bk v2) (Attn.grpHead 3 2) r s * Attn.cInvH :=
  headStore_at v0 v2 (Attn.grpHead 3 2) 896 rfl slices_S256x1024_o0_896_S256x64 slices_S2048x1024_o0_896_S2048x64 ld r s

set_option maxHeartbeats 400000 in
/-- Store 16 (head 15, the fourth head of group 3) at (0, r, s). -/
theorem store16_at (v0 : Vec Ideal S1x256x1024 .bf16) (v2 : Vec Ideal S1x2048x1024 .bf16) (ld : Vec Ideal S1x256x2048 .f32) (r : Fin 256) (s : Fin 2048) :
    k3_pay69 (k3_pay2 v0) (k3_pay3 v2) ld (ix3 (0 : Fin 1) r s)
      = ld (ix3 (0 : Fin 1) r s) + Attn.bprob (Attn.bq v0) (Attn.bk v2) (Attn.grpHead 3 3) r s * Attn.cInvH :=
  headStore_at v0 v2 (Attn.grpHead 3 3) 960 rfl slices_S256x1024_o0_960_S256x64 slices_S2048x1024_o0_960_S2048x64 ld r s

end Cert.KernelIdeal.AttnAvgPoint

end
-- ==== Proof.AttnAvgPointCaseA.lean ====
/-
  The averaged-weights buffer after the attention body at a grid point that starts a row of the grid: the buffer is
  zeroed, then round by round each group's slab takes one more head.
-/
import proofs.«179876_j77678778515968_2_alg».proof.Proof.AttnAvgPointSlabs
import proofs.«179876_j77678778515968_2_alg».proof.Proof.AttnAvgPointStores

noncomputable section

open Idealize.ShloMosaic Idealize.ShloMosaic.TcCoe Idealize.SL.Sem Idealize.ShloMosaic.ValueIdx
open Idealize.ShloMosaic.Pipeline (Dat)

namespace Cert.KernelIdeal.AttnAvgPoint

open Cert.KernelIdeal Cert.KernelIdeal.Gen

/-! ## A point that starts a row of the grid

The buffer is first set to zero as a whole; then the sixteen stores go round the four slabs as before. -/

section CaseA
variable (c : Dev nD) (i : grid3.Coords) (arg2 : Memref sig .tc .vmem S1x256x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1x256x1024 .bf16) (harg5 : arg5.IsWhole) (arg6 : Memref sig .tc .vmem S4x256x2048 .f32) (harg6 : arg6.IsWhole) (hc0 : cond3_0 i)
    (x0 : Vec Ideal S1x256x1024 .bf16) (x1 : Vec Ideal S1x2048x1024 .bf16) (x2 : Vec Ideal S1x2048x1024 .bf16)

/-- The query block as the body holds it. -/
theorem qA : kernelRun3_A.sl.r (F := Ideal) c arg2 harg2 x0 = k3_pay2 x0 := by
  unfold kernelRun3_A.sl.r
  simp only [View.readAt_eq_ld, harg2.read_unread, View.ld_unit_zero (S := S1x256x1024) hz3]

/-- The key block as the body holds it. -/
theorem kA : kernelRun3_A.sl.r_1 (F := Ideal) c arg3 harg3 x1 = k3_pay3 x1 := by
  unfold kernelRun3_A.sl.r_1
  simp only [View.readAt_eq_ld, harg3.read_unread, View.ld_unit_zero (S := S1x2048x1024) hz3]

/-- After the zero store every entry is zero. -/
theorem zeroA (j : Fin 4) (r : Fin 256) (s : Fin 2048) :
    View.canon (kernelRun3_A.sl.H4_1 (F := Ideal)) (ix3 j r s) = Attn.cZero := by
  unfold kernelRun3_A.sl.H4_1
  rw [View.canon_unit_zero hz3]
  rfl

/-- The load of slab 0 in this round reads what the zero store left there. -/
theorem loadA_v22 (r : Fin 256) (s : Fin 2048) :
    kernelRun3_A.sl.v22 (F := Ideal) c arg6 (ix3 (0 : Fin 1) r s) = View.canon (kernelRun3_A.sl.H4_1 (F := Ideal)) (ix3 0 r s) := by
  unfold kernelRun3_A.sl.v22
  refine (readCov_slab arg6.view 0 _ rfl _ _ r s).trans ?_
  rfl

/-- The load of slab 1 in this round reads what the zero store left there. -/
theorem loadA_v46 (r : Fin 256) (s : Fin 2048) :
    kernelRun3_A.sl.v46 (F := Ideal) c arg2 harg2 arg3 harg3 arg6 x0 x1 (ix3 (0 : Fin 1) r s) = View.canon (kernelRun3_A.sl.H4_1 (F := Ideal)) (ix3 1 r s) := by
  unfold kernelRun3_A.sl.v46
  refine (readCov_slab arg6.view 1 _ rfl _ _ r s).trans ?_
  unfold kernelRun3_A.sl.H4_2
  refine (canon_slab_miss 0 1 (by decide) _ rfl _ _ _ r s).trans ?_
  rfl

/-- The load of slab 2 in this round reads what the zero store left there. -/
theorem loadA_v70 (r : Fin 256) (s : Fin 2048) :
    kernelRun3_A.sl.v70 (F := Ideal) c arg2 harg2 arg3 harg3 arg6 x0 x1 (ix3 (0 : Fin 1) r s) = View.canon (kernelRun3_A.sl.H4_1 (F := Ideal)) (ix3 2 r s) := by
  unfold kernelRun3_A.sl.v70
  refine (readCov_slab arg6.view 2 _ rfl _ _ r s).trans ?_
  unfold kernelRun3_A.sl.H4_3
  refine (canon_slab_miss 1 2 (by decide) _ rfl _ _ _ r s).trans ?_
  unfold kernelRun3_A.sl.H4_2
  refine (canon_slab_miss 0 2 (by decide) _ rfl _ _ _ r s).trans ?_
  rfl

/-- The load of slab 3 in this round reads what the zero store left there. -/
theorem loadA_v94 (r : Fin 256) (s : Fin 2048) :
    kernelRun3_A.sl.v94 (F := Ideal) c arg2 harg2 arg3 harg3 arg6 x0 x1 (ix3 (0 : Fin 1) r s) = View.canon (kernelRun3_A.sl.H4_1 (F := Ideal)) (ix3 3 r s) := by
  unfold kernelRun3_A.sl.v94
  refine (readCov_slab arg6.view 3 _ rfl _ _ r s).trans ?_
  unfold kernelRun3_A.sl.H4_4
  refine (canon_slab_miss 2 3 (by decide) _ rfl _ _ _ r s).trans ?_
  unfold kernelRun3_A.sl.H4_3
  refine (canon_slab_miss 1 3 (by decide) _ rfl _ _ _ r s).trans ?_
  unfold kernelRun3_A.sl.H4_2
  refine (canon_slab_miss 0 3 (by decide) _ rfl _ _ _ r s).trans ?_
  rfl

/-- The load of slab 0 in this round reads what the round before left there. -/
theorem loadA_v118 (r : Fin 256) (s : Fin 2048) :
    kernelRun3_A.sl.v118 (F := Ideal) c arg2 harg2 arg3 harg3 arg6 x0 x1 (ix3 (0 : Fin 1) r s) = View.canon (kernelRun3_A.sl.H4_5 (F := Ideal) c arg2 harg2 arg3 harg3 arg6 x0 x1) (ix3 0 r s) := by
  unfold kernelRun3_A.sl.v118
  refine (readCov_slab arg6.view 0 _ rfl _ _ r s).trans ?_
  rfl

/-- The load of slab 1 in this round reads what the round before left there. -/
theorem loadA_v142 (r : Fin 256) (s : Fin 2048) :
    kernelRun3_A.sl.v142 (F := Ideal) c arg2 harg2 arg3 harg3 arg6 x0 x1 (ix3 (0 : Fin 1) r s) = View.canon (kernelRun3_A.sl.H4_5 (F := Ideal) c arg2 harg2 arg3 harg3 arg6 x0 x1) (ix3 1 r s) := by
  unfold kernelRun3_A.sl.v142
  refine (readCov_slab arg6.view 1 _ rfl _ _ r s).trans ?_
  unfold kernelRun3_A.sl.H4_6
  refine (canon_slab_miss 0 1 (by decide) _ rfl _ _ _ r s).trans ?_
  rfl

/-- The load of slab 2 in this round reads what the round before left there. -/
theorem loadA_v166 (r : Fin 256) (s : Fin 2048) :
    kernelRun3_A.sl.v166 (F := Ideal) c arg2 harg2 arg3 harg3 arg6 x0 x1 (ix3 (0 : Fin 1) r s) = View.canon (kernelRun3_A.sl.H4_5 (F := Ideal) c arg2 harg2 arg3 harg3 arg6 x0 x1) (ix3 2 r s) := by
  unfold kernelRun3_A.sl.v166
  refine (readCov_slab arg6.view 2 _ rfl _ _ r s).trans ?_
  unfold kernelRun3_A.sl.H4_7
  refine (canon_slab_miss 1 2 (by decide) _ rfl _ _ _ r s).trans ?_
  unfold kernelRun3_A.sl.H4_6
  refine (canon_slab_miss 0 2 (by decide) _ rfl _ _ _ r s).trans ?_
  rfl

/-- The load of slab 3 in this round reads what the round before left there. -/
theorem loadA_v190 (r : Fin 256) (s : Fin 2048) :
    kernelRun3_A.sl.v190 (F := Ideal) c arg2 harg2 arg3 harg3 arg6 x0 x1 (ix3 (0 : Fin 1) r s) = View.canon (kernelRun3_A.sl.H4_5 (F := Ideal) c arg2 harg2 arg3 harg3 arg6 x0 x1) (ix3 3 r s) := by
  unfold kernelRun3_A.sl.v190
  refine (readCov_slab arg6.view 3 _ rfl _ _ r s).trans ?_
  unfold kernelRun3_A.sl.H4_8
  refine (canon_slab_miss 2 3 (by decide) _ rfl _ _ _ r s).trans ?_
  unfold kernelRun3_A.sl.H4_7
  refine (canon_slab_miss 1 3 (by decide) _ rfl _ _ _ r s).trans ?_
  unfold kernelRun3_A.sl.H4_6
  refine (canon_slab_miss 0 3 (by decide) _ rfl _ _ _ r s).trans ?_
  rfl

/-- The load of slab 0 in this round reads what the round before left there. -/
theorem loadA_v214 (r : Fin 256) (s : Fin 2048) :
    kernelRun3_A.sl.v214 (F := Ideal) c arg2 harg2 arg3 harg3 arg6 x0 x1 (ix3 (0 : Fin 1) r s) = View.canon (kernelRun3_A.sl.H4_9 (F := Ideal) c arg2 harg2 arg3 harg3 arg6 x0 x1) (ix3 0 r s) := by
  unfold kernelRun3_A.sl.v214
  refine (readCov_slab arg6.view 0 _ rfl _ _ r s).trans ?_
  rfl

/-- The load of slab 1 in this round reads what the round before left there. -/
theorem loadA_v238 (r : Fin 256) (s : Fin 2048) :
    kernelRun3_A.sl.v238 (F := Ideal) c arg2 harg2 arg3 harg3 arg6 x0 x1 (ix3 (0 : Fin 1) r s) = View.canon (kernelRun3_A.sl.H4_9 (F := Ideal) c arg2 harg2 arg3 harg3 arg6 x0 x1) (ix3 1 r s) := by
  unfold kernelRun3_A.sl.v238
  refine (readCov_slab arg6.view 1 _ rfl _ _ r s).trans ?_
  unfold kernelRun3_A.sl.H4_10
  refine (canon_slab_miss 0 1 (by decide) _ rfl _ _ _ r s).trans ?_
  rfl

/-- The load of slab 2 in this round reads what the round before left there. -/
theorem loadA_v262 (r : Fin 256) (s : Fin 2048) :
    kernelRun3_A.sl.v262 (F := Ideal) c arg2 harg2 arg3 harg3 arg6 x0 x1 (ix3 (0 : Fin 1) r s) = View.canon (kernelRun3_A.sl.H4_9 (F := Ideal) c arg2 harg2 arg3 harg3 arg6 x0 x1) (ix3 2 r s) := by
  unfold kernelRun3_A.sl.v262
  refine (readCov_slab arg6.view 2 _ rfl _ _ r s).trans ?_
  unfold kernelRun3_A.sl.H4_11
  refine (canon_slab_miss 1 2 (by decide) _ rfl _ _ _ r s).trans ?_
  unfold kernelRun3_A.sl.H4_10
  refine (canon_slab_miss 0 2 (by decide) _ rfl _ _ _ r s).trans ?_
  rfl

/-- The load of slab 3 in this round reads what the round before left there. -/
theorem loadA_v286 (r : Fin 256) (s : Fin 2048) :
    kernelRun3_A.sl.v286 (F := Ideal) c arg2 harg2 arg3 harg3 arg6 x0 x1 (ix3 (0 : Fin 1) r s) = View.canon (kernelRun3_A.sl.H4_9 (F := Ideal) c arg2 harg2 arg3 harg3 arg6 x0 x1) (ix3 3 r s) := by
  unfold kernelRun3_A.sl.v286
  refine (readCov_slab arg6.view 3 _ rfl _ _ r s).trans ?_
  unfold kernelRun3_A.sl.H4_12
  refine (canon_slab_miss 2 3 (by decide) _ rfl _ _ _ r s).trans ?_
  unfold kernelRun3_A.sl.H4_11
  refine (canon_slab_miss 1 3 (by decide) _ rfl _ _ _ r s).trans ?_
  unfold kernelRun3_A.sl.H4_10
  refine (canon_slab_miss 0 3 (by decide) _ rfl _ _ _ r s).trans ?_
  rfl

/-- The load of slab 0 in this round reads what the round before left there. -/
theorem loadA_v310 (r : Fin 256) (s : Fin 2048) :
    kernelRun3_A.sl.v310 (F := Ideal) c arg2 harg2 arg3 harg3 arg6 x0 x1 (ix3 (0 : Fin 1) r s) = View.canon (kernelRun3_A.sl.H4_13 (F := Ideal) c arg2 harg2 arg3 harg3 arg6 x0 x1) (ix3 0 r s) := by
  unfold kernelRun3_A.sl.v310
  refine (readCov_slab arg6.view 0 _ rfl _ _ r s).trans ?_
  rfl

/-- The load of slab 1 in this round reads what the round before left there. -/
theorem loadA_v334 (r : Fin 256) (s : Fin 2048) :
    kernelRun3_A.sl.v334 (F := Ideal) c arg2 harg2 arg3 harg3 arg6 x0 x1 (ix3 (0 : Fin 1) r s) = View.canon (kernelRun3_A.sl.H4_13 (F := Ideal) c arg2 harg2 arg3 harg3 arg6 x0 x1) (ix3 1 r s) := by
  unfold kernelRun3_A.sl.v334
  refine (readCov_slab arg6.view 1 _ rfl _ _ r s).trans ?_
  unfold kernelRun3_A.sl.H4_14
  refine (canon_slab_miss 0 1 (by decide) _ rfl _ _ _ r s).trans ?_
  rfl

/-- The load of slab 2 in this round reads what the round before left there. -/
theorem loadA_v358 (r : Fin 256) (s : Fin 2048) :
    kernelRun3_A.sl.v358 (F := Ideal) c arg2 harg2 arg3 harg3 arg6 x0 x1 (ix3 (0 : Fin 1) r s) = View.canon (kernelRun3_A.sl.H4_13 (F := Ideal) c arg2 harg2 arg3 harg3 arg6 x0 x1) (ix3 2 r s) := by
  unfold kernelRun3_A.sl.v358
  refine (readCov_slab arg6.view 2 _ rfl _ _ r s).trans ?_
  unfold kernelRun3_A.sl.H4_15
  refine (canon_slab_miss 1 2 (by decide) _ rfl _ _ _ r s).trans ?_
  unfold kernelRun3_A.sl.H4_14
  refine (canon_slab_miss 0 2 (by decide) _ rfl _ _ _ r s).trans ?_
  rfl

/-- The load of slab 3 in this round reads what the round before left there. -/
theorem loadA_v382 (r : Fin 256) (s : Fin 2048) :
    kernelRun3_A.sl.v382 (F := Ideal) c arg2 harg2 arg3 harg3 arg6 x0 x1 (ix3 (0 : Fin 1) r s) = View.canon (kernelRun3_A.sl.H4_13 (F := Ideal) c arg2 harg2 arg3 harg3 arg6 x0 x1) (ix3 3 r s) := by
  unfold kernelRun3_A.sl.v382
  refine (readCov_slab arg6.view 3 _ rfl _ _ r s).trans ?_
  unfold kernelRun3_A.sl.H4_16
  refine (canon_slab_miss 2 3 (by decide) _ rfl _ _ _ r s).trans ?_
  unfold kernelRun3_A.sl.H4_15
  refine (canon_slab_miss 1 3 (by decide) _ rfl _ _ _ r s).trans ?_
  unfold kernelRun3_A.sl.H4_14
  refine (canon_slab_miss 0 3 (by decide) _ rfl _ _ _ r s).trans ?_
  rfl

set_option maxHeartbeats 400000 in
/-- After the first round: zero, plus the first head of each group. -/
theorem roundA1 (j : Fin 4) (r : Fin 256) (s : Fin 2048) :
    View.canon (kernelRun3_A.sl.H4_5 (F := Ideal) c arg2 harg2 arg3 harg3 arg6 x0 x1) (ix3 j r s)
      = View.canon (kernelRun3_A.sl.H4_1 (F := Ideal)) (ix3 j r s) + Attn.bprob (Attn.bq x0) (Attn.bk x1) (Attn.grpHead 0 j) r s * Attn.cInvH := by
  unfold kernelRun3_A.sl.H4_5 kernelRun3_A.sl.H4_4 kernelRun3_A.sl.H4_3 kernelRun3_A.sl.H4_2 kernelRun3_A.sl.r_8 kernelRun3_A.sl.r_4
  rw [qA, kA]
  simp only [View.readAt_eq_ld (v := arg2.view), View.readAt_eq_ld (v := arg3.view), harg2.read_unread, harg3.read_unread,
    View.ld_unit_zero (S := S1x256x1024) hz3, View.ld_unit_zero (S := S1x2048x1024) hz3]
  refine canon_four_slabs _ _ _ _ rfl rfl rfl rfl _ _ _ _ _ _ _ _ _
    (fun j r s => View.canon (kernelRun3_A.sl.H4_1 (F := Ideal)) (ix3 j r s) + Attn.bprob (Attn.bq x0) (Attn.bk x1) (Attn.grpHead 0 j) r s * Attn.cInvH) ?_ ?_ ?_ ?_ j r s
  · intro r s
    exact (store1_at x0 x1 _ r s).trans (congrArg (· + _) (loadA_v22 c arg6 r s))
  · intro r s
    exact (store2_at x0 x1 _ r s).trans (congrArg (· + _) (loadA_v46 c arg2 harg2 arg3 harg3 arg6 x0 x1 r s))
  · intro r s
    exact (store3_at x0 x1 _ r s).trans (congrArg (· + _) (loadA_v70 c arg2 harg2 arg3 harg3 arg6 x0 x1 r s))
  · intro r s
    exact (store4_at x0 x1 _ r s).trans (congrArg (· + _) (loadA_v94 c arg2 harg2 arg3 harg3 arg6 x0 x1 r s))

set_option maxHeartbeats 400000 in
/-- After the second round: the second head of each group on top. -/
theorem roundA2 (j : Fin 4) (r : Fin 256) (s : Fin 2048) :
    View.canon (kernelRun3_A.sl.H4_9 (F := Ideal) c arg2 harg2 arg3 harg3 arg6 x0 x1) (ix3 j r s)
      = View.canon (kernelRun3_A.sl.H4_5 (F := Ideal) c arg2 harg2 arg3 harg3 arg6 x0 x1) (ix3 j r s) + Attn.bprob (Attn.bq x0) (Attn.bk x1) (Attn.grpHead 1 j) r s * Attn.cInvH := by
  unfold kernelRun3_A.sl.H4_9 kernelRun3_A.sl.H4_8 kernelRun3_A.sl.H4_7 kernelRun3_A.sl.H4_6 kernelRun3_A.sl.r_20 kernelRun3_A.sl.r_16 kernelRun3_A.sl.r_12 kernelRun3_A.sl.r_13
  rw [qA, kA]
  refine canon_four_slabs _ _ _ _ rfl rfl rfl rfl _ _ _ _ _ _ _ _ _
    (fun j r s => View.canon (kernelRun3_A.sl.H4_5 (F := Ideal) c arg2 harg2 arg3 harg3 arg6 x0 x1) (ix3 j r s) + Attn.bprob (Attn.bq x0) (Attn.bk x1) (Attn.grpHead 1 j) r s * Attn.cInvH) ?_ ?_ ?_ ?_ j r s
  · intro r s
    exact (store5_at x0 x1 _ r s).trans (congrArg (· + _) (loadA_v118 c arg2 harg2 arg3 harg3 arg6 x0 x1 r s))
  · intro r s
    exact (store6_at x0 x1 _ r s).trans (congrArg (· + _) (loadA_v142 c arg2 harg2 arg3 harg3 arg6 x0 x1 r s))
  · intro r s
    exact (store7_at x0 x1 _ r s).trans (congrArg (· + _) (loadA_v166 c arg2 harg2 arg3 harg3 arg6 x0 x1 r s))
  · intro r s
    exact (store8_at x0 x1 _ r s).trans (congrArg (· + _) (loadA_v190 c arg2 harg2 arg3 harg3 arg6 x0 x1 r s))

set_option maxHeartbeats 400000 in
/-- After the third round: the third head of each group on top. -/
theorem roundA3 (j : Fin 4) (r : Fin 256) (s : Fin 2048) :
    View.canon (kernelRun3_A.sl.H4_13 (F := Ideal) c arg2 harg2 arg3 harg3 arg6 x0 x1) (ix3 j r s)
      = View.canon (kernelRun3_A.sl.H4_9 (F := Ideal) c arg2 harg2 arg3 harg3 arg6 x0 x1) (ix3 j r s) + Attn.bprob (Attn.bq x0) (Attn.bk x1) (Attn.grpHead 2 j) r s * Attn.cInvH := by
  unfold kernelRun3_A.sl.H4_13 kernelRun3_A.sl.H4_12 kernelRun3_A.sl.H4_11 kernelRun3_A.sl.H4_10 kernelRun3_A.sl.r_28 kernelRun3_A.sl.r_24 kernelRun3_A.sl.r_25
  rw [qA, kA]
  refine canon_four_slabs _ _ _ _ rfl rfl rfl rfl _ _ _ _ _ _ _ _ _
    (fun j r s => View.canon (kernelRun3_A.sl.H4_9 (F := Ideal) c arg2 harg2 arg3 harg3 arg6 x0 x1) (ix3 j r s) + Attn.bprob (Attn.bq x0) (Attn.bk x1) (Attn.grpHead 2 j) r s * Attn.cInvH) ?_ ?_ ?_ ?_ j r s
  · intro r s
    exact (store9_at x0 x1 _ r s).trans (congrArg (· + _) (loadA_v214 c arg2 harg2 arg3 harg3 arg6 x0 x1 r s))
  · intro r s
    exact (store10_at x0 x1 _ r s).trans (congrArg (· + _) (loadA_v238 c arg2 harg2 arg3 harg3 arg6 x0 x1 r s))
  · intro r s
    exact (store11_at x0 x1 _ r s).trans (congrArg (· + _) (loadA_v262 c arg2 harg2 arg3 harg3 arg6 x0 x1 r s))
  · intro r s
    exact (store12_at x0 x1 _ r s).trans (congrArg (· + _) (loadA_v286 c arg2 harg2 arg3 harg3 arg6 x0 x1 r s))

set_option maxHeartbeats 400000 in
/-- After the fourth round, the whole list of stores: the fourth head of each group on top. -/
theorem roundA4 (j : Fin 4) (r : Fin 256) (s : Fin 2048) :
    View.canon (kernelRun3_A (F := Ideal) c i arg2 harg2 arg3 harg3 arg4 harg4 arg5 harg5 arg6 harg6 hc0 x0 x1 x2).2.1 (ix3 j r s)
      = View.canon (kernelRun3_A.sl.H4_13 (F := Ideal) c arg2 harg2 arg3 harg3 arg6 x0 x1) (ix3 j r s) + Attn.bprob (Attn.bq x0) (Attn.bk x1) (Attn.grpHead 3 j) r s * Attn.cInvH := by
  unfold kernelRun3_A
  dsimp only
  unfold kernelRun3_A.sl.H4_16 kernelRun3_A.sl.H4_15 kernelRun3_A.sl.H4_14 kernelRun3_A.sl.r_32 kernelRun3_A.sl.r_36 kernelRun3_A.sl.r_37
  rw [qA, kA]
  refine canon_four_slabs _ _ _ _ rfl rfl rfl rfl _ _ _ _ _ _ _ _ _
    (fun j r s => View.canon (kernelRun3_A.sl.H4_13 (F := Ideal) c arg2 harg2 arg3 harg3 arg6 x0 x1) (ix3 j r s) + Attn.bprob (Attn.bq x0) (Attn.bk x1) (Attn.grpHead 3 j) r s * Attn.cInvH) ?_ ?_ ?_ ?_ j r s
  · intro r s
    exact (store13_at x0 x1 _ r s).trans (congrArg (· + _) (loadA_v310 c arg2 harg2 arg3 harg3 arg6 x0 x1 r s))
  · intro r s
    exact (store14_at x0 x1 _ r s).trans (congrArg (· + _) (loadA_v334 c arg2 harg2 arg3 harg3 arg6 x0 x1 r s))
  · intro r s
    exact (store15_at x0 x1 _ r s).trans (congrArg (· + _) (loadA_v358 c arg2 harg2 arg3 harg3 arg6 x0 x1 r s))
  · intro r s
    exact (store16_at x0 x1 _ r s).trans (congrArg (· + _) (loadA_v382 c arg2 harg2 arg3 harg3 arg6 x0 x1 r s))

end CaseA

end Cert.KernelIdeal.AttnAvgPoint

end
-- ==== Proof.AttnAvgPointCaseB.lean ====
/-
  The averaged-weights buffer after the attention body at a grid point that continues a row of the grid: round by
  round, each group's slab takes one more head on top of what the point before left.
-/
import proofs.«179876_j77678778515968_2_alg».proof.Proof.AttnAvgPointSlabs
import proofs.«179876_j77678778515968_2_alg».proof.Proof.AttnAvgPointStores

noncomputable section

open Idealize.ShloMosaic Idealize.ShloMosaic.TcCoe Idealize.SL.Sem Idealize.ShloMosaic.ValueIdx
open Idealize.ShloMosaic.Pipeline (Dat)

namespace Cert.KernelIdeal.AttnAvgPoint

open Cert.KernelIdeal Cert.KernelIdeal.Gen

/-! ## A point that continues a row of the grid

The buffer holds what the point before left (xo4). The sixteen stores go round the four slabs four times; in round i
slab j takes head 4·i + j. Within a round the load of slab j sees the earlier stores of the round, which are into
other slabs, so it reads what the round before left in slab j. -/

section CaseB
variable (c : Dev nD) (i : grid3.Coords) (arg2 : Memref sig .tc .vmem S1x256x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1x256x1024 .bf16) (harg5 : arg5.IsWhole) (arg6 : Memref sig .tc .vmem S4x256x2048 .f32) (harg6 : arg6.IsWhole) (hc0 : ¬cond3_0 i)
    (x0 : Vec Ideal S1x256x1024 .bf16) (x1 : Vec Ideal S1x2048x1024 .bf16) (x2 : Vec Ideal S1x2048x1024 .bf16) (xo4 : Vec Ideal S4x256x2048 .f32)

/-- The query block as the body holds it. -/
theorem qB : kernelRun3_B.sl.r (F := Ideal) c arg2 harg2 x0 = k3_pay2 x0 := by
  unfold kernelRun3_B.sl.r
  simp only [View.readAt_eq_ld, harg2.read_unread, View.ld_unit_zero (S := S1x256x1024) hz3]

/-- The key block as the body holds it. -/
theorem kB : kernelRun3_B.sl.r_1 (F := Ideal) c arg3 harg3 x1 = k3_pay3 x1 := by
  unfold kernelRun3_B.sl.r_1
  simp only [View.readAt_eq_ld, harg3.read_unread, View.ld_unit_zero (S := S1x2048x1024) hz3]

set_option maxHeartbeats 400000 in
/-- After the first round: what the point before left, plus the first head of each group. -/
theorem roundB1 (j : Fin 4) (r : Fin 256) (s : Fin 2048) :
    View.canon (kernelRun3_B.sl.H4_4 (F := Ideal) c arg2 harg2 arg3 harg3 arg6 harg6 x0 x1 xo4) (ix3 j r s)
      = xo4 (ix3 j r s) + Attn.bprob (Attn.bq x0) (Attn.bk x1) (Attn.grpHead 0 j) r s * Attn.cInvH := by
  unfold kernelRun3_B.sl.H4_4 kernelRun3_B.sl.r_8 kernelRun3_B.sl.r_4 kernelRun3_B.sl.v46 kernelRun3_B.sl.v70 kernelRun3_B.sl.v94
  rw [qB, kB]
  simp only [View.readAt_eq_ld (v := arg2.view), View.readAt_eq_ld (v := arg3.view), harg2.read_unread, harg3.read_unread,
    View.ld_unit_zero (S := S1x256x1024) hz3, View.ld_unit_zero (S := S1x2048x1024) hz3]
  refine canon_four_slabs _ _ _ _ rfl rfl rfl rfl _ _ _ _ _ _ _ _ []
    (fun j r s => xo4 (ix3 j r s) + Attn.bprob (Attn.bq x0) (Attn.bk x1) (Attn.grpHead 0 j) r s * Attn.cInvH) ?_ ?_ ?_ ?_ j r s
  · intro r s
    exact (store1_at x0 x1 _ r s).trans (congrArg (· + _) (readAt_slab arg6 harg6 xo4 0 _ rfl _ r s))
  · intro r s
    exact (store2_at x0 x1 _ r s).trans (congrArg (· + _) (readAt_slab arg6 harg6 xo4 1 _ rfl _ r s))
  · intro r s
    exact (store3_at x0 x1 _ r s).trans (congrArg (· + _) (readAt_slab arg6 harg6 xo4 2 _ rfl _ r s))
  · intro r s
    exact (store4_at x0 x1 _ r s).trans (congrArg (· + _) (readAt_slab arg6 harg6 xo4 3 _ rfl _ r s))

/-- The load of slab 0 in this round reads what the round before left there. -/
theorem loadB_v118 (r : Fin 256) (s : Fin 2048) :
    kernelRun3_B.sl.v118 (F := Ideal) c arg2 harg2 arg3 harg3 arg6 harg6 x0 x1 xo4 (ix3 (0 : Fin 1) r s) = View.canon (kernelRun3_B.sl.H4_4 (F := Ideal) c arg2 harg2 arg3 harg3 arg6 harg6 x0 x1 xo4) (ix3 0 r s) := by
  unfold kernelRun3_B.sl.v118
  refine (readCov_slab arg6.view 0 _ rfl _ _ r s).trans ?_
  rfl

/-- The load of slab 1 in this round reads what the round before left there. -/
theorem loadB_v142 (r : Fin 256) (s : Fin 2048) :
    kernelRun3_B.sl.v142 (F := Ideal) c arg2 harg2 arg3 harg3 arg6 harg6 x0 x1 xo4 (ix3 (0 : Fin 1) r s) = View.canon (kernelRun3_B.sl.H4_4 (F := Ideal) c arg2 harg2 arg3 harg3 arg6 harg6 x0 x1 xo4) (ix3 1 r s) := by
  unfold kernelRun3_B.sl.v142
  refine (readCov_slab arg6.view 1 _ rfl _ _ r s).trans ?_
  unfold kernelRun3_B.sl.H4_5
  refine (canon_slab_miss 0 1 (by decide) _ rfl _ _ _ r s).trans ?_
  rfl

/-- The load of slab 2 in this round reads what the round before left there. -/
theorem loadB_v166 (r : Fin 256) (s : Fin 2048) :
    kernelRun3_B.sl.v166 (F := Ideal) c arg2 harg2 arg3 harg3 arg6 harg6 x0 x1 xo4 (ix3 (0 : Fin 1) r s) = View.canon (kernelRun3_B.sl.H4_4 (F := Ideal) c arg2 harg2 arg3 harg3 arg6 harg6 x0 x1 xo4) (ix3 2 r s) := by
  unfold kernelRun3_B.sl.v166
  refine (readCov_slab arg6.view 2 _ rfl _ _ r s).trans ?_
  unfold kernelRun3_B.sl.H4_6
  refine (canon_slab_miss 1 2 (by decide) _ rfl _ _ _ r s).trans ?_
  unfold kernelRun3_B.sl.H4_5
  refine (canon_slab_miss 0 2 (by decide) _ rfl _ _ _ r s).trans ?_
  rfl

/-- The load of slab 3 in this round reads what the round before left there. -/
theorem loadB_v190 (r : Fin 256) (s : Fin 2048) :
    kernelRun3_B.sl.v190 (F := Ideal) c arg2 harg2 arg3 harg3 arg6 harg6 x0 x1 xo4 (ix3 (0 : Fin 1) r s) = View.canon (kernelRun3_B.sl.H4_4 (F := Ideal) c arg2 harg2 arg3 harg3 arg6 harg6 x0 x1 xo4) (ix3 3 r s) := by
  unfold kernelRun3_B.sl.v190
  refine (readCov_slab arg6.view 3 _ rfl _ _ r s).trans ?_
  unfold kernelRun3_B.sl.H4_7
  refine (canon_slab_miss 2 3 (by decide) _ rfl _ _ _ r s).trans ?_
  unfold kernelRun3_B.sl.H4_6
  refine (canon_slab_miss 1 3 (by decide) _ rfl _ _ _ r s).trans ?_
  unfold kernelRun3_B.sl.H4_5
  refine (canon_slab_miss 0 3 (by decide) _ rfl _ _ _ r s).trans ?_
  rfl

/-- The load of slab 0 in this round reads what the round before left there. -/
theorem loadB_v214 (r : Fin 256) (s : Fin 2048) :
    kernelRun3_B.sl.v214 (F := Ideal) c arg2 harg2 arg3 harg3 arg6 harg6 x0 x1 xo4 (ix3 (0 : Fin 1) r s) = View.canon (kernelRun3_B.sl.H4_8 (F := Ideal) c arg2 harg2 arg3 harg3 arg6 harg6 x0 x1 xo4) (ix3 0 r s) := by
  unfold kernelRun3_B.sl.v214
  refine (readCov_slab arg6.view 0 _ rfl _ _ r s).trans ?_
  rfl

/-- The load of slab 1 in this round reads what the round before left there. -/
theorem loadB_v238 (r : Fin 256) (s : Fin 2048) :
    kernelRun3_B.sl.v238 (F := Ideal) c arg2 harg2 arg3 harg3 arg6 harg6 x0 x1 xo4 (ix3 (0 : Fin 1) r s) = View.canon (kernelRun3_B.sl.H4_8 (F := Ideal) c arg2 harg2 arg3 harg3 arg6 harg6 x0 x1 xo4) (ix3 1 r s) := by
  unfold kernelRun3_B.sl.v238
  refine (readCov_slab arg6.view 1 _ rfl _ _ r s).trans ?_
  unfold kernelRun3_B.sl.H4_9
  refine (canon_slab_miss 0 1 (by decide) _ rfl _ _ _ r s).trans ?_
  rfl

/-- The load of slab 2 in this round reads what the round before left there. -/
theorem loadB_v262 (r : Fin 256) (s : Fin 2048) :
    kernelRun3_B.sl.v262 (F := Ideal) c arg2 harg2 arg3 harg3 arg6 harg6 x0 x1 xo4 (ix3 (0 : Fin 1) r s) = View.canon (kernelRun3_B.sl.H4_8 (F := Ideal) c arg2 harg2 arg3 harg3 arg6 harg6 x0 x1 xo4) (ix3 2 r s) := by
  unfold kernelRun3_B.sl.v262
  refine (readCov_slab arg6.view 2 _ rfl _ _ r s).trans ?_
  unfold kernelRun3_B.sl.H4_10
  refine (canon_slab_miss 1 2 (by decide) _ rfl _ _ _ r s).trans ?_
  unfold kernelRun3_B.sl.H4_9
  refine (canon_slab_miss 0 2 (by decide) _ rfl _ _ _ r s).trans ?_
  rfl

/-- The load of slab 3 in this round reads what the round before left there. -/
theorem loadB_v286 (r : Fin 256) (s : Fin 2048) :
    kernelRun3_B.sl.v286 (F := Ideal) c arg2 harg2 arg3 harg3 arg6 harg6 x0 x1 xo4 (ix3 (0 : Fin 1) r s) = View.canon (kernelRun3_B.sl.H4_8 (F := Ideal) c arg2 harg2 arg3 harg3 arg6 harg6 x0 x1 xo4) (ix3 3 r s) := by
  unfold kernelRun3_B.sl.v286
  refine (readCov_slab arg6.view 3 _ rfl _ _ r s).trans ?_
  unfold kernelRun3_B.sl.H4_11
  refine (canon_slab_miss 2 3 (by decide) _ rfl _ _ _ r s).trans ?_
  unfold kernelRun3_B.sl.H4_10
  refine (canon_slab_miss 1 3 (by decide) _ rfl _ _ _ r s).trans ?_
  unfold kernelRun3_B.sl.H4_9
  refine (canon_slab_miss 0 3 (by decide) _ rfl _ _ _ r s).trans ?_
  rfl

/-- The load of slab 0 in this round reads what the round before left there. -/
theorem loadB_v310 (r : Fin 256) (s : Fin 2048) :
    kernelRun3_B.sl.v310 (F := Ideal) c arg2 harg2 arg3 harg3 arg6 harg6 x0 x1 xo4 (ix3 (0 : Fin 1) r s) = View.canon (kernelRun3_B.sl.H4_12 (F := Ideal) c arg2 harg2 arg3 harg3 arg6 harg6 x0 x1 xo4) (ix3 0 r s) := by
  unfold kernelRun3_B.sl.v310
  refine (readCov_slab arg6.view 0 _ rfl _ _ r s).trans ?_
  rfl

/-- The load of slab 1 in this round reads what the round before left there. -/
theorem loadB_v334 (r : Fin 256) (s : Fin 2048) :
    kernelRun3_B.sl.v334 (F := Ideal) c arg2 harg2 arg3 harg3 arg6 harg6 x0 x1 xo4 (ix3 (0 : Fin 1) r s) = View.canon (kernelRun3_B.sl.H4_12 (F := Ideal) c arg2 harg2 arg3 harg3 arg6 harg6 x0 x1 xo4) (ix3 1 r s) := by
  unfold kernelRun3_B.sl.v334
  refine (readCov_slab arg6.view 1 _ rfl _ _ r s).trans ?_
  unfold kernelRun3_B.sl.H4_13
  refine (canon_slab_miss 0 1 (by decide) _ rfl _ _ _ r s).trans ?_
  rfl

/-- The load of slab 2 in this round reads what the round before left there. -/
theorem loadB_v358 (r : Fin 256) (s : Fin 2048) :
    kernelRun3_B.sl.v358 (F := Ideal) c arg2 harg2 arg3 harg3 arg6 harg6 x0 x1 xo4 (ix3 (0 : Fin 1) r s) = View.canon (kernelRun3_B.sl.H4_12 (F := Ideal) c arg2 harg2 arg3 harg3 arg6 harg6 x0 x1 xo4) (ix3 2 r s) := by
  unfold kernelRun3_B.sl.v358
  refine (readCov_slab arg6.view 2 _ rfl _ _ r s).trans ?_
  unfold kernelRun3_B.sl.H4_14
  refine (canon_slab_miss 1 2 (by decide) _ rfl _ _ _ r s).trans ?_
  unfold kernelRun3_B.sl.H4_13
  refine (canon_slab_miss 0 2 (by decide) _ rfl _ _ _ r s).trans ?_
  rfl

/-- The load of slab 3 in this round reads what the round before left there. -/
theorem loadB_v382 (r : Fin 256) (s : Fin 2048) :
    kernelRun3_B.sl.v382 (F := Ideal) c arg2 harg2 arg3 harg3 arg6 harg6 x0 x1 xo4 (ix3 (0 : Fin 1) r s) = View.canon (kernelRun3_B.sl.H4_12 (F := Ideal) c arg2 harg2 arg3 harg3 arg6 harg6 x0 x1 xo4) (ix3 3 r s) := by
  unfold kernelRun3_B.sl.v382
  refine (readCov_slab arg6.view 3 _ rfl _ _ r s).trans ?_
  unfold kernelRun3_B.sl.H4_15
  refine (canon_slab_miss 2 3 (by decide) _ rfl _ _ _ r s).trans ?_
  unfold kernelRun3_B.sl.H4_14
  refine (canon_slab_miss 1 3 (by decide) _ rfl _ _ _ r s).trans ?_
  unfold kernelRun3_B.sl.H4_13
  refine (canon_slab_miss 0 3 (by decide) _ rfl _ _ _ r s).trans ?_
  rfl

set_option maxHeartbeats 400000 in
/-- After the second round: the second head of each group on top. -/
theorem roundB2 (j : Fin 4) (r : Fin 256) (s : Fin 2048) :
    View.canon (kernelRun3_B.sl.H4_8 (F := Ideal) c arg2 harg2 arg3 harg3 arg6 harg6 x0 x1 xo4) (ix3 j r s) = View.canon (kernelRun3_B.sl.H4_4 (F := Ideal) c arg2 harg2 arg3 harg3 arg6 harg6 x0 x1 xo4) (ix3 j r s) + Attn.bprob (Attn.bq x0) (Attn.bk x1) (Attn.grpHead 1 j) r s * Attn.cInvH := by
  unfold kernelRun3_B.sl.H4_8 kernelRun3_B.sl.H4_7 kernelRun3_B.sl.H4_6 kernelRun3_B.sl.H4_5 kernelRun3_B.sl.r_20 kernelRun3_B.sl.r_16 kernelRun3_B.sl.r_12 kernelRun3_B.sl.r_13
  rw [qB, kB]
  refine canon_four_slabs _ _ _ _ rfl rfl rfl rfl _ _ _ _ _ _ _ _ _
    (fun j r s => View.canon (kernelRun3_B.sl.H4_4 (F := Ideal) c arg2 harg2 arg3 harg3 arg6 harg6 x0 x1 xo4) (ix3 j r s) + Attn.bprob (Attn.bq x0) (Attn.bk x1) (Attn.grpHead 1 j) r s * Attn.cInvH) ?_ ?_ ?_ ?_ j r s
  · intro r s
    exact (store5_at x0 x1 _ r s).trans (congrArg (· + _) (loadB_v118 c arg2 harg2 arg3 harg3 arg6 harg6 x0 x1 xo4 r s))
  · intro r s
    exact (store6_at x0 x1 _ r s).trans (congrArg (· + _) (loadB_v142 c arg2 harg2 arg3 harg3 arg6 harg6 x0 x1 xo4 r s))
  · intro r s
    exact (store7_at x0 x1 _ r s).trans (congrArg (· + _) (loadB_v166 c arg2 harg2 arg3 harg3 arg6 harg6 x0 x1 xo4 r s))
  · intro r s
    exact (store8_at x0 x1 _ r s).trans (congrArg (· + _) (loadB_v190 c arg2 harg2 arg3 harg3 arg6 harg6 x0 x1 xo4 r s))

set_option maxHeartbeats 400000 in
/-- After the third round: the third head of each group on top. -/
theorem roundB3 (j : Fin 4) (r : Fin 256) (s : Fin 2048) :
    View.canon (kernelRun3_B.sl.H4_12 (F := Ideal) c arg2 harg2 arg3 harg3 arg6 harg6 x0 x1 xo4) (ix3 j r s) = View.canon (kernelRun3_B.sl.H4_8 (F := Ideal) c arg2 harg2 arg3 harg3 arg6 harg6 x0 x1 xo4) (ix3 j r s) + Attn.bprob (Attn.bq x0) (Attn.bk x1) (Attn.grpHead 2 j) r s * Attn.cInvH := by
  unfold kernelRun3_B.sl.H4_12 kernelRun3_B.sl.H4_11 kernelRun3_B.sl.H4_10 kernelRun3_B.sl.H4_9 kernelRun3_B.sl.r_28 kernelRun3_B.sl.r_24 kernelRun3_B.sl.r_25
  rw [qB, kB]
  refine canon_four_slabs _ _ _ _ rfl rfl rfl rfl _ _ _ _ _ _ _ _ _
    (fun j r s => View.canon (kernelRun3_B.sl.H4_8 (F := Ideal) c arg2 harg2 arg3 harg3 arg6 harg6 x0 x1 xo4) (ix3 j r s) + Attn.bprob (Attn.bq x0) (Attn.bk x1) (Attn.grpHead 2 j) r s * Attn.cInvH) ?_ ?_ ?_ ?_ j r s
  · intro r s
    exact (store9_at x0 x1 _ r s).trans (congrArg (· + _) (loadB_v214 c arg2 harg2 arg3 harg3 arg6 harg6 x0 x1 xo4 r s))
  · intro r s
    exact (store10_at x0 x1 _ r s).trans (congrArg (· + _) (loadB_v238 c arg2 harg2 arg3 harg3 arg6 harg6 x0 x1 xo4 r s))
  · intro r s
    exact (store11_at x0 x1 _ r s).trans (congrArg (· + _) (loadB_v262 c arg2 harg2 arg3 harg3 arg6 harg6 x0 x1 xo4 r s))
  · intro r s
    exact (store12_at x0 x1 _ r s).trans (congrArg (· + _) (loadB_v286 c arg2 harg2 arg3 harg3 arg6 harg6 x0 x1 xo4 r s))

set_option maxHeartbeats 400000 in
/-- After the fourth round, the whole list of stores: the fourth head of each group on top. -/
theorem roundB4 (j : Fin 4) (r : Fin 256) (s : Fin 2048) :
    View.canon (kernelRun3_B (F := Ideal) c i arg2 harg2 arg3 harg3 arg4 harg4 arg5 harg5 arg6 harg6 hc0 x0 x1 x2 xo4).2.1 (ix3 j r s)
      = View.canon (kernelRun3_B.sl.H4_12 (F := Ideal) c arg2 harg2 arg3 harg3 arg6 harg6 x0 x1 xo4) (ix3 j r s) + Attn.bprob (Attn.bq x0) (Attn.bk x1) (Attn.grpHead 3 j) r s * Attn.cInvH := by
  unfold kernelRun3_B
  dsimp only
  unfold kernelRun3_B.sl.H4_15 kernelRun3_B.sl.H4_14 kernelRun3_B.sl.H4_13 kernelRun3_B.sl.r_32 kernelRun3_B.sl.r_36 kernelRun3_B.sl.r_37
  rw [qB, kB]
  refine canon_four_slabs _ _ _ _ rfl rfl rfl rfl _ _ _ _ _ _ _ _ _
    (fun j r s => View.canon (kernelRun3_B.sl.H4_12 (F := Ideal) c arg2 harg2 arg3 harg3 arg6 harg6 x0 x1 xo4) (ix3 j r s) + Attn.bprob (Attn.bq x0) (Attn.bk x1) (Attn.grpHead 3 j) r s * Attn.cInvH) ?_ ?_ ?_ ?_ j r s
  · intro r s
    exact (store13_at x0 x1 _ r s).trans (congrArg (· + _) (loadB_v310 c arg2 harg2 arg3 harg3 arg6 harg6 x0 x1 xo4 r s))
  · intro r s
    exact (store14_at x0 x1 _ r s).trans (congrArg (· + _) (loadB_v334 c arg2 harg2 arg3 harg3 arg6 harg6 x0 x1 xo4 r s))
  · intro r s
    exact (store15_at x0 x1 _ r s).trans (congrArg (· + _) (loadB_v358 c arg2 harg2 arg3 harg3 arg6 harg6 x0 x1 xo4 r s))
  · intro r s
    exact (store16_at x0 x1 _ r s).trans (congrArg (· + _) (loadB_v382 c arg2 harg2 arg3 harg3 arg6 harg6 x0 x1 xo4 r s))

end CaseB

end Cert.KernelIdeal.AttnAvgPoint

end
-- ==== Proof.AttnAvgPoint.lean ====
/-
  What one grid point of the attention call leaves in the averaged-weights staging buffer: entry (j, r, s) is the
  starting value — zero at a point that starts a row of the grid, what the point before left otherwise — plus the
  weights of heads j, j + 4, j + 8, j + 12, each times 1/16, added in this order.
-/
import proofs.«179876_j77678778515968_2_alg».proof.Proof.Gen.KernelIdeal.Frame
import proofs.«179876_j77678778515968_2_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«179876_j77678778515968_2_alg».proof.Proof.AttnAvgPointCaseA
import proofs.«179876_j77678778515968_2_alg».proof.Proof.AttnAvgPointCaseB

noncomputable section

open Idealize.ShloMosaic Idealize.ShloMosaic.TcCoe Idealize.SL.Sem Idealize.ShloMosaic.ValueIdx
open Idealize.ShloMosaic.Pipeline (Dat)

namespace Cert.KernelIdeal.AttnAvgPoint

open Cert.KernelIdeal Cert.KernelIdeal.Gen

/-- At a point that starts a row of the grid the averaged-weights block is set to zero and then takes this batch row's
    contribution: group j, row r, key position s. -/
theorem out3_A_4_at (c : Dev nD) (i : grid3.Coords) (arg2 : Memref sig .tc .vmem S1x256x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1x256x1024 .bf16) (harg5 : arg5.IsWhole) (arg6 : Memref sig .tc .vmem S4x256x2048 .f32) (harg6 : arg6.IsWhole) (hc0 : cond3_0 i)
    (x0 : Vec Ideal S1x256x1024 .bf16) (x1 : Vec Ideal S1x2048x1024 .bf16) (x2 : Vec Ideal S1x2048x1024 .bf16) (j : Fin 4) (r : Fin 256) (s : Fin 2048) :
    out3_A_4 (F := Ideal) c i arg2 harg2 arg3 harg3 arg4 harg4 arg5 harg5 arg6 harg6 hc0 x0 x1 x2 (ix3 j r s) = Attn.bacc4 Attn.cZero (Attn.bq x0) (Attn.bk x1) j r s := by
  unfold out3_A_4
  rw [View.read_writes_eq_canon _ _ _ (cover3_A_4 c i arg2 harg2 arg3 harg3 arg4 harg4 arg5 harg5 arg6 harg6 hc0 x0 x1 x2)]
  rw [roundA4 c i arg2 harg2 arg3 harg3 arg4 harg4 arg5 harg5 arg6 harg6 hc0 x0 x1 x2 j r s,
    roundA3 c arg2 harg2 arg3 harg3 arg6 x0 x1 j r s, roundA2 c arg2 harg2 arg3 harg3 arg6 x0 x1 j r s,
    roundA1 c arg2 harg2 arg3 harg3 arg6 x0 x1 j r s, zeroA j r s]
  rfl

/-- At any other point the block the point before left takes this batch row's contribution. -/
theorem out3_B_4_at (c : Dev nD) (i : grid3.Coords) (arg2 : Memref sig .tc .vmem S1x256x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1x256x1024 .bf16) (harg5 : arg5.IsWhole) (arg6 : Memref sig .tc .vmem S4x256x2048 .f32) (harg6 : arg6.IsWhole) (hc0 : ¬cond3_0 i)
    (x0 : Vec Ideal S1x256x1024 .bf16) (x1 : Vec Ideal S1x2048x1024 .bf16) (x2 : Vec Ideal S1x2048x1024 .bf16) (xo4 : Vec Ideal S4x256x2048 .f32) (j : Fin 4) (r : Fin 256) (s : Fin 2048) :
    out3_B_4 (F := Ideal) c i arg2 harg2 arg3 harg3 arg4 harg4 arg5 harg5 arg6 harg6 hc0 x0 x1 x2 xo4 (ix3 j r s) = Attn.bacc4 (xo4 (ix3 j r s)) (Attn.bq x0) (Attn.bk x1) j r s := by
  unfold out3_B_4
  rw [View.read_writes_eq_canon _ _ _ (cover3_B_4 c i arg2 harg2 arg3 harg3 arg4 harg4 arg5 harg5 arg6 harg6 hc0 x0 x1 x2 xo4)]
  rw [roundB4 c i arg2 harg2 arg3 harg3 arg4 harg4 arg5 harg5 arg6 harg6 hc0 x0 x1 x2 xo4 j r s,
    roundB3 c arg2 harg2 arg3 harg3 arg6 harg6 x0 x1 xo4 j r s, roundB2 c arg2 harg2 arg3 harg3 arg6 harg6 x0 x1 xo4 j r s,
    roundB1 c arg2 harg2 arg3 harg3 arg6 harg6 x0 x1 xo4 j r s]
  rfl

end Cert.KernelIdeal.AttnAvgPoint

end
-- ==== Proof.AttnGridLaws.lean ====
/-
  Laws of the attention specification used to pass from one block of the grid to the whole arrays: a block's
  weights and context, read off rows of the whole activations, are the whole arrays' weights and context at those rows;
  and the accumulation of the averaged weights advances by one batch row (four pairs of a group) at a time.
-/
import proofs.«179876_j77678778515968_2_alg».proof.Proof.Spec

noncomputable section

namespace Cert.KernelIdeal.AttnGrid

open Cert

/-- A block whose query rows are rows `row r` of batch row b, and whose key rows are all the key rows of batch row b:
    its weights for head h are the whole arrays' weights of (b, h) at those rows. -/
theorem bprob_rows (Q K : Attn.Act) (b : Fin 4) (row : Fin 256 → Fin 2048) (h : Fin 16) (r : Fin 256) (s : Fin 2048) :
    Attn.bprob (fun r e => Q (row r) b e) (fun s e => K s b e) h r s = Attn.prob Q K b h (row r) s := rfl

/-- and its context is the whole arrays' context of batch row b at those rows. -/
theorem bctx_rows (Q K W : Attn.Act) (b : Fin 4) (row : Fin 256 → Fin 2048) (r : Fin 256) (e : Fin 1024) :
    Attn.bctx (fun r e => Q (row r) b e) (fun s e => K s b e) (fun s e => W s b e) r e = Attn.ctx Q K W b (row r) e := rfl

/-- One step of the accumulation, inside the group. -/
theorem avgAcc_succ (Q K : Attn.Act) (j : Fin 4) (t s : Fin 2048) (n : ℕ) (h : n < 16) :
    Attn.avgAcc Q K j t s (n + 1)
      = Attn.avgAcc Q K j t s n + Attn.prob Q K (Attn.grpB ⟨n, h⟩) (Attn.grpH ⟨n, h⟩ j) t s * Attn.cInvH := by
  rw [Attn.avgAcc, dif_pos h]

/-- Batch row b contributes the four pairs g = 4·b + i, i = 0 … 3, of group j: their batch row is b and their heads
    are 4·i + j. So the block's contribution added onto the accumulation over the first 4·b pairs is the accumulation
    over the first 4·(b + 1). -/
theorem bacc4_rows (Q K : Attn.Act) (b : Fin 4) (row : Fin 256 → Fin 2048) (j : Fin 4) (r : Fin 256) (s : Fin 2048) :
    Attn.bacc4 (Attn.avgAcc Q K j (row r) s (4 * b.val)) (fun r e => Q (row r) b e) (fun s e => K s b e) j r s
      = Attn.avgAcc Q K j (row r) s (4 * (b.val + 1)) := by
  have hb : b.val < 4 := b.isLt
  have B0 : Attn.grpB ⟨4 * b.val, by omega⟩ = b := Fin.ext (by show 4 * b.val / 4 = b.val; omega)
  have B1 : Attn.grpB ⟨4 * b.val + 1, by omega⟩ = b := Fin.ext (by show (4 * b.val + 1) / 4 = b.val; omega)
  have B2 : Attn.grpB ⟨4 * b.val + 2, by omega⟩ = b := Fin.ext (by show (4 * b.val + 2) / 4 = b.val; omega)
  have B3 : Attn.grpB ⟨4 * b.val + 3, by omega⟩ = b := Fin.ext (by show (4 * b.val + 3) / 4 = b.val; omega)
  have H0 : Attn.grpH ⟨4 * b.val, by omega⟩ j = Attn.grpHead 0 j :=
    Fin.ext (by show (4 * b.val) % 4 * 4 + j.val = 0 * 4 + j.val; omega)
  have H1 : Attn.grpH ⟨4 * b.val + 1, by omega⟩ j = Attn.grpHead 1 j :=
    Fin.ext (by show (4 * b.val + 1) % 4 * 4 + j.val = 1 * 4 + j.val; omega)
  have H2 : Attn.grpH ⟨4 * b.val + 2, by omega⟩ j = Attn.grpHead 2 j :=
    Fin.ext (by show (4 * b.val + 2) % 4 * 4 + j.val = 2 * 4 + j.val; omega)
  have H3 : Attn.grpH ⟨4 * b.val + 3, by omega⟩ j = Attn.grpHead 3 j :=
    Fin.ext (by show (4 * b.val + 3) % 4 * 4 + j.val = 3 * 4 + j.val; omega)
  show _ = Attn.avgAcc Q K j (row r) s (4 * b.val + 3 + 1)
  rw [avgAcc_succ Q K j (row r) s (4 * b.val + 3) (by omega), avgAcc_succ Q K j (row r) s (4 * b.val + 2) (by omega),
    avgAcc_succ Q K j (row r) s (4 * b.val + 1) (by omega), avgAcc_succ Q K j (row r) s (4 * b.val) (by omega),
    B0, B1, B2, B3, H0, H1, H2, H3]
  unfold Attn.bacc4
  rw [bprob_rows, bprob_rows, bprob_rows, bprob_rows]

end Cert.KernelIdeal.AttnGrid

end
-- ==== Proof.AttnGridBlocks.lean ====
/-
  The input blocks of the attention call at a grid point. The grid is 8 × 4: point t = 4·qi + b handles query tile qi
  (rows 256·qi … 256·qi + 255) of batch row b. The query window's block at t is those rows of batch row b of the query
  projection; the key and value windows' blocks are all 2048 rows of batch row b of the key and value projections.
  (A block's coordinate in its array is, on each axis, block index × block size + the coordinate inside the block.)
-/
import proofs.«179876_j77678778515968_2_alg».proof.Proof.Gen.KernelIdeal.Frame
import proofs.«179876_j77678778515968_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.AttnGrid

open Cert.KernelIdeal Cert.KernelIdeal.Gen

variable (V : (c : Dev nD) → (b : Ref sig .tc) → Buf (Elt Ideal) ((c : Thread nD τ).loc b))

/-- The printed index maps of the five windows, decided over the grid: the batch-row axis moves with t mod 4, the
    query-row axis with t / 4; the averaged-weights window stays on a tile for its four points. -/
theorem idx_facts : ∀ t : Fin cfg3.N,
    win3_0.index t (0 : Fin 3) = t.val % 4 ∧ win3_0.index t (1 : Fin 3) = t.val / 4 ∧ win3_0.index t (2 : Fin 3) = 0
    ∧ win3_1.index t (0 : Fin 3) = t.val % 4 ∧ win3_1.index t (1 : Fin 3) = 0 ∧ win3_1.index t (2 : Fin 3) = 0
    ∧ win3_2.index t (0 : Fin 3) = t.val % 4 ∧ win3_2.index t (1 : Fin 3) = 0 ∧ win3_2.index t (2 : Fin 3) = 0
    ∧ win3_3.index t (0 : Fin 3) = t.val % 4 ∧ win3_3.index t (1 : Fin 3) = t.val / 4 ∧ win3_3.index t (2 : Fin 3) = 0
    ∧ win3_4.index t (0 : Fin 3) = 0 ∧ win3_4.index t (1 : Fin 3) = t.val / 4 ∧ win3_4.index t (2 : Fin 3) = 0 :=
  (by decide +kernel : ∀ t : Fin grid3.N, _)

/-- The batch row of grid point t. -/
def bOf (t : Fin cfg3.N) : Fin 4 := ⟨t.val % 4, Nat.mod_lt _ (by decide)⟩

/-- Row r of the query tile of grid point t, as a row of the whole array. -/
def rowOf (t : Fin cfg3.N) (r : Fin 256) : Fin 2048 :=
  ⟨256 * (t.val / 4) + r.val, by
    have hN : t.val < 32 := lt_of_lt_of_eq t.isLt (show cfg3.N = 32 from N_3)
    have hr : r.val < 256 := r.isLt
    omega⟩

/-- The query window's block at point t, entry (0, r, e): row 256·(t / 4) + r of batch row t mod 4. -/
theorem iblk0_at (c : Dev nD) (t : Fin cfg3.N) (r : Fin 256) (e : Fin 1024) (b : Fin 4) (q : Fin 2048)
    (hb : b.val = t.val % 4) (hq : q.val = 256 * (t.val / 4) + r.val) :
    (iblk3 (F := Ideal) V c 0 t : Vec Ideal S1x256x1024 .bf16) (ix3 (0 : Fin 1) r e)
      = (V c main_v8 : (⟨3, ![4, 2048, 1024]⟩ : Shape).Idx → EReal) (ix3 b q e) := by
  obtain ⟨e0, e1, e2, -⟩ := idx_facts t
  unfold iblk3
  rw [View.read_apply]
  show V c main_v8 _ = V c main_v8 _
  refine congrArg _ ?_
  funext a
  apply Fin.ext
  match a with
  | ⟨0, _⟩ => show win3_0.index t (0 : Fin 3) * 1 + 1 * 0 = b.val; omega
  | ⟨1, _⟩ => show win3_0.index t (1 : Fin 3) * 256 + 1 * r.val = q.val; omega
  | ⟨2, _⟩ => show win3_0.index t (2 : Fin 3) * 1024 + 1 * e.val = e.val; omega

/-- The key window's block at point t, entry (0, s, e): row s of batch row t mod 4. -/
theorem iblk1_at (c : Dev nD) (t : Fin cfg3.N) (s : Fin 2048) (e : Fin 1024) (b : Fin 4) (hb : b.val = t.val % 4) :
    (iblk3 (F := Ideal) V c 1 t : Vec Ideal S1x2048x1024 .bf16) (ix3 (0 : Fin 1) s e)
      = (V c main_v9 : (⟨3, ![4, 2048, 1024]⟩ : Shape).Idx → EReal) (ix3 b s e) := by
  obtain ⟨-, -, -, e0, e1, e2, -⟩ := idx_facts t
  unfold iblk3
  rw [View.read_apply]
  show V c main_v9 _ = V c main_v9 _
  refine congrArg _ ?_
  funext a
  apply Fin.ext
  match a with
  | ⟨0, _⟩ => show win3_1.index t (0 : Fin 3) * 1 + 1 * 0 = b.val; omega
  | ⟨1, _⟩ => show win3_1.index t (1 : Fin 3) * 2048 + 1 * s.val = s.val; omega
  | ⟨2, _⟩ => show win3_1.index t (2 : Fin 3) * 1024 + 1 * e.val = e.val; omega

/-- The value window's block at point t, entry (0, s, e): row s of batch row t mod 4. -/
theorem iblk2_at (c : Dev nD) (t : Fin cfg3.N) (s : Fin 2048) (e : Fin 1024) (b : Fin 4) (hb : b.val = t.val % 4) :
    (iblk3 (F := Ideal) V c 2 t : Vec Ideal S1x2048x1024 .bf16) (ix3 (0 : Fin 1) s e)
      = (V c main_v10 : (⟨3, ![4, 2048, 1024]⟩ : Shape).Idx → EReal) (ix3 b s e) := by
  obtain ⟨-, -, -, -, -, -, e0, e1, e2, -⟩ := idx_facts t
  unfold iblk3
  rw [View.read_apply]
  show V c main_v10 _ = V c main_v10 _
  refine congrArg _ ?_
  funext a
  apply Fin.ext
  match a with
  | ⟨0, _⟩ => show win3_2.index t (0 : Fin 3) * 1 + 1 * 0 = b.val; omega
  | ⟨1, _⟩ => show win3_2.index t (1 : Fin 3) * 2048 + 1 * s.val = s.val; omega
  | ⟨2, _⟩ => show win3_2.index t (2 : Fin 3) * 1024 + 1 * e.val = e.val; omega

/-- The query block at point t as rows of the whole query activations. -/
theorem bq_iblk (c : Dev nD) (t : Fin cfg3.N) :
    Attn.bq (iblk3 (F := Ideal) V c 0 t) = fun r e => Attn.actBT (V c main_v8) (rowOf t r) (bOf t) e :=
  funext fun r => funext fun e => iblk0_at V c t r e (bOf t) (rowOf t r) rfl rfl

/-- The key block at point t as the rows of batch row t mod 4 of the whole key activations. -/
theorem bk1_iblk (c : Dev nD) (t : Fin cfg3.N) :
    Attn.bk (iblk3 (F := Ideal) V c 1 t) = fun s e => Attn.actBT (V c main_v9) s (bOf t) e :=
  funext fun s => funext fun e => iblk1_at V c t s e (bOf t) rfl

/-- The value block at point t likewise. -/
theorem bk2_iblk (c : Dev nD) (t : Fin cfg3.N) :
    Attn.bk (iblk3 (F := Ideal) V c 2 t) = fun s e => Attn.actBT (V c main_v10) s (bOf t) e :=
  funext fun s => funext fun e => iblk2_at V c t s e (bOf t) rfl

end Cert.KernelIdeal.AttnGrid

end
-- ==== Proof.AttnGridPoints.lean ====
/-
  What the two output buffers of the attention call hold after each grid point. Point t = 4·qi + b leaves in the
  context buffer the context of batch row b at rows 256·qi … 256·qi + 255, whatever came before; the averaged-weights
  buffer is carried across the four points of a tile: it is zeroed when b = 0 and each point adds its batch row's four
  pairs of every group, so after point t it holds the accumulation over the first 4·(b + 1) pairs.
-/
import proofs.«179876_j77678778515968_2_alg».proof.Proof.Gen.KernelIdeal.Frame
import proofs.«179876_j77678778515968_2_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«179876_j77678778515968_2_alg».proof.Proof.AttnCtxPoint
import proofs.«179876_j77678778515968_2_alg».proof.Proof.AttnAvgPoint
import proofs.«179876_j77678778515968_2_alg».proof.Proof.AttnGridLaws
import proofs.«179876_j77678778515968_2_alg».proof.Proof.AttnGridBlocks

noncomputable section

open Idealize.ShloMosaic Idealize.ShloMosaic.TcCoe Idealize.SL.Sem Idealize.ShloMosaic.ValueIdx
open Idealize.ShloMosaic.Pipeline (Dat)

namespace Cert.KernelIdeal.AttnGrid

open Cert.KernelIdeal Cert.KernelIdeal.Gen

variable (V : (c : Dev nD) → (b : Ref sig .tc) → Buf (Elt Ideal) ((c : Thread nD τ).loc b))

/-- The context buffer after point t, entry (0, r, e): the context of batch row t mod 4 at row 256·(t / 4) + r. -/
theorem ctx_point (c : Dev nD) (t : Fin cfg3.N) (r : Fin 256) (e : Fin 1024) :
    (outsAt3 (F := Ideal) V c t.val t.isLt).1 (ix3 (0 : Fin 1) r e)
      = Attn.ctx (Attn.actBT (V c main_v8)) (Attn.actBT (V c main_v9)) (Attn.actBT (V c main_v10)) (bOf t) (rowOf t r) e := by
  by_cases h0 : t.val % 4 = 0
  · rw [outsAt3_A V c t h0]
    dsimp only
    refine (AttnCtxPoint.out3_A_3_at c (grid3.coords t) (ms3_0 t) (hs3_0 t) (ms3_1 t) (hs3_1 t) (ms3_2 t) (hs3_2 t) (ms3_3 t) (hs3_3 t) (ms3_4 t) (hs3_4 t) ((hcond3_0 t).mpr h0) (iblk3 V c 0 t) (iblk3 V c 1 t) (iblk3 V c 2 t) r e).trans ?_
    rw [bq_iblk, bk1_iblk, bk2_iblk]
    exact bctx_rows _ _ _ (bOf t) (rowOf t) r e
  · rw [outsAt3_B V c t h0]
    dsimp only
    refine (AttnCtxPoint.out3_B_3_at c (grid3.coords t) (ms3_0 t) (hs3_0 t) (ms3_1 t) (hs3_1 t) (ms3_2 t) (hs3_2 t) (ms3_3 t) (hs3_3 t) (ms3_4 t) (hs3_4 t) (fun h => h0 ((hcond3_0 t).mp h)) (iblk3 V c 0 t) (iblk3 V c 1 t) (iblk3 V c 2 t) (outsAt3 V c (t.val - 1) (Nat.lt_of_le_of_lt (Nat.sub_le _ _) t.isLt)).2 r e).trans ?_
    rw [bq_iblk, bk1_iblk, bk2_iblk]
    exact bctx_rows _ _ _ (bOf t) (rowOf t) r e

/-- At the first point of a tile the averaged-weights buffer is zeroed and takes batch row 0's four pairs. -/
theorem avg_first (c : Dev nD) (t : Fin cfg3.N) (h0 : t.val % 4 = 0) (j : Fin 4) (r : Fin 256) (s : Fin 2048) :
    (outsAt3 (F := Ideal) V c t.val t.isLt).2 (ix3 j r s)
      = Attn.avgAcc (Attn.actBT (V c main_v8)) (Attn.actBT (V c main_v9)) j (rowOf t r) s (4 * ((bOf t).val + 1)) := by
  rw [outsAt3_A V c t h0]
  dsimp only
  refine (AttnAvgPoint.out3_A_4_at c (grid3.coords t) (ms3_0 t) (hs3_0 t) (ms3_1 t) (hs3_1 t) (ms3_2 t) (hs3_2 t) (ms3_3 t) (hs3_3 t) (ms3_4 t) (hs3_4 t) ((hcond3_0 t).mpr h0) (iblk3 V c 0 t) (iblk3 V c 1 t) (iblk3 V c 2 t) j r s).trans ?_
  rw [bq_iblk, bk1_iblk]
  have hb : (bOf t).val = 0 := h0
  have hz : Attn.cZero = Attn.avgAcc (Attn.actBT (V c main_v8)) (Attn.actBT (V c main_v9)) j (rowOf t r) s (4 * (bOf t).val) := by
    rw [hb]; rfl
  rw [hz]
  exact bacc4_rows _ _ (bOf t) (rowOf t) j r s

/-- At a later point of a tile the buffer, holding the accumulation over the earlier batch rows, takes this batch row's
    four pairs. -/
theorem avg_next (c : Dev nD) (t : Fin cfg3.N) (h0 : ¬t.val % 4 = 0) (j : Fin 4) (r : Fin 256) (s : Fin 2048)
    (ih : (outsAt3 (F := Ideal) V c (t.val - 1) (Nat.lt_of_le_of_lt (Nat.sub_le _ _) t.isLt)).2 (ix3 j r s)
      = Attn.avgAcc (Attn.actBT (V c main_v8)) (Attn.actBT (V c main_v9)) j (rowOf t r) s (4 * (bOf t).val)) :
    (outsAt3 (F := Ideal) V c t.val t.isLt).2 (ix3 j r s)
      = Attn.avgAcc (Attn.actBT (V c main_v8)) (Attn.actBT (V c main_v9)) j (rowOf t r) s (4 * ((bOf t).val + 1)) := by
  rw [outsAt3_B V c t h0]
  dsimp only
  refine (AttnAvgPoint.out3_B_4_at c (grid3.coords t) (ms3_0 t) (hs3_0 t) (ms3_1 t) (hs3_1 t) (ms3_2 t) (hs3_2 t) (ms3_3 t) (hs3_3 t) (ms3_4 t) (hs3_4 t) (fun h => h0 ((hcond3_0 t).mp h)) (iblk3 V c 0 t) (iblk3 V c 1 t) (iblk3 V c 2 t) (outsAt3 V c (t.val - 1) (Nat.lt_of_le_of_lt (Nat.sub_le _ _) t.isLt)).2 j r s).trans ?_
  rw [ih, bq_iblk, bk1_iblk]
  exact bacc4_rows _ _ (bOf t) (rowOf t) j r s

/-- The averaged-weights buffer after point n = 4·qi + b, entry (j, r, s): the accumulation over the first 4·(b + 1)
    pairs of group j at row 256·qi + r — by induction on the point. -/
theorem avg_point (c : Dev nD) : ∀ (n : ℕ) (hn : n < cfg3.N) (j : Fin 4) (r : Fin 256) (s : Fin 2048),
    (outsAt3 (F := Ideal) V c n hn).2 (ix3 j r s)
      = Attn.avgAcc (Attn.actBT (V c main_v8)) (Attn.actBT (V c main_v9)) j (rowOf ⟨n, hn⟩ r) s (4 * ((bOf ⟨n, hn⟩).val + 1))
  | 0, hn, j, r, s => avg_first V c ⟨0, hn⟩ rfl j r s
  | n + 1, hn, j, r, s => by
    by_cases h0 : (n + 1) % 4 = 0
    · exact avg_first V c ⟨n + 1, hn⟩ h0 j r s
    · refine avg_next V c ⟨n + 1, hn⟩ h0 j r s ?_
      have ih := avg_point c n (Nat.lt_of_succ_lt hn) j r s
      have e1 : rowOf ⟨n + 1, hn⟩ r = rowOf ⟨n, Nat.lt_of_succ_lt hn⟩ r :=
        Fin.ext (by show 256 * ((n + 1) / 4) + r.val = 256 * (n / 4) + r.val; omega)
      have e2 : (bOf ⟨n + 1, hn⟩).val = (bOf ⟨n, Nat.lt_of_succ_lt hn⟩).val + 1 := by
        show (n + 1) % 4 = n % 4 + 1; omega
      rw [e1, e2]
      exact ih

end Cert.KernelIdeal.AttnGrid

end
-- ==== Proof.AttnGrid.lean ====
/-
  From one grid point to the whole arrays of the attention call. The grid is 8 × 4, point t = 4·qi + b. The context
  window's block (b, qi) is written back at every point, and row u of batch row b lies in the block of point
  4·(u / 256) + b; the averaged-weights window's block qi is written back once per tile, at its last point 4·qi + 3,
  when it holds the accumulation over all 16 pairs of each group. Every block written back is a block of ONE function
  of the array's index, and the blocks cover the arrays, so the arrays end holding those functions.
-/
import proofs.«179876_j77678778515968_2_alg».proof.Proof.Gen.KernelIdeal.Frame
import proofs.«179876_j77678778515968_2_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«179876_j77678778515968_2_alg».proof.Proof.AttnCtxPoint
import proofs.«179876_j77678778515968_2_alg».proof.Proof.AttnAvgPoint
import proofs.«179876_j77678778515968_2_alg».proof.Proof.AttnGridLaws
import proofs.«179876_j77678778515968_2_alg».proof.Proof.AttnGridBlocks
import proofs.«179876_j77678778515968_2_alg».proof.Proof.AttnGridPoints

noncomputable section

open Idealize.ShloMosaic Idealize.ShloMosaic.TcCoe Idealize.SL.Sem Idealize.ShloMosaic.ValueIdx
open Idealize.ShloMosaic.Pipeline (Dat)

namespace Cert.KernelIdeal.AttnGrid

open Cert.KernelIdeal Cert.KernelIdeal.Gen

variable (V : (c : Dev nD) → (b : Ref sig .tc) → Buf (Elt Ideal) ((c : Thread nD τ).loc b))

/-- The context array as one function of its index (batch row, position, feature). -/
abbrev ctxArr (c : Dev nD) : (⟨3, ![4, 2048, 1024]⟩ : Shape).Idx → EReal :=
  fun i => Attn.ctx (Attn.actBT (V c main_v8)) (Attn.actBT (V c main_v9)) (Attn.actBT (V c main_v10)) (i 0) (i 1) (i 2)

/-- The averaged-weights array as one function of its index (group, query position, key position). -/
abbrev avgArr (c : Dev nD) : (⟨3, ![4, 2048, 2048]⟩ : Shape).Idx → EReal :=
  fun i => Attn.avgAcc (Attn.actBT (V c main_v8)) (Attn.actBT (V c main_v9)) (i 0) (i 1) (i 2) 16

/-- Where entry (0, r, e) of the context block of point t sits in the array. -/
theorem emb3 (t : Fin cfg3.N) (r : Fin 256) (e : Fin 1024) :
    (((cfg3.win 3).blk t).view.emb (ix3 (0 : Fin 1) r e) : (⟨3, ![4, 2048, 1024]⟩ : Shape).Idx) = ix3 (bOf t) (rowOf t r) e := by
  obtain ⟨-, -, -, -, -, -, -, -, -, e0, e1, e2, -⟩ := idx_facts t
  funext a
  apply Fin.ext
  match a with
  | ⟨0, _⟩ => show win3_3.index t (0 : Fin 3) * 1 + 1 * 0 = t.val % 4; omega
  | ⟨1, _⟩ => show win3_3.index t (1 : Fin 3) * 256 + 1 * r.val = 256 * (t.val / 4) + r.val; omega
  | ⟨2, _⟩ => show win3_3.index t (2 : Fin 3) * 1024 + 1 * e.val = e.val; omega

/-- Where entry (j, r, s) of the averaged-weights block of point t sits in the array. -/
theorem emb4 (t : Fin cfg3.N) (j : Fin 4) (r : Fin 256) (s : Fin 2048) :
    (((cfg3.win 4).blk t).view.emb (ix3 j r s) : (⟨3, ![4, 2048, 2048]⟩ : Shape).Idx) = ix3 j (rowOf t r) s := by
  obtain ⟨-, -, -, -, -, -, -, -, -, -, -, -, e0, e1, e2⟩ := idx_facts t
  funext a
  apply Fin.ext
  match a with
  | ⟨0, _⟩ => show win3_4.index t (0 : Fin 3) * 4 + 1 * j.val = j.val; omega
  | ⟨1, _⟩ => show win3_4.index t (1 : Fin 3) * 256 + 1 * r.val = 256 * (t.val / 4) + r.val; omega
  | ⟨2, _⟩ => show win3_4.index t (2 : Fin 3) * 2048 + 1 * s.val = s.val; omega

/-- What point t writes back to the context array is block t of `ctxArr`. -/
theorem flushed3_eq (c : Dev nD) (t : Fin cfg3.N) :
    (dat3 (F := Ideal) V c).flushed 3 t = ((cfg3.win 3).blk t).view.read (Elt Ideal) (ctxArr V c) := by
  show (cfg3.win 3).cut (grid3.coords t) ((dat3 (F := Ideal) V c).after 3 t) = _
  rw [after3_3]
  funext x
  obtain ⟨z, r, e, rfl⟩ : ∃ (z : Fin 1) (r : Fin 256) (e : Fin 1024), x = ix3 z r e := ⟨x 0, x 1, x 2, eq_ix3 x⟩
  obtain rfl : z = 0 := Subsingleton.elim _ _
  rw [View.read_apply]
  show (outsAt3 (F := Ideal) V c t.val t.isLt).1 (ix3 (0 : Fin 1) r e) = ctxArr V c (((cfg3.win 3).blk t).view.emb (ix3 (0 : Fin 1) r e))
  rw [emb3 t r e]
  exact ctx_point V c t r e

/-- What the last point of a tile writes back to the averaged-weights array is its block of `avgArr`. -/
theorem flushed4_eq (c : Dev nD) (t : Fin cfg3.N) (hf : (cfg3.win 4).flush t = true) :
    (dat3 (F := Ideal) V c).flushed 4 t = ((cfg3.win 4).blk t).view.read (Elt Ideal) (avgArr V c) := by
  have h3 : t.val % 4 = 3 := (flush3_4 t).mp hf
  show (cfg3.win 4).cut (grid3.coords t) ((dat3 (F := Ideal) V c).after 4 t) = _
  rw [after3_4]
  funext x
  obtain ⟨j, r, s, rfl⟩ : ∃ (j : Fin 4) (r : Fin 256) (s : Fin 2048), x = ix3 j r s := ⟨x 0, x 1, x 2, eq_ix3 x⟩
  rw [View.read_apply]
  show (outsAt3 (F := Ideal) V c t.val t.isLt).2 (ix3 j r s) = avgArr V c (((cfg3.win 4).blk t).view.emb (ix3 j r s))
  rw [emb4 t j r s]
  refine (avg_point V c t.val t.isLt j r s).trans ?_
  have hb : (bOf t).val = 3 := h3
  show Attn.avgAcc _ _ j (rowOf t r) s (4 * ((bOf t).val + 1)) = Attn.avgAcc _ _ j (rowOf t r) s 16
  rw [hb]

/-- Every entry of the context array is in the block of a point: row u of batch row b in that of point 4·(u / 256) + b. -/
theorem cover3 (i : (⟨3, ![4, 2048, 1024]⟩ : Shape).Idx) :
    ∃ t : Fin cfg3.N, (cfg3.win 3).flush t = true ∧ i ∈ ((cfg3.win 3).blk t).view.set := by
  have h0 : (i 0).val < 4 := (i 0).isLt
  have h1 : (i 1).val < 2048 := (i 1).isLt
  have h2 : (i 2).val < 1024 := (i 2).isLt
  have hN : cfg3.N = 32 := N_3
  have ht : 4 * ((i 1).val / 256) + (i 0).val < cfg3.N := by rw [hN]; omega
  obtain ⟨-, -, -, -, -, -, -, -, -, e0, e1, e2, -⟩ := idx_facts ⟨4 * ((i 1).val / 256) + (i 0).val, ht⟩
  refine ⟨⟨4 * ((i 1).val / 256) + (i 0).val, ht⟩, flush3_3 _, ?_⟩
  show i ∈ ((View.whole main_v11_0).slice (win3_3.rect ⟨4 * ((i 1).val / 256) + (i 0).val, ht⟩)).set
  rw [View.set_slice_whole, Rect.mem_set_unit]
  intro a
  match a with
  | ⟨0, _⟩ =>
    show win3_3.index ⟨4 * ((i 1).val / 256) + (i 0).val, ht⟩ (0 : Fin 3) * 1 ≤ (i 0).val
      ∧ (i 0).val < win3_3.index ⟨4 * ((i 1).val / 256) + (i 0).val, ht⟩ (0 : Fin 3) * 1 + 1
    rw [e0]; dsimp only; omega
  | ⟨1, _⟩ =>
    show win3_3.index ⟨4 * ((i 1).val / 256) + (i 0).val, ht⟩ (1 : Fin 3) * 256 ≤ (i 1).val
      ∧ (i 1).val < win3_3.index ⟨4 * ((i 1).val / 256) + (i 0).val, ht⟩ (1 : Fin 3) * 256 + 256
    rw [e1]; dsimp only; omega
  | ⟨2, _⟩ =>
    show win3_3.index ⟨4 * ((i 1).val / 256) + (i 0).val, ht⟩ (2 : Fin 3) * 1024 ≤ (i 2).val
      ∧ (i 2).val < win3_3.index ⟨4 * ((i 1).val / 256) + (i 0).val, ht⟩ (2 : Fin 3) * 1024 + 1024
    rw [e2]; omega

/-- Every entry of the averaged-weights array is in the block written back at the last point of its tile:
    row u in that of point 4·(u / 256) + 3. -/
theorem cover4 (i : (⟨3, ![4, 2048, 2048]⟩ : Shape).Idx) :
    ∃ t : Fin cfg3.N, (cfg3.win 4).flush t = true ∧ i ∈ ((cfg3.win 4).blk t).view.set := by
  have h0 : (i 0).val < 4 := (i 0).isLt
  have h1 : (i 1).val < 2048 := (i 1).isLt
  have h2 : (i 2).val < 2048 := (i 2).isLt
  have hN : cfg3.N = 32 := N_3
  have ht : 4 * ((i 1).val / 256) + 3 < cfg3.N := by rw [hN]; omega
  obtain ⟨-, -, -, -, -, -, -, -, -, -, -, -, e0, e1, e2⟩ := idx_facts ⟨4 * ((i 1).val / 256) + 3, ht⟩
  refine ⟨⟨4 * ((i 1).val / 256) + 3, ht⟩, (flush3_4 _).mpr (by dsimp only; omega), ?_⟩
  show i ∈ ((View.whole main_v11_1).slice (win3_4.rect ⟨4 * ((i 1).val / 256) + 3, ht⟩)).set
  rw [View.set_slice_whole, Rect.mem_set_unit]
  intro a
  match a with
  | ⟨0, _⟩ =>
    show win3_4.index ⟨4 * ((i 1).val / 256) + 3, ht⟩ (0 : Fin 3) * 4 ≤ (i 0).val
      ∧ (i 0).val < win3_4.index ⟨4 * ((i 1).val / 256) + 3, ht⟩ (0 : Fin 3) * 4 + 4
    rw [e0]; omega
  | ⟨1, _⟩ =>
    show win3_4.index ⟨4 * ((i 1).val / 256) + 3, ht⟩ (1 : Fin 3) * 256 ≤ (i 1).val
      ∧ (i 1).val < win3_4.index ⟨4 * ((i 1).val / 256) + 3, ht⟩ (1 : Fin 3) * 256 + 256
    rw [e1]; dsimp only; omega
  | ⟨2, _⟩ =>
    show win3_4.index ⟨4 * ((i 1).val / 256) + 3, ht⟩ (2 : Fin 3) * 2048 ≤ (i 2).val
      ∧ (i 2).val < win3_4.index ⟨4 * ((i 1).val / 256) + 3, ht⟩ (2 : Fin 3) * 2048 + 2048
    rw [e2]; omega

/-- The context array after the attention call. -/
theorem ctx_arr (c : Dev nD) : (dat3 (F := Ideal) V c).arrAt 3 cfg3.N = ctxArr V c :=
  (dat3 (F := Ideal) V c).arrAt_eq_of_cover 3 (ctxArr V c) (fun t _ => flushed3_eq V c t) cover3

/-- The averaged-weights array after the attention call. -/
theorem avgw_arr (c : Dev nD) : (dat3 (F := Ideal) V c).arrAt 4 cfg3.N = avgArr V c :=
  (dat3 (F := Ideal) V c).arrAt_eq_of_cover 4 (avgArr V c) (flushed4_eq V c) cover4

/-- The context array after the attention call: entry (b, t, e). -/
theorem ctx_at (c : Dev nD) (b : Fin 4) (t : Fin 2048) (e : Fin 1024) :
    (dat3 (F := Ideal) V c).arrAt 3 cfg3.N (ix3 b t e)
      = Attn.ctx (Attn.actBT (V c main_v8)) (Attn.actBT (V c main_v9)) (Attn.actBT (V c main_v10)) b t e :=
  congrFun (ctx_arr V c) (ix3 b t e)

/-- The averaged-weights array after the attention call: entry (j, t, s) is the accumulation over all 16 pairs of group j. -/
theorem avgw_at (c : Dev nD) (j : Fin 4) (t s : Fin 2048) :
    (dat3 (F := Ideal) V c).arrAt 4 cfg3.N (ix3 j t s)
      = Attn.avgAcc (Attn.actBT (V c main_v8)) (Attn.actBT (V c main_v9)) j t s 16 :=
  congrFun (avgw_arr V c) (ix3 j t s)

end Cert.KernelIdeal.AttnGrid

end
-- ==== Proof.OutProjPayload.lean ====
/-
  The output projection's block, entry by entry.

  The body takes a batch-major block of the context, [4, 256, 1024] (batch row, position in the block, feature),
  swaps its two leading axes, lays the 256·4 (position, batch row) pairs out as the rows of a matrix, row 4·p + b,
  multiplies that matrix by the weight stored (input feature, output feature), adds the bias row to every row, and
  splits the rows again into (position, batch row). A format change is the identity on the extended reals. So entry
  (p, b, f) of the block is  Σ_e ctx(b, p, e) · w(e, f) + bias(f).
-/
import proofs.«179876_j77678778515968_2_alg».proof.Proof.Gen.KernelIdeal.Skeleton
import proofs.«179876_j77678778515968_2_alg».proof.Proof.LibPlainMatmul
import proofs.«179876_j77678778515968_2_alg».proof.Proof.LibFlattenBroadcast
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.OutProj

open Cert.KernelIdeal Cert.KernelIdeal.Gen

/-- Row 4·p + b of the 1024-row matrix the block is flattened to. -/
def flatRow (p : Fin 256) (b : Fin 4) : Fin 1024 := ⟨p.val * 4 + b.val, by omega⟩

set_option maxHeartbeats 400000 in
/-- Entry (p, b, f) of the body's stored block: the context row (b, p) against column f of the weight, plus the
    bias at f. -/
theorem payload_at (x0 : Vec Ideal S4x256x1024 .bf16) (x1 : Vec Ideal S1024x1024 .f32) (x2 : Vec Ideal S1x1024 .f32)
    (p : Fin 256) (b : Fin 4) (f : Fin 1024) :
    k4_pay1 (F := Ideal) x0 x1 x2 (ix3 p b f)
      = (∑ e : Fin 1024, x0 (ix3 b p e) * x1 (ix2 e f)) + x2 (ix2 (0 : Fin 1) f) := by
  unfold k4_pay1
  refine (Cert.LibFlattenBroadcast.shapeCast_nc_abc_apply (a := 256) (b := 4) (c := 1024) (n := 1024) _ _ p b f
    (flatRow p b) rfl).trans ?_
  refine (addf_apply _ _ _).trans ?_
  refine congrArg₂ (· + ·) ?_ ?_
  · refine (PlainMatmul.apply_zero (M := 1024) (K := 1024) (N := 1024) _ _ (flatRow p b) f).trans ?_
    refine Finset.sum_congr rfl fun e _ => ?_
    refine congrArg₂ (· * ·) ?_ ?_
    · refine (Cert.LibFlattenBroadcast.shapeCast_abc_nc_apply (a := 256) (b := 4) (c := 1024) (n := 1024) _ _ p b e
        (flatRow p b) rfl).trans ?_
      refine (transpose_apply _ _ _ (ix3 p b e) (ix3 b p e)
        (fun c => match c with | ⟨0, _⟩ => rfl | ⟨1, _⟩ => rfl | ⟨2, _⟩ => rfl)).trans ?_
      exact congrFun (shapeCast_self _ _) _
    · refine (truncf_apply (ψ := .bf16) _ bitsLt_bf16_f32 _).trans ?_
      exact congrFun (shapeCast_self _ _) _
  · refine (broadcastTo_1b_ab_apply _ _ (flatRow p b) f).trans ?_
    exact congrFun (shapeCast_self _ _) _

end Cert.KernelIdeal.OutProj

end
-- ==== Proof.OutProj.lean ====
/-
  The output projection call, from its blocks to its whole result array.

  The call walks the 2048 positions in 8 blocks of 256. At block i it reads positions 256·i … 256·i + 255 of every batch
  row of the batch-major context, the whole weight and the bias row, and writes the block's product plus bias to the same
  positions of the result [2048, 4, 1024]. The blocks written back are blocks of one function of the array's index and
  they cover the array, so the array ends holding that function: the last linear layer of the context, plus the bias.
-/
import proofs.«179876_j77678778515968_2_alg».proof.Proof.Gen.KernelIdeal.Frame
import proofs.«179876_j77678778515968_2_alg».proof.Proof.Spec
import proofs.«179876_j77678778515968_2_alg».proof.Proof.OutProjPayload
import Idealize.ShloMosaic.Lib.Pipeline.Value
import Idealize.ShloMosaic.Lib.ValueIdx
import Idealize.ShloMosaic.Lib.ValueLayout
import Idealize.ShloMosaic.PureOps.Ideal.Laws

/-!
  The output projection as a whole array.

  The call runs over 8 grid points. Point i reads rows 256·i … 256·i + 255 (on the position axis) of the batch-major
  context, all of the weight and all of the bias row, and writes rows 256·i … 256·i + 255 of the result. Entry
  (p, b, f) of the block it writes is the context row (b, 256·i + p) against column f of the weight plus the bias at
  f, so every block is the restriction of one function of the three arrays, and the 8 blocks cover the result.
-/

noncomputable section

open Idealize.ShloMosaic Idealize.ShloMosaic.TcCoe Idealize.SL.Sem Idealize.ShloMosaic.ValueIdx
open Idealize.ShloMosaic.Pipeline (Dat)

namespace Cert.KernelIdeal.OutProj

open Cert.KernelIdeal Cert.KernelIdeal.Gen

/-- The result array as one function of the context, the weight and the bias row. -/
def outArr (ctx : S4x2048x1024.Idx → EReal) (w : S1024x1024.Idx → EReal) (bias : S1x1024.Idx → EReal) :
    S2048x4x1024.Idx → EReal :=
  fun i => Attn.out (Attn.bte ctx) (Attn.wtT w) (Attn.row bias) (i 0) (i 1) (i 2)

set_option maxHeartbeats 400000 in
/-- A block entry is the result function's entry, when the loaded blocks agree with the arrays on the entries read:
    the context block's row (b, p) is the context's row (b, t), the weight block's column f and the bias block's
    entry f are the arrays'. -/
theorem block_entry (ctx : S4x2048x1024.Idx → EReal) (w : S1024x1024.Idx → EReal) (bias : S1x1024.Idx → EReal)
    (x0 : Vec Ideal S4x256x1024 .bf16) (x1 : Vec Ideal S1024x1024 .f32) (x2 : Vec Ideal S1x1024 .f32)
    (p : Fin 256) (b : Fin 4) (f : Fin 1024) (t : Fin 2048)
    (h0 : ∀ e : Fin 1024, x0 (ix3 b p e) = ctx (ix3 b t e))
    (h1 : ∀ e : Fin 1024, x1 (ix2 e f) = w (ix2 e f))
    (h2 : x2 (ix2 (0 : Fin 1) f) = bias (ix2 (0 : Fin 1) f)) :
    k4_pay1 (F := Ideal) x0 x1 x2 (ix3 p b f) = outArr ctx w bias (ix3 t b f) := by
  refine (payload_at x0 x1 x2 p b f).trans ?_
  show _ = (∑ e : Fin 1024, ctx (ix3 b t e) * w (ix2 e f)) + bias (ix2 (0 : Fin 1) f)
  rw [h2]
  refine congrArg (· + bias (ix2 (0 : Fin 1) f)) ?_
  refine Finset.sum_congr rfl fun e _ => ?_
  rw [h0 e, h1 e]

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the 8 grid points: the context's block moves along the position axis with the point,
    the weight and the bias stay, the result's block moves along its position axis with the point. -/
theorem idx_facts : ∀ t : Fin cfg4.N,
    win4_0.index t (0 : Fin 3) = 0 ∧ win4_0.index t (1 : Fin 3) = t.val ∧ win4_0.index t (2 : Fin 3) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 3) = t.val ∧ win4_3.index t (1 : Fin 3) = 0 ∧ win4_3.index t (2 : Fin 3) = 0 :=
  (by decide +kernel : ∀ t : Fin grid4.N, _)

variable (V : (c : Dev nD) → (b : Ref sig .tc) → Buf (Elt Ideal) ((c : Thread nD τ).loc b))

/-- The context window's block at point t is rows 256·t … 256·t + 255, on the position axis, of the context. -/
theorem ctx_block_apply (c : Dev nD) (t : Fin cfg4.N) (b : Fin 4) (p : Fin 256) (e : Fin 1024) (s : Fin 2048)
    (hs : s.val = t.val * 256 + p.val) :
    (iblk4 (F := Ideal) V c 0 t : Vec Ideal S4x256x1024 .bf16) (ix3 b p e)
      = (V c main_v11_0 : S4x2048x1024.Idx → EReal) (ix3 b s e) := by
  obtain ⟨e0, e1, e2, -⟩ := idx_facts t
  unfold iblk4
  rw [View.read_apply]
  show V c main_v11_0 _ = V c main_v11_0 _
  refine congrArg (V c main_v11_0) ?_
  funext a
  apply Fin.ext
  match a with
  | ⟨0, _⟩ => show win4_0.index t (0 : Fin 3) * 4 + 1 * b.val = b.val; rw [e0]; omega
  | ⟨1, _⟩ => show win4_0.index t (1 : Fin 3) * 256 + 1 * p.val = s.val; rw [e1, hs]; omega
  | ⟨2, _⟩ => show win4_0.index t (2 : Fin 3) * 1024 + 1 * e.val = e.val; rw [e2]; omega

/-- The weight window's block at every point is the whole weight. -/
theorem wt_block_apply (c : Dev nD) (t : Fin cfg4.N) (e f : Fin 1024) :
    (iblk4 (F := Ideal) V c 1 t : Vec Ideal S1024x1024 .f32) (ix2 e f)
      = (V c main_v3 : S1024x1024.Idx → EReal) (ix2 e f) := by
  obtain ⟨-, -, -, e3, e4, -⟩ := idx_facts t
  unfold iblk4
  rw [View.read_apply]
  show V c main_v3 _ = V c main_v3 _
  refine congrArg (V c main_v3) ?_
  funext a
  apply Fin.ext
  match a with
  | ⟨0, _⟩ => show win4_1.index t (0 : Fin 2) * 1024 + 1 * e.val = e.val; rw [e3]; omega
  | ⟨1, _⟩ => show win4_1.index t (1 : Fin 2) * 1024 + 1 * f.val = f.val; rw [e4]; omega

/-- The bias window's block at every point is the whole bias row. -/
theorem bias_block_apply (c : Dev nD) (t : Fin cfg4.N) (f : Fin 1024) :
    (iblk4 (F := Ideal) V c 2 t : Vec Ideal S1x1024 .f32) (ix2 (0 : Fin 1) f)
      = (V c main_v4 : S1x1024.Idx → EReal) (ix2 (0 : Fin 1) f) := by
  obtain ⟨-, -, -, -, -, e5, e6, -⟩ := idx_facts t
  unfold iblk4
  rw [View.read_apply]
  show V c main_v4 _ = V c main_v4 _
  refine congrArg (V c main_v4) ?_
  funext a
  apply Fin.ext
  match a with
  | ⟨0, _⟩ => show win4_2.index t (0 : Fin 2) * 1 + 1 * (0 : Fin 1).val = (0 : Fin 1).val; rw [e5]; rfl
  | ⟨1, _⟩ => show win4_2.index t (1 : Fin 2) * 1024 + 1 * f.val = f.val; rw [e6]; omega

/-- Entry (p, b, f) of the result window's block at point t sits at (256·t + p, b, f) of the result. -/
theorem out_block_emb (t : Fin cfg4.N) (p : Fin 256) (b : Fin 4) (f : Fin 1024) (s : Fin 2048)
    (hs : s.val = t.val * 256 + p.val) :
    ((cfg4.win 3).blk t).view.emb (ix3 p b f) = (ix3 s b f : S2048x4x1024.Idx) := by
  obtain ⟨-, -, -, -, -, -, -, e7, e8, e9⟩ := idx_facts t
  funext a
  apply Fin.ext
  match a with
  | ⟨0, _⟩ => show win4_3.index t (0 : Fin 3) * 256 + 1 * p.val = s.val; rw [e7, hs]; omega
  | ⟨1, _⟩ => show win4_3.index t (1 : Fin 3) * 4 + 1 * b.val = b.val; rw [e8]; omega
  | ⟨2, _⟩ => show win4_3.index t (2 : Fin 3) * 1024 + 1 * f.val = f.val; rw [e9]; omega

set_option maxHeartbeats 400000 in
/-- What point t writes back is block t of the result function of the arrays as the call finds them. -/
theorem flushed_eq (c : Dev nD) (t : Fin cfg4.N) :
    (dat4 (F := Ideal) V c).flushed 3 t
      = ((cfg4.win 3).blk t).view.read (Elt Ideal) (outArr (V c main_v11_0) (V c main_v3) (V c main_v4)) := by
  show (cfg4.win 3).cut (grid4.coords t) ((dat4 V c).after 3 t) = _
  rw [after4_3]
  unfold out4_3
  rw [View.canon_unit_zero hz3]
  simp only [View.ld_unit_zero (S := S4x256x1024) hz3, View.ld_unit_zero (S := S1024x1024) hz2,
    View.ld_unit_zero (S := S1x1024) hz2]
  refine funext fun (j : S256x4x1024.Idx) => ?_
  obtain ⟨p, b, f, rfl⟩ : ∃ (p : Fin 256) (b : Fin 4) (f : Fin 1024), j = ix3 p b f := ⟨j 0, j 1, j 2, eq_ix3 j⟩
  have ht : t.val < 8 := t.isLt.trans_eq N_4
  rw [View.read_apply, out_block_emb t p b f ⟨t.val * 256 + p.val, by omega⟩ rfl]
  exact block_entry (V c main_v11_0) (V c main_v3) (V c main_v4) (iblk4 V c 0 t) (iblk4 V c 1 t) (iblk4 V c 2 t) p b f
    ⟨t.val * 256 + p.val, by omega⟩
    (fun e => ctx_block_apply V c t b p e ⟨t.val * 256 + p.val, by omega⟩ rfl)
    (fun e => wt_block_apply V c t e f) (bias_block_apply V c t f)

/-- An index of the result is in point t's block iff each coordinate is in the block's range on its axis. -/
theorem mem_blk (t : Fin cfg4.N) (i : S2048x4x1024.Idx) :
    i ∈ ((cfg4.win 3).blk t).view.set ↔ ∀ a : Fin 3, win4_3.index t a * S256x4x1024.size a ≤ (i a).val
      ∧ (i a).val < win4_3.index t a * S256x4x1024.size a + S256x4x1024.size a := by
  show i ∈ ((View.whole main_v12).slice (win4_3.rect t)).set ↔ _
  rw [View.set_slice_whole, Rect.mem_set_unit]
  exact Iff.rfl

/-- The 8 blocks cover the result: position row r is in the block of point r / 256. -/
theorem cover (i : S2048x4x1024.Idx) :
    ∃ t : Fin cfg4.N, (cfg4.win 3).flush t = true ∧ i ∈ ((cfg4.win 3).blk t).view.set := by
  have h0 : (i 0).val < 2048 := (i 0).isLt
  have h1 : (i 1).val < 4 := (i 1).isLt
  have h2 : (i 2).val < 1024 := (i 2).isLt
  have hN : grid4.N = 8 := N_4
  obtain ⟨t, ht⟩ : ∃ t : Fin cfg4.N, t.val = (i 0).val / 256 :=
    ⟨⟨(i 0).val / 256, by show _ < grid4.N; rw [hN]; omega⟩, rfl⟩
  obtain ⟨-, -, -, -, -, -, -, e7, e8, e9⟩ := idx_facts t
  refine ⟨t, flush4_3 t, ?_⟩
  rw [mem_blk]
  intro a
  match a with
  | ⟨0, _⟩ =>
    show win4_3.index t (0 : Fin 3) * 256 ≤ (i 0).val ∧ (i 0).val < win4_3.index t (0 : Fin 3) * 256 + 256
    rw [e7, ht]; omega
  | ⟨1, _⟩ =>
    show win4_3.index t (1 : Fin 3) * 4 ≤ (i 1).val ∧ (i 1).val < win4_3.index t (1 : Fin 3) * 4 + 4
    rw [e8]; omega
  | ⟨2, _⟩ =>
    show win4_3.index t (2 : Fin 3) * 1024 ≤ (i 2).val ∧ (i 2).val < win4_3.index t (2 : Fin 3) * 1024 + 1024
    rw [e9]; omega

/-- So the result array ends holding the result function of the context, the weight and the bias row. -/
theorem out_array (c : Dev nD) :
    (dat4 (F := Ideal) V c).arrAt 3 cfg4.N = outArr (V c main_v11_0) (V c main_v3) (V c main_v4) :=
  (dat4 (F := Ideal) V c).arrAt_eq_of_cover 3 (outArr (V c main_v11_0) (V c main_v3) (V c main_v4))
    (fun t _ => flushed_eq V c t) cover

/-- What the output projection leaves in its result array: entry (t, b, f) is the batch-major context's row (b, t)
    against the transposed weight, plus the bias row. -/
theorem out_at (c : Dev nD) (t : Fin 2048) (b : Fin 4) (f : Fin 1024) :
    (dat4 (F := Ideal) V c).arrAt 3 cfg4.N (ix3 t b f)
      = Attn.out (Attn.bte (V c main_v11_0)) (Attn.wtT (V c main_v3)) (Attn.row (V c main_v4)) t b f := by
  rw [out_array V c]
  rfl

end Cert.KernelIdeal.OutProj

end
-- ==== Proof.KValue.lean ====
/-
  The kernel program's two results as functions of its arguments.

  The buffer contents at the boundaries of the five kernel regions are a fold: a region's result array holds what the
  region's write-backs leave, every other buffer what it held at the region's entry. Reading the fold back from the end:
  the output is the last region's result on the context, the transposed output weight and the bias row; the context and
  the averaged weights are the attention region's results on the three projections; each projection is its region's
  result on a flattened activation array and a transposed weight; and those are the arguments, by the host stretch.
-/
import proofs.«179876_j77678778515968_2_alg».proof.Proof.KHost
import proofs.«179876_j77678778515968_2_alg».proof.Proof.Proj0
import proofs.«179876_j77678778515968_2_alg».proof.Proof.Proj1
import proofs.«179876_j77678778515968_2_alg».proof.Proof.Proj2
import proofs.«179876_j77678778515968_2_alg».proof.Proof.AttnGrid
import proofs.«179876_j77678778515968_2_alg».proof.Proof.OutProj

noncomputable section

namespace Cert.KernelIdeal.KValue

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (ρ : Dev nD → PrngReg)

/-- The projected queries, keys and values of the arguments, and the context they give. -/
abbrev Q (c : Dev nD) : Attn.Act := Attn.qproj (Attn.act (m ((c : Thread nD τ).loc main_arg0))) (Attn.wt (m ((c : Thread nD τ).loc main_arg3)))
abbrev K (c : Dev nD) : Attn.Act := Attn.lin (Attn.act (m ((c : Thread nD τ).loc main_arg1))) (Attn.wt (m ((c : Thread nD τ).loc main_arg4)))
abbrev Vv (c : Dev nD) : Attn.Act := Attn.lin (Attn.act (m ((c : Thread nD τ).loc main_arg2))) (Attn.wt (m ((c : Thread nD τ).loc main_arg5)))

/-! ## The buffers a later region reads, walked back to where they were written -/

theorem V2_v6 (c : Dev nD) : V2 m ρ c main_v6 = V1 m ρ c main_v6 := W2_of_ne m ρ c main_v6 (by decide)
theorem V2_v1 (c : Dev nD) : V2 m ρ c main_v1 = V1 m ρ c main_v1 := W2_of_ne m ρ c main_v1 (by decide)
theorem V3_v7 (c : Dev nD) : V3 m ρ c main_v7 = V1 m ρ c main_v7 :=
  (W3_of_ne m ρ c main_v7 (by decide)).trans (W2_of_ne m ρ c main_v7 (by decide))
theorem V3_v2 (c : Dev nD) : V3 m ρ c main_v2 = V1 m ρ c main_v2 :=
  (W3_of_ne m ρ c main_v2 (by decide)).trans (W2_of_ne m ρ c main_v2 (by decide))
theorem V4_v8 (c : Dev nD) : V4 m ρ c main_v8 = (dat0 (V1 m ρ) c).arrAt 2 cfg0.N :=
  (W4_of_ne m ρ c main_v8 (by decide)).trans ((W3_of_ne m ρ c main_v8 (by decide)).trans (W2_arr m ρ c 2))
theorem V4_v9 (c : Dev nD) : V4 m ρ c main_v9 = (dat1 (V2 m ρ) c).arrAt 2 cfg1.N :=
  (W4_of_ne m ρ c main_v9 (by decide)).trans (W3_arr m ρ c 2)
theorem V4_v10 (c : Dev nD) : V4 m ρ c main_v10 = (dat2 (V3 m ρ) c).arrAt 2 cfg2.N := W4_arr m ρ c 2
theorem V5_v11_0 (c : Dev nD) : V5 m ρ c main_v11_0 = (dat3 (V4 m ρ) c).arrAt 3 cfg3.N := W5_arr m ρ c 3
theorem V5_v3 (c : Dev nD) : V5 m ρ c main_v3 = V1 m ρ c main_v3 :=
  (W5_of_ne m ρ c main_v3 (by decide)).trans ((W4_of_ne m ρ c main_v3 (by decide)).trans
    ((W3_of_ne m ρ c main_v3 (by decide)).trans (W2_of_ne m ρ c main_v3 (by decide))))
theorem V5_v4 (c : Dev nD) : V5 m ρ c main_v4 = V1 m ρ c main_v4 :=
  (W5_of_ne m ρ c main_v4 (by decide)).trans ((W4_of_ne m ρ c main_v4 (by decide)).trans
    ((W3_of_ne m ρ c main_v4 (by decide)).trans (W2_of_ne m ρ c main_v4 (by decide))))
theorem W6_v12 (c : Dev nD) : W6 m ρ c (Proc.devRef .tc main_v12) = (dat4 (V5 m ρ) c).arrAt 3 cfg4.N := W6_arr m ρ c 3
theorem W6_v11_1 (c : Dev nD) : W6 m ρ c (Proc.devRef .tc main_v11_1) = (dat3 (V4 m ρ) c).arrAt 4 cfg3.N :=
  (W6_of_ne m ρ c main_v11_1 (by decide)).trans (W5_arr m ρ c 4)

/-! ## The three projections -/

theorem q_eq (c : Dev nD) : Attn.actBT (V4 m ρ c main_v8) = Q m c := by
  funext t b f
  show V4 m ρ c main_v8 (ix3 b t f) = _
  rw [V4_v8, Proj0.proj0_at, KHost.xq, KHost.wq]

theorem k_eq (c : Dev nD) : Attn.actBT (V4 m ρ c main_v9) = K m c := by
  funext t b f
  show V4 m ρ c main_v9 (ix3 b t f) = _
  rw [V4_v9, Proj1.proj1_at, V2_v6, V2_v1, KHost.xk, KHost.wk]

theorem v_eq (c : Dev nD) : Attn.actBT (V4 m ρ c main_v10) = Vv m c := by
  funext t b f
  show V4 m ρ c main_v10 (ix3 b t f) = _
  rw [V4_v10, Proj2.proj2_at, V3_v7, V3_v2, KHost.xv, KHost.wv]

/-! ## The two results -/

/-- The first result at (t, b, f): the attention output of the arguments. -/
theorem out_eq (c : Dev nD) (t : Fin 2048) (b : Fin 4) (f : Fin 1024) :
    W6 m ρ c (Proc.devRef .tc main_v12) (ix3 t b f)
      = Attn.out (Attn.ctx (Q m c) (K m c) (Vv m c)) (Attn.wt (m ((c : Thread nD τ).loc main_arg6)))
          (Attn.vec (m ((c : Thread nD τ).loc main_arg7))) t b f := by
  rw [W6_v12, OutProj.out_at, V5_v3, V5_v4, KHost.wo, KHost.bo]
  have hc : Attn.bte (V5 m ρ c main_v11_0) = Attn.ctx (Q m c) (K m c) (Vv m c) := by
    funext b t e
    show V5 m ρ c main_v11_0 (ix3 b t e) = _
    rw [V5_v11_0, AttnGrid.ctx_at, q_eq, k_eq, v_eq]
  rw [hc]

/-- The second result at (j, t, s): the averaged weights of the arguments, as the accumulation. -/
theorem avg_eq (c : Dev nD) (j : Fin 4) (t s : Fin 2048) :
    W6 m ρ c (Proc.devRef .tc main_v11_1) (ix3 j t s) = Attn.avgAcc (Q m c) (K m c) j t s 16 := by
  rw [W6_v11_1, AttnGrid.avgw_at, q_eq, k_eq]

end Cert.KernelIdeal.KValue

end
-- ==== Proof.RefValueScores.lean ====
/-
  The reference's attention weights, entry by entry. The reference projects the query (scaled by 1/8), key and value
  activations, splits the 1024 features into 16 heads of 64 by reshaping [2048, 4, 1024] to [2048, 64, 64] and moving
  the pair axis n = 16·b + h (b the batch row, h the head) to the front, takes for each pair the scores of every query
  position against every key position, and turns each row of scores into weights by the stable softmax. This module
  reads each of those stages at an index and identifies it with the specification's entry-by-entry definition.
-/
import proofs.«179876_j77678778515968_2_alg».proof.Proof.Gen.ReferenceIdeal.Run
import proofs.«179876_j77678778515968_2_alg».proof.Proof.Gen.ReferenceIdeal.Read
import proofs.«179876_j77678778515968_2_alg».proof.Proof.Spec
import proofs.«179876_j77678778515968_2_alg».proof.Proof.LibRowReduce
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx

namespace Cert.ReferenceIdeal.RefValue

open Cert.ReferenceIdeal Cert.ReferenceIdeal.Gen

/-- An activation array [2048, 4, 1024] (f32 contents at the exact values). -/
abbrev ActC := (⟨S2048x4x1024, .f32⟩ : BufTy).Contents (Elt Ideal)
/-- A weight matrix [1024, 1024]. -/
abbrev WtC := (⟨S1024x1024, .f32⟩ : BufTy).Contents (Elt Ideal)

/-- A linear layer's stage at (t, b, f): the sum over the input features. -/
theorem lin0_at (x0 : ActC) (x3 : WtC) (t : Fin 2048) (b : Fin 4) (f : Fin 1024) :
    Read.val_main_v0 x0 x3 (ix3 t b f) = Attn.lin (Attn.act x0) (Attn.wt x3) t b f := by
  rw [Read.val_main_v0_apply]
  refine Finset.sum_congr rfl fun k _ => ?_
  have el : Read.lidx_main_v0 (ix3 t b f) k = ix3 t b k :=
    funext fun a => Fin.ext (by match a with | ⟨0, _⟩ => rfl | ⟨1, _⟩ => rfl | ⟨2, _⟩ => rfl)
  have er : Read.ridx_main_v0 (ix3 t b f) k = ix2 f k :=
    funext fun a => Fin.ext (by match a with | ⟨0, _⟩ => rfl | ⟨1, _⟩ => rfl)
  rw [el, er]
  rfl

theorem lin3_at (x1 : ActC) (x4 : WtC) (t : Fin 2048) (b : Fin 4) (f : Fin 1024) :
    Read.val_main_v3 x1 x4 (ix3 t b f) = Attn.lin (Attn.act x1) (Attn.wt x4) t b f := by
  rw [Read.val_main_v3_apply]
  refine Finset.sum_congr rfl fun k _ => ?_
  have el : Read.lidx_main_v3 (ix3 t b f) k = ix3 t b k :=
    funext fun a => Fin.ext (by match a with | ⟨0, _⟩ => rfl | ⟨1, _⟩ => rfl | ⟨2, _⟩ => rfl)
  have er : Read.ridx_main_v3 (ix3 t b f) k = ix2 f k :=
    funext fun a => Fin.ext (by match a with | ⟨0, _⟩ => rfl | ⟨1, _⟩ => rfl)
  rw [el, er]
  rfl

/-- The scaled query projection's stage at (t, b, f). -/
theorem q2_at (x0 : ActC) (x3 : WtC) (t : Fin 2048) (b : Fin 4) (f : Fin 1024) :
    Read.val_main_v2 x0 x3 (ix3 t b f) = Attn.qproj (Attn.act x0) (Attn.wt x3) t b f := by
  rw [Read.val_main_v2_apply, lin0_at, Read.val_main_v1_apply, Read.val_main_cst_apply]
  rfl

/-- The index algebra of the head split: with n = 16·b + h, entry (t, n, d) of the [2048, 64, 64] view is entry
    (t, b, 64·h + d) of the [2048, 4, 1024] array. -/
theorem split_idx (i : S2048x64x64.Idx → S2048x4x1024.Idx)
    (hi : ∀ j, i j = fun a => match a with
      | ⟨0, _⟩ => ⟨(((j 0).val * 64 + (j 1).val) * 64 + (j 2).val) / 4096, by have h0 : (j 0).val < 2048 := (j 0).isLt; have h1 : (j 1).val < 64 := (j 1).isLt; have h2 : (j 2).val < 64 := (j 2).isLt; show (((j 0).val * 64 + (j 1).val) * 64 + (j 2).val) / 4096 < 2048; omega⟩
      | ⟨1, _⟩ => ⟨(((j 0).val * 64 + (j 1).val) * 64 + (j 2).val) / 1024 % 4, by have h0 : (j 0).val < 2048 := (j 0).isLt; have h1 : (j 1).val < 64 := (j 1).isLt; have h2 : (j 2).val < 64 := (j 2).isLt; show (((j 0).val * 64 + (j 1).val) * 64 + (j 2).val) / 1024 % 4 < 4; omega⟩
      | ⟨2, _⟩ => ⟨(((j 0).val * 64 + (j 1).val) * 64 + (j 2).val) % 1024, by have h0 : (j 0).val < 2048 := (j 0).isLt; have h1 : (j 1).val < 64 := (j 1).isLt; have h2 : (j 2).val < 64 := (j 2).isLt; show (((j 0).val * 64 + (j 1).val) * 64 + (j 2).val) % 1024 < 1024; omega⟩)
    (t : Fin 2048) (n : Fin 64) (d : Fin 64) (b : Fin 4) (h : Fin 16) (hn : n.val = b.val * 16 + h.val) :
    i (ix3 t n d) = ix3 t b (Attn.col h d) := by
  rw [hi]
  have ht := t.isLt; have hd := d.isLt; have hb := b.isLt; have hh := h.isLt
  refine funext fun a => Fin.ext ?_
  match a with
  | ⟨0, _⟩ => show ((t.val * 64 + n.val) * 64 + d.val) / 4096 = t.val; omega
  | ⟨1, _⟩ => show ((t.val * 64 + n.val) * 64 + d.val) / 1024 % 4 = b.val; omega
  | ⟨2, _⟩ => show ((t.val * 64 + n.val) * 64 + d.val) % 1024 = h.val * 64 + d.val; omega

theorem idx5_at (t : Fin 2048) (n : Fin 64) (d : Fin 64) (b : Fin 4) (h : Fin 16) (hn : n.val = b.val * 16 + h.val) :
    Read.idx_main_v5 (ix3 t n d) = ix3 t b (Attn.col h d) := split_idx Read.idx_main_v5 (fun _ => rfl) t n d b h hn
theorem idx7_at (t : Fin 2048) (n : Fin 64) (d : Fin 64) (b : Fin 4) (h : Fin 16) (hn : n.val = b.val * 16 + h.val) :
    Read.idx_main_v7 (ix3 t n d) = ix3 t b (Attn.col h d) := split_idx Read.idx_main_v7 (fun _ => rfl) t n d b h hn
theorem idx9_at (t : Fin 2048) (n : Fin 64) (d : Fin 64) (b : Fin 4) (h : Fin 16) (hn : n.val = b.val * 16 + h.val) :
    Read.idx_main_v9 (ix3 t n d) = ix3 t b (Attn.col h d) := split_idx Read.idx_main_v9 (fun _ => rfl) t n d b h hn

/-- The queries of pair n = 16·b + h: entry (n, t, d) is the scaled query projection at (t, b, 64·h + d). -/
theorem q6_at (x0 : ActC) (x3 : WtC) (n : Fin 64) (t : Fin 2048) (d : Fin 64) (b : Fin 4) (h : Fin 16)
    (hn : n.val = b.val * 16 + h.val) :
    Read.val_main_v6 x0 x3 (ix3 n t d) = Attn.qproj (Attn.act x0) (Attn.wt x3) t b (Attn.col h d) := by
  have e6 : Read.idx_main_v6 (ix3 n t d) = ix3 t n d :=
    funext fun a => Fin.ext (by match a with | ⟨0, _⟩ => rfl | ⟨1, _⟩ => rfl | ⟨2, _⟩ => rfl)
  rw [Read.val_main_v6_apply, e6, Read.val_main_v5_apply, idx5_at t n d b h hn, q2_at]

/-- The keys of pair n = 16·b + h: entry (n, s, d) is the key projection at (s, b, 64·h + d). -/
theorem k8_at (x1 : ActC) (x4 : WtC) (n : Fin 64) (s : Fin 2048) (d : Fin 64) (b : Fin 4) (h : Fin 16)
    (hn : n.val = b.val * 16 + h.val) :
    Read.val_main_v8 x1 x4 (ix3 n s d) = Attn.lin (Attn.act x1) (Attn.wt x4) s b (Attn.col h d) := by
  have e8 : Read.idx_main_v8 (ix3 n s d) = ix3 s n d :=
    funext fun a => Fin.ext (by match a with | ⟨0, _⟩ => rfl | ⟨1, _⟩ => rfl | ⟨2, _⟩ => rfl)
  rw [Read.val_main_v8_apply, e8, Read.val_main_v7_apply, idx7_at s n d b h hn, lin3_at]

/-- The scores of pair n = 16·b + h at (t, s). -/
theorem score_at (x0 x1 : ActC) (x3 x4 : WtC) (n : Fin 64) (t s : Fin 2048) (b : Fin 4) (h : Fin 16)
    (hn : n.val = b.val * 16 + h.val) :
    Read.val_main_v11 x0 x1 x3 x4 (ix3 n t s)
      = Attn.score (Attn.qproj (Attn.act x0) (Attn.wt x3)) (Attn.lin (Attn.act x1) (Attn.wt x4)) b h t s := by
  rw [Read.val_main_v11_apply]
  unfold Attn.score
  refine Finset.sum_congr rfl fun k _ => ?_
  have el : Read.lidx_main_v11 (ix3 n t s) k = ix3 n t k :=
    funext fun a => Fin.ext (by match a with | ⟨0, _⟩ => rfl | ⟨1, _⟩ => rfl | ⟨2, _⟩ => rfl)
  have er : Read.ridx_main_v11 (ix3 n t s) k = ix3 n s k :=
    funext fun a => Fin.ext (by match a with | ⟨0, _⟩ => rfl | ⟨1, _⟩ => rfl | ⟨2, _⟩ => rfl)
  rw [el, er, q6_at x0 x3 n t k b h hn, k8_at x1 x4 n s k b h hn]

/-- The index the reduction over the key axis reads at row (n, t) and position k is (n, t, k). -/
theorem lift3_eq (hr : S64x2048x2048.Reduces [2] S64x2048) (n : Fin 64) (t : Fin 2048) (k : Fin 2048) :
    hr.lift (ix2 n t) k = ix3 n t k :=
  funext fun a => Fin.ext (by match a with | ⟨0, _⟩ => rfl | ⟨1, _⟩ => rfl | ⟨2, _⟩ => rfl)

/-- The host's maximum over the key axis of a [64, 2048, 2048] array, at row (n, t): the fold of max over that row from
    the initial value. -/
theorem hostMax3_at {u : Shape} (x : FVec Ideal S64x2048x2048 .f32) (init : FVec Ideal u .f32)
    (h' : S64x2048x2048.ReducesTo [2] S64x2048) (hu : 0 < u.numel) (n : Fin 64) (t : Fin 2048) :
    Host.reduce (FloatOps.maximumf (F := Ideal) (φ := .f32)) x init h' hu (ix2 n t)
      = (Finset.univ : Finset (Fin 2048)).fold max (init (Shape.Idx.first hu)) (fun k => x (ix3 n t k)) := by
  have hr : S64x2048x2048.Reduces [2] S64x2048 := by decide
  refine (Host.reduce_eq_fold_single (FloatOps.maximumf (F := Ideal) (φ := .f32)) x init h' hr hu (ix2 n t)).trans ?_
  exact congrArg (Finset.fold max (init (Shape.Idx.first hu)) · (Finset.univ : Finset (Fin 2048)))
    (funext fun k => congrArg x (lift3_eq hr n t k))

/-- The row maxima of pair n = 16·b + h at t. -/
theorem rowMax_at (x0 x1 : ActC) (x3 x4 : WtC) (n : Fin 64) (t : Fin 2048) (b : Fin 4) (h : Fin 16)
    (hn : n.val = b.val * 16 + h.val) :
    Read.val_main_v14 x0 x1 x3 x4 (ix2 n t)
      = Attn.rowMax (Attn.qproj (Attn.act x0) (Attn.wt x3)) (Attn.lin (Attn.act x1) (Attn.wt x4)) b h t := by
  have h12 : Read.val_main_v12 x0 x1 x3 x4 (ix2 n t)
      = Attn.rowMax (Attn.qproj (Attn.act x0) (Attn.wt x3)) (Attn.lin (Attn.act x1) (Attn.wt x4)) b h t := by
    unfold Read.val_main_v12 Attn.rowMax
    have hs : ∀ s, Read.val_main_v11 x0 x1 x3 x4 (ix3 n t s)
        = Attn.score (Attn.qproj (Attn.act x0) (Attn.wt x3)) (Attn.lin (Attn.act x1) (Attn.wt x4)) b h t s :=
      fun s => score_at x0 x1 x3 x4 n t s b h hn
    generalize Read.val_main_v11 (F := Ideal) x0 x1 x3 x4 = y at hs ⊢
    rw [hostMax3_at y _ _ _ n t]
    refine congrArg₂ (fun m₀ g => Finset.fold max m₀ g (Finset.univ : Finset (Fin 2048))) ?_ (funext hs)
    rfl
  rw [Read.val_main_v14_apply, h12, Read.val_main_v13_apply, Read.val_main_cst_1_apply]
  exact RowReduce.max_fold_self _ _ _

/-- The exponentials of pair n = 16·b + h at (t, s). -/
theorem pexp_at (x0 x1 : ActC) (x3 x4 : WtC) (n : Fin 64) (t s : Fin 2048) (b : Fin 4) (h : Fin 16)
    (hn : n.val = b.val * 16 + h.val) :
    Read.val_main_v18 x0 x1 x3 x4 (ix3 n t s)
      = Attn.pexp (Attn.qproj (Attn.act x0) (Attn.wt x3)) (Attn.lin (Attn.act x1) (Attn.wt x4)) b h t s := by
  have e16 : Read.idx_main_v16 (ix3 n t s) = ix3 n t (0 : Fin 1) :=
    funext fun a => Fin.ext (by match a with | ⟨0, _⟩ => rfl | ⟨1, _⟩ => rfl | ⟨2, _⟩ => rfl)
  have e15 : Read.idx_main_v15 (ix3 n t (0 : Fin 1)) = ix2 n t :=
    funext fun a => Fin.ext (by match a with | ⟨0, _⟩ => rfl | ⟨1, _⟩ => rfl)
  rw [Read.val_main_v18_apply, Read.val_main_v17_apply, Read.val_main_v16_apply, e16, Read.val_main_v15_apply, e15,
    rowMax_at x0 x1 x3 x4 n t b h hn, score_at x0 x1 x3 x4 n t s b h hn]
  rfl

/-- The row sums of pair n = 16·b + h at t. -/
theorem rowSum_at (x0 x1 : ActC) (x3 x4 : WtC) (n : Fin 64) (t : Fin 2048) (b : Fin 4) (h : Fin 16)
    (hn : n.val = b.val * 16 + h.val) :
    Read.val_main_v19 x0 x1 x3 x4 (ix2 n t)
      = Attn.rowSum (Attn.qproj (Attn.act x0) (Attn.wt x3)) (Attn.lin (Attn.act x1) (Attn.wt x4)) b h t := by
  rw [Read.val_main_v19_apply, Read.val_main_cst_2_apply]
  unfold Attn.rowSum
  rw [Ideal.ofBits_def, Ideal.ofBits_zero_f32, zero_add]
  refine Finset.sum_congr rfl fun k _ => ?_
  have e19 : Read.idx_main_v19 (ix2 n t) k = ix3 n t k :=
    funext fun a => Fin.ext (by match a with | ⟨0, _⟩ => rfl | ⟨1, _⟩ => rfl | ⟨2, _⟩ => rfl)
  rw [e19, pexp_at x0 x1 x3 x4 n t k b h hn]

/-- The attention weights of pair n = 16·b + h at (t, s). -/
theorem prob_at (x0 x1 : ActC) (x3 x4 : WtC) (n : Fin 64) (t s : Fin 2048) (b : Fin 4) (h : Fin 16)
    (hn : n.val = b.val * 16 + h.val) :
    Read.val_main_v22 x0 x1 x3 x4 (ix3 n t s)
      = Attn.prob (Attn.qproj (Attn.act x0) (Attn.wt x3)) (Attn.lin (Attn.act x1) (Attn.wt x4)) b h t s := by
  have e21 : Read.idx_main_v21 (ix3 n t s) = ix3 n t (0 : Fin 1) :=
    funext fun a => Fin.ext (by match a with | ⟨0, _⟩ => rfl | ⟨1, _⟩ => rfl | ⟨2, _⟩ => rfl)
  have e20 : Read.idx_main_v20 (ix3 n t (0 : Fin 1)) = ix2 n t :=
    funext fun a => Fin.ext (by match a with | ⟨0, _⟩ => rfl | ⟨1, _⟩ => rfl)
  rw [Read.val_main_v22_apply, Read.val_main_v21_apply, e21, Read.val_main_v20_apply, e20,
    rowSum_at x0 x1 x3 x4 n t b h hn, pexp_at x0 x1 x3 x4 n t s b h hn]
  rfl

end Cert.ReferenceIdeal.RefValue

end
-- ==== Proof.RefValue.lean ====
/-
  The reference's two results, entry by entry. The context of pair n = 16·b + h is the weighted sum over key positions
  of the pair's value features; moving the pair axis back and merging [2048, 64, 64] into [2048, 4, 1024] puts feature
  d of head h at feature 64·h + d of batch row b, so the merged context at (t, b, e) is the specification's context with
  the head e / 64; the last linear layer and the bias give the first result. The second result regroups the 64 pairs as
  [16, 4]: pair 4·g + j is batch row g / 4 and head 4·(g mod 4) + j, and the sum over g from zero divided by 16 is the
  specification's average.
-/
import proofs.«179876_j77678778515968_2_alg».proof.Proof.Gen.ReferenceIdeal.Run
import proofs.«179876_j77678778515968_2_alg».proof.Proof.Gen.ReferenceIdeal.Read
import proofs.«179876_j77678778515968_2_alg».proof.Proof.Spec
import proofs.«179876_j77678778515968_2_alg».proof.Proof.RefValueScores
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx

namespace Cert.ReferenceIdeal.RefValue

open Cert.ReferenceIdeal Cert.ReferenceIdeal.Gen

/-- The value projection's stage at (s, b, f). -/
theorem lin4_at (x2 : ActC) (x5 : WtC) (t : Fin 2048) (b : Fin 4) (f : Fin 1024) :
    Read.val_main_v4 x2 x5 (ix3 t b f) = Attn.lin (Attn.act x2) (Attn.wt x5) t b f := by
  rw [Read.val_main_v4_apply]
  refine Finset.sum_congr rfl fun k _ => ?_
  have el : Read.lidx_main_v4 (ix3 t b f) k = ix3 t b k :=
    funext fun a => Fin.ext (by match a with | ⟨0, _⟩ => rfl | ⟨1, _⟩ => rfl | ⟨2, _⟩ => rfl)
  have er : Read.ridx_main_v4 (ix3 t b f) k = ix2 f k :=
    funext fun a => Fin.ext (by match a with | ⟨0, _⟩ => rfl | ⟨1, _⟩ => rfl)
  rw [el, er]
  rfl

/-- The values of pair n = 16·b + h: entry (n, s, d) is the value projection at (s, b, 64·h + d). -/
theorem v10_at (x2 : ActC) (x5 : WtC) (n : Fin 64) (s : Fin 2048) (d : Fin 64) (b : Fin 4) (h : Fin 16)
    (hn : n.val = b.val * 16 + h.val) :
    Read.val_main_v10 x2 x5 (ix3 n s d) = Attn.lin (Attn.act x2) (Attn.wt x5) s b (Attn.col h d) := by
  have e10 : Read.idx_main_v10 (ix3 n s d) = ix3 s n d :=
    funext fun a => Fin.ext (by match a with | ⟨0, _⟩ => rfl | ⟨1, _⟩ => rfl | ⟨2, _⟩ => rfl)
  rw [Read.val_main_v10_apply, e10, Read.val_main_v9_apply, idx9_at s n d b h hn, lin4_at]

/-- The context of pair n = 16·b + h at (t, d): the weighted sum of the pair's value features. -/
theorem ctx23_at (x0 x1 x2 : ActC) (x3 x4 x5 : WtC) (n : Fin 64) (t : Fin 2048) (d : Fin 64) (b : Fin 4) (h : Fin 16)
    (hn : n.val = b.val * 16 + h.val) :
    Read.val_main_v23 x0 x1 x2 x3 x4 x5 (ix3 n t d)
      = ∑ s : Fin 2048, Attn.prob (Attn.qproj (Attn.act x0) (Attn.wt x3)) (Attn.lin (Attn.act x1) (Attn.wt x4)) b h t s
          * Attn.lin (Attn.act x2) (Attn.wt x5) s b (Attn.col h d) := by
  rw [Read.val_main_v23_apply]
  refine Finset.sum_congr rfl fun k _ => ?_
  have el : Read.lidx_main_v23 (ix3 n t d) k = ix3 n t k :=
    funext fun a => Fin.ext (by match a with | ⟨0, _⟩ => rfl | ⟨1, _⟩ => rfl | ⟨2, _⟩ => rfl)
  have er : Read.ridx_main_v23 (ix3 n t d) k = ix3 n k d :=
    funext fun a => Fin.ext (by match a with | ⟨0, _⟩ => rfl | ⟨1, _⟩ => rfl | ⟨2, _⟩ => rfl)
  rw [el, er, prob_at x0 x1 x3 x4 n t k b h hn, v10_at x2 x5 n k d b h hn]

/-- Feature e is feature e mod 64 of head e / 64. -/
theorem col_headOf (e : Fin 1024) : Attn.col (Attn.headOf e) (⟨e.val % 64, Nat.mod_lt _ (by decide)⟩ : Fin 64) = e :=
  Fin.ext (by show e.val / 64 * 64 + e.val % 64 = e.val; omega)

/-- The merged context at (t, b, e). -/
theorem ctx25_at (x0 x1 x2 : ActC) (x3 x4 x5 : WtC) (t : Fin 2048) (b : Fin 4) (e : Fin 1024) :
    Read.val_main_v25 x0 x1 x2 x3 x4 x5 (ix3 t b e)
      = Attn.ctx (Attn.qproj (Attn.act x0) (Attn.wt x3)) (Attn.lin (Attn.act x1) (Attn.wt x4))
          (Attn.lin (Attn.act x2) (Attn.wt x5)) b t e := by
  have hb := b.isLt; have he := e.isLt; have ht := t.isLt
  have hnlt : b.val * 16 + e.val / 64 < 64 := by omega
  have e25 : Read.idx_main_v25 (ix3 t b e)
      = ix3 t (⟨b.val * 16 + e.val / 64, hnlt⟩ : Fin 64) (⟨e.val % 64, Nat.mod_lt _ (by decide)⟩ : Fin 64) :=
    funext fun a => Fin.ext (by
      match a with
      | ⟨0, _⟩ => show ((t.val * 4 + b.val) * 1024 + e.val) / 4096 = t.val; omega
      | ⟨1, _⟩ => show ((t.val * 4 + b.val) * 1024 + e.val) / 64 % 64 = b.val * 16 + e.val / 64; omega
      | ⟨2, _⟩ => show ((t.val * 4 + b.val) * 1024 + e.val) % 64 = e.val % 64; omega)
  have e24 : Read.idx_main_v24 (ix3 t (⟨b.val * 16 + e.val / 64, hnlt⟩ : Fin 64) (⟨e.val % 64, Nat.mod_lt _ (by decide)⟩ : Fin 64))
      = ix3 (⟨b.val * 16 + e.val / 64, hnlt⟩ : Fin 64) t (⟨e.val % 64, Nat.mod_lt _ (by decide)⟩ : Fin 64) :=
    funext fun a => Fin.ext (by match a with | ⟨0, _⟩ => rfl | ⟨1, _⟩ => rfl | ⟨2, _⟩ => rfl)
  rw [Read.val_main_v25_apply, e25, Read.val_main_v24_apply, e24,
    ctx23_at x0 x1 x2 x3 x4 x5 _ t _ b (Attn.headOf e) rfl, col_headOf]
  rfl

/-- The reference's first result at (t, b, f): the attention output. -/
theorem ref_out_at (x0 x1 x2 : (⟨S2048x4x1024, .f32⟩ : BufTy).Contents (Elt Ideal)) (x3 x4 x5 x6 : (⟨S1024x1024, .f32⟩ : BufTy).Contents (Elt Ideal))
    (x7 : (⟨S1024, .f32⟩ : BufTy).Contents (Elt Ideal)) (t : Fin 2048) (b : Fin 4) (f : Fin 1024) :
    Read.val_main_v29 x0 x1 x2 x3 x4 x5 x6 x7 (ix3 t b f)
      = Attn.out (Attn.ctx (Attn.qproj (Attn.act x0) (Attn.wt x3)) (Attn.lin (Attn.act x1) (Attn.wt x4)) (Attn.lin (Attn.act x2) (Attn.wt x5)))
          (Attn.wt x6) (Attn.vec x7) t b f := by
  have e28 : Read.idx_main_v27 (Read.idx_main_v28 (ix3 t b f)) = ix1 f :=
    funext fun a => Fin.ext (by match a with | ⟨0, _⟩ => rfl)
  have h26 : Read.val_main_v26 x0 x1 x2 x3 x4 x5 x6 (ix3 t b f)
      = ∑ e : Fin 1024, Attn.ctx (Attn.qproj (Attn.act x0) (Attn.wt x3)) (Attn.lin (Attn.act x1) (Attn.wt x4))
          (Attn.lin (Attn.act x2) (Attn.wt x5)) b t e * Attn.wt x6 f e := by
    rw [Read.val_main_v26_apply]
    refine Finset.sum_congr rfl fun k _ => ?_
    have el : Read.lidx_main_v26 (ix3 t b f) k = ix3 t b k :=
      funext fun a => Fin.ext (by match a with | ⟨0, _⟩ => rfl | ⟨1, _⟩ => rfl | ⟨2, _⟩ => rfl)
    have er : Read.ridx_main_v26 (ix3 t b f) k = ix2 f k :=
      funext fun a => Fin.ext (by match a with | ⟨0, _⟩ => rfl | ⟨1, _⟩ => rfl)
    rw [el, er, ctx25_at]
    rfl
  rw [Read.val_main_v29_apply, h26, Read.val_main_v28_apply, Read.val_main_v27_apply, e28]
  rfl

/-- Pair 4·g + j of the [16, 4] regrouping, at (t, s): the weight of batch row g / 4 and head 4·(g mod 4) + j. -/
theorem grp30_at (x0 x1 : ActC) (x3 x4 : WtC) (g : Fin 16) (j : Fin 4) (t s : Fin 2048) :
    Read.val_main_v30 x0 x1 x3 x4 (ix4 g j t s)
      = Attn.prob (Attn.qproj (Attn.act x0) (Attn.wt x3)) (Attn.lin (Attn.act x1) (Attn.wt x4)) (Attn.grpB g) (Attn.grpH g j) t s := by
  have hg := g.isLt; have hj := j.isLt; have ht := t.isLt; have hs := s.isLt
  have hnlt : g.val * 4 + j.val < 64 := by omega
  have e30 : Read.idx_main_v30 (ix4 g j t s) = ix3 (⟨g.val * 4 + j.val, hnlt⟩ : Fin 64) t s :=
    funext fun a => Fin.ext (by
      match a with
      | ⟨0, _⟩ => show (((g.val * 4 + j.val) * 2048 + t.val) * 2048 + s.val) / 4194304 = g.val * 4 + j.val; omega
      | ⟨1, _⟩ => show (((g.val * 4 + j.val) * 2048 + t.val) * 2048 + s.val) / 2048 % 2048 = t.val; omega
      | ⟨2, _⟩ => show (((g.val * 4 + j.val) * 2048 + t.val) * 2048 + s.val) % 2048 = s.val; omega)
  rw [Read.val_main_v30_apply, e30]
  exact prob_at x0 x1 x3 x4 _ t s (Attn.grpB g) (Attn.grpH g j)
    (by show g.val * 4 + j.val = g.val / 4 * 16 + (g.val % 4 * 4 + j.val); omega)

/-- The reference's second result at (j, t, s): the averaged weights. -/
theorem ref_avg_at (x0 x1 : (⟨S2048x4x1024, .f32⟩ : BufTy).Contents (Elt Ideal)) (x3 x4 : (⟨S1024x1024, .f32⟩ : BufTy).Contents (Elt Ideal))
    (j : Fin 4) (t s : Fin 2048) :
    Read.val_main_v33 x0 x1 x3 x4 (ix3 j t s)
      = Attn.avg (Attn.qproj (Attn.act x0) (Attn.wt x3)) (Attn.lin (Attn.act x1) (Attn.wt x4)) j t s := by
  have h31 : Read.val_main_v31 x0 x1 x3 x4 (ix3 j t s)
      = Attn.cZero + ∑ g : Fin 16, Attn.prob (Attn.qproj (Attn.act x0) (Attn.wt x3)) (Attn.lin (Attn.act x1) (Attn.wt x4))
          (Attn.grpB g) (Attn.grpH g j) t s := by
    rw [Read.val_main_v31_apply, Read.val_main_cst_3_apply]
    refine congrArg₂ (· + ·) rfl (Finset.sum_congr rfl fun k _ => ?_)
    have e31 : Read.idx_main_v31 (ix3 j t s) k = ix4 k j t s :=
      funext fun a => Fin.ext (by match a with | ⟨0, _⟩ => rfl | ⟨1, _⟩ => rfl | ⟨2, _⟩ => rfl | ⟨3, _⟩ => rfl)
    rw [e31, grp30_at]
  rw [Read.val_main_v33_apply, h31, Read.val_main_v32_apply, Read.val_main_cst_4_apply]
  rfl

end Cert.ReferenceIdeal.RefValue

end
-- ==== Proof.LibMoments.lean ====
/-
  Second moments on a finite index set, over the reals and carried to the extended reals.

  For real numbers x_i over a finite set s of N elements, with S = ∑ x_i:
      ( ∑ (x_i - S/N)² ) / N  =  ( ∑ x_i² ) / N  -  (S/N)²
  — the mean of the squared deviations from the mean is the mean of the squares minus the square of the mean. Over the
  extended reals the identity needs every x_i finite (at an infinite entry the left side is +∞ and the right side
  is +∞ - +∞), so it is stated for families given as coercions of real families, together with the small facts that
  keep finite sums, products, differences and quotients by a nonzero real inside the reals.
-/
import Mathlib
import Idealize.ShloMosaic.PureOps.Ideal

noncomputable section

namespace Moments

open Finset Idealize.ShloMosaic

/-- The coercion of a finite real sum is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An extended real is FINITE when it is the coercion of a real. -/
def Fin' (x : EReal) : Prop := ∃ r : ℝ, x = (r : EReal)

theorem Fin'.coe (r : ℝ) : Fin' (r : EReal) := ⟨r, rfl⟩
theorem Fin'.zero : Fin' (0 : EReal) := ⟨0, rfl⟩
theorem Fin'.add {x y : EReal} (hx : Fin' x) (hy : Fin' y) : Fin' (x + y) := by
  obtain ⟨a, rfl⟩ := hx; obtain ⟨b, rfl⟩ := hy; exact ⟨a + b, (EReal.coe_add a b).symm⟩
theorem Fin'.sub {x y : EReal} (hx : Fin' x) (hy : Fin' y) : Fin' (x - y) := by
  obtain ⟨a, rfl⟩ := hx; obtain ⟨b, rfl⟩ := hy; exact ⟨a - b, (EReal.coe_sub a b).symm⟩
theorem Fin'.mul {x y : EReal} (hx : Fin' x) (hy : Fin' y) : Fin' (x * y) := by
  obtain ⟨a, rfl⟩ := hx; obtain ⟨b, rfl⟩ := hy; exact ⟨a * b, (EReal.coe_mul a b).symm⟩
theorem Fin'.max {x y : EReal} (hx : Fin' x) (hy : Fin' y) : Fin' (max x y) := by
  rcases max_choice x y with h | h <;> rw [h] <;> assumption
/-- A quotient by a nonzero real stays finite: division by such a number is the product with its reciprocal. -/
theorem Fin'.div {x : EReal} (hx : Fin' x) {y : ℝ} (hy : y ≠ 0) : Fin' (Ideal.div x (y : EReal)) := by
  rw [Ideal.div_coe hy]; exact hx.mul (Fin'.coe _)
/-- A finite sum of finite extended reals is finite. -/
theorem Fin'.sum {ι : Type*} (s : Finset ι) (f : ι → EReal) (h : ∀ i ∈ s, Fin' (f i)) : Fin' (∑ i ∈ s, f i) := by
  classical
  induction s using Finset.induction_on with
  | empty => simpa using Fin'.zero
  | insert a s ha ih =>
    rw [Finset.sum_insert ha]
    exact (h a (Finset.mem_insert_self a s)).add (ih fun i hi => h i (Finset.mem_insert_of_mem hi))

/-- The quotient of a real by a nonzero real, as extended reals. -/
theorem div_coe_coe (a : ℝ) {y : ℝ} (hy : y ≠ 0) : Ideal.div (a : EReal) (y : EReal) = ((a / y : ℝ) : EReal) := by
  rw [Ideal.div_coe hy, ← EReal.coe_mul, mul_one_div]

/-- The two-moment identity over the reals: the mean of the squared deviations from the mean is the mean of the
    squares minus the square of the mean. -/
theorem var_real {ι : Type*} (s : Finset ι) (x : ι → ℝ) (N : ℝ) (hN : (s.card : ℝ) = N) (h0 : N ≠ 0) :
    (∑ i ∈ s, (x i - (∑ j ∈ s, x j) / N) * (x i - (∑ j ∈ s, x j) / N)) / N
      = (∑ i ∈ s, x i * x i) / N - ((∑ j ∈ s, x j) / N) * ((∑ j ∈ s, x j) / N) := by
  set S := ∑ j ∈ s, x j with hS
  have h1 : ∑ i ∈ s, (x i - S / N) * (x i - S / N)
      = (∑ i ∈ s, x i * x i) - 2 * (S / N) * S + N * ((S / N) * (S / N)) := by
    have e : ∀ i, (x i - S / N) * (x i - S / N) = x i * x i - 2 * (S / N) * x i + (S / N) * (S / N) := fun i => by ring
    simp only [e]
    rw [Finset.sum_add_distrib, Finset.sum_sub_distrib, ← Finset.mul_sum, Finset.sum_const, nsmul_eq_mul, hN]
  rw [h1]
  field_simp
  ring

end Moments

end
-- ==== Proof.LibSoftmaxShift.lean ====
/-
  A softmax on the extended reals does not see a common real shift of its scores.

  For real scores s_j and a real M, exp (s_j − M) / Σ_j' exp (s_j' − M) = exp s_j / Σ_j' exp s_j': the common
  factor exp (−M) cancels, the sums being positive. It is an identity of real numbers, carried into the extended
  reals through the coercion of a finite sum (a sum of coerced reals is the coerced sum). The shift a stable
  softmax subtracts is the row's maximum, the fold of max from −∞ over the row; over at least one real it is
  a real: below +∞ because every entry is, and at least the first entry, hence above −∞.
-/
import Idealize.ShloMosaic.PureOps.Ideal

noncomputable section

namespace Cert.LibSoftmaxShift

open Idealize.ShloMosaic
open scoped BigOperators

/-- A finite sum of reals, each read as an extended real, is the real sum read as an extended real. -/
theorem coe_sum {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- Softmax does not see a common real shift of its scores. -/
theorem softmax_shift {ι : Type} [Fintype ι] [Nonempty ι] (s : ι → ℝ) (M : ℝ) (j : ι) :
    Ideal.div (Ideal.exp ((s j : EReal) - (M : EReal))) (0 + ∑ j' : ι, Ideal.exp ((s j' : EReal) - (M : EReal)))
      = Ideal.div (Ideal.exp (s j : EReal)) (∑ j' : ι, Ideal.exp (s j' : EReal)) := by
  have hpos : ∀ t : ι → ℝ, (0 : ℝ) < ∑ j' : ι, Real.exp (t j') := fun t =>
    Finset.sum_pos (fun _ _ => Real.exp_pos _) Finset.univ_nonempty
  simp only [← EReal.coe_sub, Ideal.exp_coe, coe_sum, zero_add]
  rw [Ideal.div_coe (hpos fun j' => s j' - M).ne', Ideal.div_coe (hpos s).ne', ← EReal.coe_mul, ← EReal.coe_mul]
  congr 1
  have hM : Real.exp M ≠ 0 := (Real.exp_pos M).ne'
  have h1 : ∑ j' : ι, Real.exp (s j' - M) = (∑ j' : ι, Real.exp (s j')) / Real.exp M := by
    rw [Finset.sum_div]; exact Finset.sum_congr rfl fun j' _ => Real.exp_sub _ _
  rw [h1, Real.exp_sub]
  have := (hpos s).ne'
  field_simp

/-- The maximum of finitely many reals (at least one), started from ⊥, is a real. -/
theorem fold_max_real {n : Nat} (hn : 0 < n) (f : Fin n → EReal) (hf : ∀ k, ∃ r : ℝ, f k = (r : EReal)) :
    ∃ r : ℝ, (Finset.univ : Finset (Fin n)).fold max ⊥ f = (r : EReal) := by
  have hlt : (Finset.univ : Finset (Fin n)).fold max ⊥ f < ⊤ :=
    (Finset.fold_max_lt _).2 ⟨bot_lt_top, fun k _ => by obtain ⟨r, hr⟩ := hf k; rw [hr]; exact EReal.coe_lt_top r⟩
  have hge : f ⟨0, hn⟩ ≤ (Finset.univ : Finset (Fin n)).fold max ⊥ f :=
    (Finset.le_fold_max _).2 (Or.inr ⟨⟨0, hn⟩, Finset.mem_univ _, le_rfl⟩)
  have hne : (Finset.univ : Finset (Fin n)).fold max ⊥ f ≠ ⊥ := by
    obtain ⟨r, hr⟩ := hf ⟨0, hn⟩
    rw [hr] at hge
    exact ne_of_gt (lt_of_lt_of_le (EReal.bot_lt_coe r) hge)
  exact ⟨_, (EReal.coe_toReal hlt.ne hne).symm⟩

end Cert.LibSoftmaxShift

end
-- ==== Proof.AvgLaw.lean ====
/-
  Finiteness of attention on real inputs, and the averaged weights as an accumulation.

  When every projected query and key entry is a real number, so is every score (a finite sum of products), every row
  maximum (the maximum of at least one real, started from −∞), every exponential (positive), every row sum (positive,
  hence nonzero) and every attention weight. On real weights the accumulation "start from 0, add each weight times
  1/16" and the reference's "sum the weights from 0, divide by 16" are the same real number: multiplication by 1/16
  distributes over a finite sum of reals, and division by the real 16 is multiplication by 1/16. On the extended reals
  without finiteness the two could differ, since multiplication does not distribute over a sum that meets both infinities.
-/
import proofs.«179876_j77678778515968_2_alg».proof.Proof.Spec
import proofs.«179876_j77678778515968_2_alg».proof.Proof.LibMoments
import proofs.«179876_j77678778515968_2_alg».proof.Proof.LibSoftmaxShift

noncomputable section

namespace Cert.Attn

open Idealize.ShloMosaic Moments

/-! ## The f32 words -/

theorem cNegInf_eq : cNegInf = ⊥ := by
  unfold cNegInf; simp [Ideal.ofBits, Ideal.ieee]
theorem cZero_eq : cZero = 0 := by
  unfold cZero; simp [Ideal.ofBits, Ideal.ieee]
theorem cInvH_eq : cInvH = ((1 / 16 : ℝ) : EReal) := by
  unfold cInvH; simp [Ideal.ofBits, Ideal.ieee, -EReal.coe_mul]; norm_num
theorem cH_eq : cH = ((16 : ℝ) : EReal) := by
  unfold cH; simp [Ideal.ofBits, Ideal.ieee, -EReal.coe_mul]; norm_num
theorem cScale_eq : cScale = ((1 / 8 : ℝ) : EReal) := by
  unfold cScale; simp [Ideal.ofBits, Ideal.ieee, -EReal.coe_mul]; norm_num

/-! ## Finiteness -/

/-- Every entry of an activation array is a real number. -/
def RealAct (x : Act) : Prop := ∀ t b f, Fin' (x t b f)
/-- Every entry of a weight matrix is a real number. -/
def RealWt (w : Wt) : Prop := ∀ f k, Fin' (w f k)

theorem lin_real {x : Act} {w : Wt} (hx : RealAct x) (hw : RealWt w) : RealAct (lin x w) :=
  fun t b f => Fin'.sum _ _ fun k _ => (hx t b k).mul (hw f k)

theorem qproj_real {x : Act} {w : Wt} (hx : RealAct x) (hw : RealWt w) : RealAct (qproj x w) :=
  fun t b f => (lin_real hx hw t b f).mul ⟨_, cScale_eq⟩

variable {q k : Act}

theorem score_real (hq : RealAct q) (hk : RealAct k) (b : Fin 4) (h : Fin 16) (t s : Fin 2048) : Fin' (score q k b h t s) :=
  Fin'.sum _ _ fun d _ => (hq t b (col h d)).mul (hk s b (col h d))

theorem rowMax_real (hq : RealAct q) (hk : RealAct k) (b : Fin 4) (h : Fin 16) (t : Fin 2048) : Fin' (rowMax q k b h t) := by
  unfold rowMax
  rw [cNegInf_eq]
  exact Cert.LibSoftmaxShift.fold_max_real (by norm_num) _ fun s => score_real hq hk b h t s

/-- An exponential of a real is a positive real. -/
theorem pexp_pos (hq : RealAct q) (hk : RealAct k) (b : Fin 4) (h : Fin 16) (t s : Fin 2048) :
    ∃ r : ℝ, 0 < r ∧ pexp q k b h t s = (r : EReal) := by
  obtain ⟨a, ha⟩ := score_real hq hk b h t s
  obtain ⟨m, hm⟩ := rowMax_real hq hk b h t
  refine ⟨Real.exp (a - m), Real.exp_pos _, ?_⟩
  unfold pexp
  rw [ha, hm, ← EReal.coe_sub, Ideal.exp_coe]

/-- A row of positive reals has a positive real sum. -/
theorem rowSum_pos (hq : RealAct q) (hk : RealAct k) (b : Fin 4) (h : Fin 16) (t : Fin 2048) :
    ∃ r : ℝ, 0 < r ∧ rowSum q k b h t = (r : EReal) := by
  choose e he0 he using fun s => pexp_pos hq hk b h t s
  refine ⟨∑ s : Fin 2048, e s, Finset.sum_pos (fun s _ => he0 s) ⟨0, Finset.mem_univ _⟩, ?_⟩
  unfold rowSum
  rw [coe_sum]
  exact Finset.sum_congr rfl fun s _ => he s

theorem prob_real (hq : RealAct q) (hk : RealAct k) (b : Fin 4) (h : Fin 16) (t s : Fin 2048) : Fin' (prob q k b h t s) := by
  obtain ⟨e, _, he⟩ := pexp_pos hq hk b h t s
  obtain ⟨l, hl0, hl⟩ := rowSum_pos hq hk b h t
  unfold prob
  rw [he, hl]
  exact (Fin'.coe e).div hl0.ne'

/-! ## The accumulation is the average -/

/-- Sixteen reals accumulated from 0, each times 1/16, against their sum from 0 divided by 16. -/
theorem acc_eq_avg (p : Fin 16 → ℝ) :
    ∀ n ≤ 16, (Nat.rec (motive := fun _ => EReal) cZero
        (fun n acc => acc + (if h : n < 16 then ((p ⟨n, h⟩ : ℝ) : EReal) else 0) * cInvH) n)
      = (((∑ i ∈ Finset.range n, (if h : i < 16 then p ⟨i, h⟩ else 0)) * (1 / 16) : ℝ) : EReal) := by
  intro n
  induction n with
  | zero => intro _; simp [cZero_eq]
  | succ n ih =>
    intro hn
    have hn' : n < 16 := hn
    show (Nat.rec (motive := fun _ => EReal) cZero _ n) + _ = _
    rw [ih (Nat.le_of_lt hn'), dif_pos hn', cInvH_eq, ← EReal.coe_mul, ← EReal.coe_add, Finset.sum_range_succ, dif_pos hn']
    congr 1
    ring

theorem avgAcc_eq_avg (hq : RealAct q) (hk : RealAct k) (j : Fin 4) (t s : Fin 2048) :
    avgAcc q k j t s 16 = avg q k j t s := by
  choose p hp using fun g : Fin 16 => prob_real hq hk (grpB g) (grpH g j) t s
  have hacc : ∀ n, avgAcc q k j t s n = Nat.rec (motive := fun _ => EReal) cZero
      (fun n acc => acc + (if h : n < 16 then ((p ⟨n, h⟩ : ℝ) : EReal) else 0) * cInvH) n := by
    intro n
    induction n with
    | zero => rfl
    | succ n ih =>
      show avgAcc q k j t s n + _ = (Nat.rec (motive := fun _ => EReal) cZero _ n) + _
      rw [ih]
      congr 2
      split
      · exact hp _
      · rfl
  rw [hacc 16, acc_eq_avg p 16 le_rfl]
  unfold avg
  have hs : ∑ g : Fin 16, prob q k (grpB g) (grpH g j) t s = ((∑ g : Fin 16, p g : ℝ) : EReal) := by
    rw [coe_sum]; exact Finset.sum_congr rfl fun g _ => hp g
  have hr : (∑ i ∈ Finset.range 16, (if h : i < 16 then p ⟨i, h⟩ else 0)) = ∑ g : Fin 16, p g := by
    rw [← Fin.sum_univ_eq_sum_range (fun i => if h : i < 16 then p ⟨i, h⟩ else 0) 16]
    exact Finset.sum_congr rfl fun g _ => by rw [dif_pos g.isLt]
  rw [hr, hs, cZero_eq, zero_add, cH_eq, Ideal.div_coe (by norm_num : (16 : ℝ) ≠ 0), ← EReal.coe_mul]

end Cert.Attn

end
-- ==== Proof.LibFiniteInputs.lean ====
/-
  A "finite inputs" precondition read back: an array every entry of which has |x| < +∞ is an array of real numbers.

  Such a precondition computes, for an array x, the conjunction over all entries of the comparison |x| < +∞ (the absolute
  value as max x (−x), +∞ as the f32 word 0x7F800000 broadcast to the array's shape, the conjunction as a reduce by 'and'
  over every axis from the constant 1). If that conjunction is 1 every comparison is 1; an extended real whose absolute
  value is below +∞ is neither −∞ (whose absolute value is +∞) nor +∞, so it is a real number.
-/
import proofs.«179876_j77678778515968_2_alg».proof.Proof.LibMoments
import Idealize.ShloMosaic.PureOps.Ideal
import Idealize.ShloMosaic.Lib.ReduceAll
import Idealize.ShloMosaic.Lib.ValueIdx

noncomputable section

namespace Cert.LibFiniteInputs

open Idealize.ShloMosaic

/-- The shape of a scalar. -/
abbrev S0 : Shape := ⟨0, ![]⟩

/-- The shape of a scalar has exactly one index. -/
instance subsingleton_scalar_idx : Subsingleton S0.Idx := ⟨fun a b => funext fun d => d.elim0⟩

/-- The word 0x7F800000 is +∞. -/
theorem posInf_val : Ideal.ofBits .f32 0x7F800000#32 = (⊤ : EReal) := by simp [Ideal.ofBits, Ideal.ieee]

/-- An extended real whose absolute value max x (−x) compares below +∞ is a real number: −∞ has absolute value +∞, and
    so has +∞. -/
theorem real_of_abs_lt (x : EReal) (h : Ideal.cmp .olt (max x (-x)) (Ideal.ofBits .f32 0x7F800000#32) = 1#1) :
    Moments.Fin' x := by
  rw [posInf_val] at h
  have hlt : max x (-x) < ⊤ := by
    by_contra hn
    have h0 : Ideal.cmp .olt (max x (-x)) ⊤ = 0#1 := by simp [Ideal.cmp, hn]
    rw [h0] at h
    exact absurd h (by decide)
  induction x using EReal.rec with
  | bot => exact absurd hlt (by simp)
  | top => exact absurd hlt (by simp)
  | coe r => exact ⟨r, rfl⟩

/-- If the conjunction over a whole array of the comparisons |x| < +∞ is 1, every entry of the array is real. -/
theorem all_real {s : Shape} {axes : List (Fin s.rank)} (x : FVec Ideal s .f32)
    (hb : S0.BroadcastsInDim s (![] : Fin 0 → Fin s.rank)) (hr : s.ReducesTo axes S0) (hu : 0 < S0.numel)
    (e : Host.reduce IntOp.andi (cmpf .olt (Host.absf x) (broadcastInDim s ![] hb (constant S0 .f32 0x7F800000#32)))
      (constantI S0 1 1#1) hr hu ValueIdx.ix0 = 1#1) (i : s.Idx) : Moments.Fin' (x i) :=
  real_of_abs_lt (x i) (Host.reduce_andi_all _ _ hr hu ValueIdx.ix0 e i)

end Cert.LibFiniteInputs

end
-- ==== Proof.Finite.lean ====
/-
  The precondition read back: every float input is a real number.

  The precondition compares the absolute value of every entry of every argument array with +∞ and takes the conjunction
  of all comparisons, array after array. If it is all ones, each array's conjunction is 1, so every entry of every
  array is a real number.
-/
import proofs.«179876_j77678778515968_2_alg».proof.Pre_finite_inputs
import proofs.«179876_j77678778515968_2_alg».proof.Proof.Gen.Pre_finite_inputs
import proofs.«179876_j77678778515968_2_alg».proof.Proof.LibMoments
import proofs.«179876_j77678778515968_2_alg».proof.Proof.LibFiniteInputs
import Idealize.ShloMosaic.PureOps.Ideal
import Idealize.ShloMosaic.Lib.ReduceAll
import Idealize.ShloMosaic.Lib.ValueIdx

noncomputable section

namespace Cert.Finite

open Idealize.ShloMosaic Cert.Pre_finite_inputs Cert.LibFiniteInputs

/-- If the precondition is all ones on eight argument arrays, every entry of each is a real number. -/
theorem of_pre (x0 x1 x2 : FVec Ideal S2048x4x1024 .f32) (x3 x4 x5 x6 : FVec Ideal S1024x1024 .f32) (x7 : FVec Ideal S1024 .f32)
    (h : Cert.Pre_finite_inputs.fn (F := Ideal) x0 x1 x2 x3 x4 x5 x6 x7 = fun _ => 1#1) :
    (∀ i, Moments.Fin' (x0 i)) ∧ (∀ i, Moments.Fin' (x1 i)) ∧ (∀ i, Moments.Fin' (x2 i)) ∧ (∀ i, Moments.Fin' (x3 i))
      ∧ (∀ i, Moments.Fin' (x4 i)) ∧ (∀ i, Moments.Fin' (x5 i)) ∧ (∀ i, Moments.Fin' (x6 i)) ∧ (∀ i, Moments.Fin' (x7 i)) := by
  have h0 := congrFun h ValueIdx.ix0
  dsimp only [fn, fn_part1, fn_part2, andi] at h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨all_real x0 _ _ _ e0, all_real x1 _ _ _ e1, all_real x2 _ _ _ e2, all_real x3 _ _ _ e3, all_real x4 _ _ _ e4,
    all_real x5 _ _ _ e5, all_real x6 _ _ _ e6, all_real x7 _ _ _ e7⟩

end Cert.Finite

end
-- ==== Proof.lean ====
/-
  Multi-head attention: a kernel of five calls against its reference, at the exact values.

  The kernel program projects the queries (scaled by 1/8), keys and values with one call each, runs the attention call
  — for every batch row and query tile, head by head: scores, stable softmax, the weights' share of the averaged weights,
  the head's context — and projects the context with a last call. The reference does the same with whole-array
  operations. At the exact values both results are the same functions of the arguments:
  • the output is the context through the last linear layer plus the bias, where a matrix product in blocks is the
    whole matrix product, and a change of float format is the identity;
  • the averaged weights group the 64 (batch row, head) pairs by the pair number modulo 4; the kernel accumulates each
    group's 16 weights one at a time, each times 1/16, while the reference sums them and divides by 16. These agree
    because every weight is a real number when the inputs are: that is where the precondition is used.
-/
import proofs.«179876_j77678778515968_2_alg».proof.Defs
import proofs.«179876_j77678778515968_2_alg».proof.Proof.Gen.Kernel
import proofs.«179876_j77678778515968_2_alg».proof.Proof.Gen.Kernel.Frame
import proofs.«179876_j77678778515968_2_alg».proof.Proof.Gen.KernelIdeal
import proofs.«179876_j77678778515968_2_alg».proof.Proof.Gen.KernelIdeal.Frame
import proofs.«179876_j77678778515968_2_alg».proof.Proof.Gen.ReferenceIdeal
import proofs.«179876_j77678778515968_2_alg».proof.Proof.Gen.ReferenceIdeal.Run
import proofs.«179876_j77678778515968_2_alg».proof.Proof.Gen.ReferenceIdeal.Read
import proofs.«179876_j77678778515968_2_alg».proof.Proof.Gen.Pre_finite_inputs
import proofs.«179876_j77678778515968_2_alg».proof.Proof.KRun
import proofs.«179876_j77678778515968_2_alg».proof.Proof.KValue
import proofs.«179876_j77678778515968_2_alg».proof.Proof.RefValue
import proofs.«179876_j77678778515968_2_alg».proof.Proof.AvgLaw
import proofs.«179876_j77678778515968_2_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ
theorem frame_ki : Cert.frame_KernelIdeal := fun m ρ _ => Cert.KernelIdeal.Gen.frame m ρ
/-- The reference's run, its results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

/-- Both programs end with the attention output and the averaged weights of the arguments. -/
theorem algebraic : Cert.algebraic_KernelIdeal_ReferenceIdeal := by
  intro m ρ m' ρ' hpre hagree
  refine ⟨fun c => Cert.KernelIdeal.Gen.W6 m ρ c (Proc.devRef .tc Cert.KernelIdeal.main_v12),
    fun c => Cert.KernelIdeal.Gen.W6 m ρ c (Proc.devRef .tc Cert.KernelIdeal.main_v11_1),
    Cert.KernelIdeal.KRun.run (F := Ideal) m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · -- the output
    funext i
    obtain ⟨t, b, f, rfl⟩ : ∃ (t : Fin 2048) (b : Fin 4) (f : Fin 1024), i = ix3 t b f :=
      ⟨i 0, i 1, i 2, ValueIdx.eq_ix3 (n0 := 2048) (n1 := 4) (n2 := 1024) i⟩
    refine (congrFun (Cert.ReferenceIdeal.Read.val_main_v29_eq m' c) (ix3 t b f)).trans ?_
    refine (Cert.ReferenceIdeal.RefValue.ref_out_at _ _ _ _ _ _ _ _ t b f).trans ?_
    rw [(hagree c).1, (hagree c).2.1, (hagree c).2.2.1, (hagree c).2.2.2.1, (hagree c).2.2.2.2.1, (hagree c).2.2.2.2.2.1,
      (hagree c).2.2.2.2.2.2.1, (hagree c).2.2.2.2.2.2.2]
    exact (Cert.KernelIdeal.KValue.out_eq m ρ c t b f).symm
  · -- the averaged weights
    obtain ⟨h0, h1, -, h3, h4, -, -, -⟩ := Cert.Finite.of_pre _ _ _ _ _ _ _ _ (hpre c)
    have hq : Cert.Attn.RealAct (Cert.KernelIdeal.KValue.Q m c) :=
      Cert.Attn.qproj_real (fun t b f => h0 (ix3 t b f)) (fun f k => h3 (ix2 f k))
    have hk : Cert.Attn.RealAct (Cert.KernelIdeal.KValue.K m c) :=
      Cert.Attn.lin_real (fun t b f => h1 (ix3 t b f)) (fun f k => h4 (ix2 f k))
    funext i
    obtain ⟨j, t, s, rfl⟩ : ∃ (j : Fin 4) (t : Fin 2048) (s : Fin 2048), i = ix3 j t s :=
      ⟨i 0, i 1, i 2, ValueIdx.eq_ix3 (n0 := 4) (n1 := 2048) (n2 := 2048) i⟩
    refine (congrFun (Cert.ReferenceIdeal.Read.val_main_v33_eq m' c) (ix3 j t s)).trans ?_
    refine (Cert.ReferenceIdeal.RefValue.ref_avg_at _ _ _ _ j t s).trans ?_
    rw [(hagree c).1, (hagree c).2.1, (hagree c).2.2.2.1, (hagree c).2.2.2.2.1]
    exact ((Cert.KernelIdeal.KValue.avg_eq m ρ c j t s).trans (Cert.Attn.avgAcc_eq_avg hq hk j t s)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
